-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S2x800000 : Shape := ⟨2, ![2, 800000]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x800000 : S_.BroadcastsInDim S2x800000 (![] : Fin 0 → Fin S2x800000.rank)
  reducesTo_S2x800000_S_d0_1 : S2x800000.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S2x800000 .f32) (main_arg4 : FVec F S2x128x128 .f32) (main_arg5 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x800000 .f32 := Host.absf main_arg3
  let main_cst_0 : FVec F S_ .f32 := constant S_ .f32 0x7F800000#32
  let main_v5 : FVec F S2x800000 .f32 := broadcastInDim S2x800000 ![] bcast_S_S2x800000 main_cst_0
  let main_v6 : IVec S2x800000 1 := cmpf .olt main_v4 main_v5
  let main_c_1 : IVec S_ 1 := constantI S_ 1 1#1
  let main_v7 : IVec S_ 1 := (fun x v => Host.reduce IntOp.andi x v reducesTo_S2x800000_S_d0_1 h_S_) main_v6 main_c_1
  let main_v8 : IVec S_ 1 := andi main_v3 main_v7
  let main_v9 : FVec F S2x128x128 .f32 := Host.absf main_arg4
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_v13 main_v16
-- ==== Kernel.lean ====
abbrev S50000x128 : Shape := ⟨2, ![50000, 128]⟩
abbrev S800000 : Shape := ⟨1, ![800000]⟩
abbrev S2x800000 : Shape := ⟨2, ![2, 800000]⟩
abbrev S2x128x128 : Shape := ⟨3, ![2, 128, 128]⟩
abbrev S2x128 : Shape := ⟨2, ![2, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x800000 : Shape := ⟨2, ![1, 800000]⟩
abbrev S5000x128 : Shape := ⟨2, ![5000, 128]⟩
abbrev S5000x1 : Shape := ⟨2, ![5000, 1]⟩
abbrev S800000x128 : Shape := ⟨2, ![800000, 128]⟩
abbrev S6400x128 : Shape := ⟨2, ![6400, 128]⟩
abbrev S6400x1 : Shape := ⟨2, ![6400, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x256 : Shape := ⟨2, ![50000, 256]⟩

abbrev nBuf : Space → Nat
  | .hbm => 167
  | .vmem => 156
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S2x800000, .f32⟩
  | 4 => ⟨S2x128x128, .f32⟩
  | 5 => ⟨S2x128, .f32⟩
  | 6 => ⟨S_, .f32⟩
  | 7 => ⟨S800000, .f32⟩
  | 8 => ⟨S_, .f32⟩
  | 9 => ⟨S50000, .f32⟩
  | 10 => ⟨S800000x1, .i32⟩
  | 11 => ⟨S50000, .f32⟩
  | 12 => ⟨S_, .f32⟩
  | 13 => ⟨S_, .f32⟩
  | 14 => ⟨S50000, .f32⟩
  | 15 => ⟨S50000, .f32⟩
  | 16 => ⟨S_, .f32⟩
  | 17 => ⟨S50000, .f32⟩
  | 18 => ⟨S50000, .f32⟩
  | 19 => ⟨S50000x1, .f32⟩
  | 20 => ⟨S1x800000, .f32⟩
  | 21 => ⟨S800000, .f32⟩
  | 22 => ⟨S800000x1, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S50000x128, .f32⟩
  | 39 => ⟨S50000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S50000x128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S50000x128, .f32⟩
  | 93 => ⟨S1x800000, .f32⟩
  | 94 => ⟨S800000, .f32⟩
  | 95 => ⟨S800000x1, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S50000x128, .f32⟩
  | 112 => ⟨S50000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S50000x128, .f32⟩
  | 16 => ⟨S50000x128, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000x128, .f32⟩
  | 32 => ⟨S1x128x128, .f32⟩
  | 33 => ⟨S128x128, .f32⟩
  | 34 => ⟨S1x128, .f32⟩
  | 35 => ⟨S128, .f32⟩
  | 36 => ⟨S1x128, .f32⟩
  | 37 => ⟨S50000x128, .f32⟩
  | 38 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev vmemTy0_0 (i : Nat) : BufTy := match i % 128 with
  | 0 => ⟨S5000x128, .f32⟩
  | 1 => ⟨S5000x128, .f32⟩
  | 2 => ⟨S5000x1, .f32⟩
  | 3 => ⟨S5000x1, .f32⟩
  | 4 => ⟨S5000x128, .f32⟩
  | 5 => ⟨S5000x128, .f32⟩
  | 6 => ⟨S6400x128, .f32⟩
  | 7 => ⟨S6400x128, .f32⟩
  | 8 => ⟨S6400x1, .f32⟩
  | 9 => ⟨S6400x1, .f32⟩
  | 10 => ⟨S6400x128, .f32⟩
  | 11 => ⟨S6400x128, .f32⟩
  | 12 => ⟨S5000x128, .f32⟩
  | 13 => ⟨S5000x128, .f32⟩
  | 14 => ⟨S5000x128, .f32⟩
  | 15 => ⟨S5000x128, .f32⟩
  | 16 => ⟨S5000x128, .f32⟩
  | 17 => ⟨S5000x128, .f32⟩
  | 18 => ⟨S5000x128, .f32⟩
  | 19 => ⟨S5000x128, .f32⟩
  | 20 => ⟨S5000x1, .f32⟩
  | 21 => ⟨S5000x1, .f32⟩
  | 22 => ⟨S5000x128, .f32⟩
  | 23 => ⟨S5000x128, .f32⟩
  | 24 => ⟨S6400x128, .f32⟩
  | 25 => ⟨S6400x128, .f32⟩
  | 26 => ⟨S6400x1, .f32⟩
  | 27 => ⟨S6400x1, .f32⟩
  | 28 => ⟨S6400x128, .f32⟩
  | 29 => ⟨S6400x128, .f32⟩
  | 30 => ⟨S5000x128, .f32⟩
  | 31 => ⟨S5000x128, .f32⟩
  | 32 => ⟨S5000x128, .f32⟩
  | 33 => ⟨S5000x128, .f32⟩
  | 34 => ⟨S5000x128, .f32⟩
  | 35 => ⟨S5000x128, .f32⟩
  | 36 => ⟨S5000x128, .f32⟩
  | 37 => ⟨S5000x128, .f32⟩
  | 38 => ⟨S5000x1, .f32⟩
  | 39 => ⟨S5000x1, .f32⟩
  | 40 => ⟨S5000x128, .f32⟩
  | 41 => ⟨S5000x128, .f32⟩
  | 42 => ⟨S6400x128, .f32⟩
  | 43 => ⟨S6400x128, .f32⟩
  | 44 => ⟨S6400x1, .f32⟩
  | 45 => ⟨S6400x1, .f32⟩
  | 46 => ⟨S6400x128, .f32⟩
  | 47 => ⟨S6400x128, .f32⟩
  | 48 => ⟨S5000x128, .f32⟩
  | 49 => ⟨S5000x128, .f32⟩
  | 50 => ⟨S5000x128, .f32⟩
  | 51 => ⟨S5000x128, .f32⟩
  | 52 => ⟨S5000x128, .f32⟩
  | 53 => ⟨S5000x128, .f32⟩
  | 54 => ⟨S5000x128, .f32⟩
  | 55 => ⟨S5000x128, .f32⟩
  | 56 => ⟨S5000x1, .f32⟩
  | 57 => ⟨S5000x1, .f32⟩
  | 58 => ⟨S5000x128, .f32⟩
  | 59 => ⟨S5000x128, .f32⟩
  | 60 => ⟨S6400x128, .f32⟩
  | 61 => ⟨S6400x128, .f32⟩
  | 62 => ⟨S6400x1, .f32⟩
  | 63 => ⟨S6400x1, .f32⟩
  | 64 => ⟨S6400x128, .f32⟩
  | 65 => ⟨S6400x128, .f32⟩
  | 66 => ⟨S5000x128, .f32⟩
  | 67 => ⟨S5000x128, .f32⟩
  | 68 => ⟨S5000x128, .f32⟩
  | 69 => ⟨S5000x128, .f32⟩
  | 70 => ⟨S5000x128, .f32⟩
  | 71 => ⟨S5000x128, .f32⟩
  | 72 => ⟨S5000x128, .f32⟩
  | 73 => ⟨S5000x128, .f32⟩
  | 74 => ⟨S128x128, .f32⟩
  | 75 => ⟨S1x128, .f32⟩
  | 76 => ⟨S5000x128, .f32⟩
  | 77 => ⟨S5000x128, .f32⟩
  | 78 => ⟨S5000x128, .f32⟩
  | 79 => ⟨S5000x128, .f32⟩
  | 80 => ⟨S5000x1, .f32⟩
  | 81 => ⟨S5000x1, .f32⟩
  | 82 => ⟨S5000x128, .f32⟩
  | 83 => ⟨S5000x128, .f32⟩
  | 84 => ⟨S6400x128, .f32⟩
  | 85 => ⟨S6400x128, .f32⟩
  | 86 => ⟨S6400x1, .f32⟩
  | 87 => ⟨S6400x1, .f32⟩
  | 88 => ⟨S6400x128, .f32⟩
  | 89 => ⟨S6400x128, .f32⟩
  | 90 => ⟨S5000x128, .f32⟩
  | 91 => ⟨S5000x128, .f32⟩
  | 92 => ⟨S5000x128, .f32⟩
  | 93 => ⟨S5000x128, .f32⟩
  | 94 => ⟨S5000x128, .f32⟩
  | 95 => ⟨S5000x128, .f32⟩
  | 96 => ⟨S5000x128, .f32⟩
  | 97 => ⟨S5000x128, .f32⟩
  | 98 => ⟨S5000x1, .f32⟩
  | 99 => ⟨S5000x1, .f32⟩
  | 100 => ⟨S5000x128, .f32⟩
  | 101 => ⟨S5000x128, .f32⟩
  | 102 => ⟨S6400x128, .f32⟩
  | 103 => ⟨S6400x128, .f32⟩
  | 104 => ⟨S6400x1, .f32⟩
  | 105 => ⟨S6400x1, .f32⟩
  | 106 => ⟨S6400x128, .f32⟩
  | 107 => ⟨S6400x128, .f32⟩
  | 108 => ⟨S5000x128, .f32⟩
  | 109 => ⟨S5000x128, .f32⟩
  | 110 => ⟨S5000x128, .f32⟩
  | 111 => ⟨S5000x128, .f32⟩
  | 112 => ⟨S5000x128, .f32⟩
  | 113 => ⟨S5000x128, .f32⟩
  | 114 => ⟨S5000x128, .f32⟩
  | 115 => ⟨S5000x128, .f32⟩
  | 116 => ⟨S5000x1, .f32⟩
  | 117 => ⟨S5000x1, .f32⟩
  | 118 => ⟨S5000x128, .f32⟩
  | 119 => ⟨S5000x128, .f32⟩
  | 120 => ⟨S6400x128, .f32⟩
  | 121 => ⟨S6400x128, .f32⟩
  | 122 => ⟨S6400x1, .f32⟩
  | 123 => ⟨S6400x1, .f32⟩
  | 124 => ⟨S6400x128, .f32⟩
  | 125 => ⟨S6400x128, .f32⟩
  | 126 => ⟨S5000x128, .f32⟩
  | 127 => ⟨S5000x128, .f32⟩
  | _ => ⟨S50000x128, .f32⟩

abbrev vmemTy0_1 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S5000x128, .f32⟩
  | 5 => ⟨S5000x128, .f32⟩
  | 6 => ⟨S5000x1, .f32⟩
  | 7 => ⟨S5000x1, .f32⟩
  | 8 => ⟨S5000x128, .f32⟩
  | 9 => ⟨S5000x128, .f32⟩
  | 10 => ⟨S6400x128, .f32⟩
  | 11 => ⟨S6400x128, .f32⟩
  | 12 => ⟨S6400x1, .f32⟩
  | 13 => ⟨S6400x1, .f32⟩
  | 14 => ⟨S6400x128, .f32⟩
  | 15 => ⟨S6400x128, .f32⟩
  | 16 => ⟨S5000x128, .f32⟩
  | 17 => ⟨S5000x128, .f32⟩
  | 18 => ⟨S5000x128, .f32⟩
  | 19 => ⟨S5000x128, .f32⟩
  | 20 => ⟨S5000x128, .f32⟩
  | 21 => ⟨S5000x128, .f32⟩
  | 22 => ⟨S5000x128, .f32⟩
  | 23 => ⟨S5000x128, .f32⟩
  | 24 => ⟨S128x128, .f32⟩
  | 25 => ⟨S1x128, .f32⟩
  | 26 => ⟨S5000x128, .f32⟩
  | 27 => ⟨S5000x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 156 → Bool
  | ⟨i, _⟩ => dmaSemScopedAt i

abbrev sig : RefSig :=
  ofTc nBuf bufTy 0 156 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_14 : Ref sig .tc := ⟨.hbm, 97, rfl⟩
abbrev main_v73 : Ref sig .tc := ⟨.hbm, 98, rfl⟩
abbrev main_v74 : Ref sig .tc := ⟨.hbm, 99, rfl⟩
abbrev main_c_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_17 : Ref sig .tc := ⟨.hbm, 113, rfl⟩
abbrev main_v86 : Ref sig .tc := ⟨.hbm, 114, rfl⟩
abbrev main_v87 : Ref sig .tc := ⟨.hbm, 115, rfl⟩
abbrev main_c_18 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_19 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_20 : Ref sig .tc := ⟨.hbm, 129, rfl⟩
abbrev main_v99 : Ref sig .tc := ⟨.hbm, 130, rfl⟩
abbrev main_v100 : Ref sig .tc := ⟨.hbm, 131, rfl⟩
abbrev main_c_21 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_22 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_c_23 : Ref sig .tc := ⟨.hbm, 145, rfl⟩
abbrev main_v112 : Ref sig .tc := ⟨.hbm, 146, rfl⟩
abbrev main_v113 : Ref sig .tc := ⟨.hbm, 147, rfl⟩
abbrev main_c_24 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_25 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg1_1 : Ref sig .tc := ⟨.vmem, 69, rfl⟩
abbrev cc11_stg2_0 : Ref sig .tc := ⟨.vmem, 70, rfl⟩
abbrev cc11_stg2_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg2_0 : Ref sig .tc := ⟨.vmem, 75, rfl⟩
abbrev cc12_stg3_0 : Ref sig .tc := ⟨.vmem, 76, rfl⟩
abbrev cc12_stg3_1 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg1_1 : Ref sig .tc := ⟨.vmem, 81, rfl⟩
abbrev cc13_stg2_0 : Ref sig .tc := ⟨.vmem, 82, rfl⟩
abbrev cc13_stg2_1 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg1_1 : Ref sig .tc := ⟨.vmem, 87, rfl⟩
abbrev cc14_stg2_0 : Ref sig .tc := ⟨.vmem, 88, rfl⟩
abbrev cc14_stg2_1 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg1_1 : Ref sig .tc := ⟨.vmem, 93, rfl⟩
abbrev cc15_stg2_0 : Ref sig .tc := ⟨.vmem, 94, rfl⟩
abbrev cc15_stg2_1 : Ref sig .tc := ⟨.vmem, 95, rfl⟩
abbrev cc16_stg0_0 : Ref sig .tc := ⟨.vmem, 96, rfl⟩
abbrev cc16_stg0_1 : Ref sig .tc := ⟨.vmem, 97, rfl⟩
abbrev cc16_stg1_0 : Ref sig .tc := ⟨.vmem, 98, rfl⟩
abbrev cc16_stg1_1 : Ref sig .tc := ⟨.vmem, 99, rfl⟩
abbrev cc16_stg2_0 : Ref sig .tc := ⟨.vmem, 100, rfl⟩
abbrev cc16_stg2_1 : Ref sig .tc := ⟨.vmem, 101, rfl⟩
abbrev cc17_stg0_0 : Ref sig .tc := ⟨.vmem, 102, rfl⟩
abbrev cc17_stg0_1 : Ref sig .tc := ⟨.vmem, 103, rfl⟩
abbrev cc17_stg1_0 : Ref sig .tc := ⟨.vmem, 104, rfl⟩
abbrev cc17_stg1_1 : Ref sig .tc := ⟨.vmem, 105, rfl⟩
abbrev cc17_stg2_0 : Ref sig .tc := ⟨.vmem, 106, rfl⟩
abbrev cc17_stg2_1 : Ref sig .tc := ⟨.vmem, 107, rfl⟩
abbrev cc18_stg0_0 : Ref sig .tc := ⟨.vmem, 108, rfl⟩
abbrev cc18_stg0_1 : Ref sig .tc := ⟨.vmem, 109, rfl⟩
abbrev cc18_stg1_0 : Ref sig .tc := ⟨.vmem, 110, rfl⟩
abbrev cc18_stg1_1 : Ref sig .tc := ⟨.vmem, 111, rfl⟩
abbrev cc18_stg2_0 : Ref sig .tc := ⟨.vmem, 112, rfl⟩
abbrev cc18_stg2_1 : Ref sig .tc := ⟨.vmem, 113, rfl⟩
abbrev cc19_stg0_0 : Ref sig .tc := ⟨.vmem, 114, rfl⟩
abbrev cc19_stg0_1 : Ref sig .tc := ⟨.vmem, 115, rfl⟩
abbrev cc19_stg1_0 : Ref sig .tc := ⟨.vmem, 116, rfl⟩
abbrev cc19_stg1_1 : Ref sig .tc := ⟨.vmem, 117, rfl⟩
abbrev cc19_stg2_0 : Ref sig .tc := ⟨.vmem, 118, rfl⟩
abbrev cc19_stg2_1 : Ref sig .tc := ⟨.vmem, 119, rfl⟩
abbrev cc20_stg0_0 : Ref sig .tc := ⟨.vmem, 120, rfl⟩
abbrev cc20_stg0_1 : Ref sig .tc := ⟨.vmem, 121, rfl⟩
abbrev cc20_stg1_0 : Ref sig .tc := ⟨.vmem, 122, rfl⟩
abbrev cc20_stg1_1 : Ref sig .tc := ⟨.vmem, 123, rfl⟩
abbrev cc20_stg2_0 : Ref sig .tc := ⟨.vmem, 124, rfl⟩
abbrev cc20_stg2_1 : Ref sig .tc := ⟨.vmem, 125, rfl⟩
abbrev cc21_stg0_0 : Ref sig .tc := ⟨.vmem, 126, rfl⟩
abbrev cc21_stg0_1 : Ref sig .tc := ⟨.vmem, 127, rfl⟩
abbrev cc21_stg1_0 : Ref sig .tc := ⟨.vmem, 128, rfl⟩
abbrev cc21_stg1_1 : Ref sig .tc := ⟨.vmem, 129, rfl⟩
abbrev cc21_stg2_0 : Ref sig .tc := ⟨.vmem, 130, rfl⟩
abbrev cc21_stg2_1 : Ref sig .tc := ⟨.vmem, 131, rfl⟩
abbrev cc22_stg0_0 : Ref sig .tc := ⟨.vmem, 132, rfl⟩
abbrev cc22_stg0_1 : Ref sig .tc := ⟨.vmem, 133, rfl⟩
abbrev cc22_stg1_0 : Ref sig .tc := ⟨.vmem, 134, rfl⟩
abbrev cc22_stg1_1 : Ref sig .tc := ⟨.vmem, 135, rfl⟩
abbrev cc22_stg2_0 : Ref sig .tc := ⟨.vmem, 136, rfl⟩
abbrev cc22_stg2_1 : Ref sig .tc := ⟨.vmem, 137, rfl⟩
abbrev cc23_stg0_0 : Ref sig .tc := ⟨.vmem, 138, rfl⟩
abbrev cc23_stg0_1 : Ref sig .tc := ⟨.vmem, 139, rfl⟩
abbrev cc23_stg1_0 : Ref sig .tc := ⟨.vmem, 140, rfl⟩
abbrev cc23_stg1_1 : Ref sig .tc := ⟨.vmem, 141, rfl⟩
abbrev cc23_stg2_0 : Ref sig .tc := ⟨.vmem, 142, rfl⟩
abbrev cc23_stg2_1 : Ref sig .tc := ⟨.vmem, 143, rfl⟩
abbrev cc24_stg0_0 : Ref sig .tc := ⟨.vmem, 144, rfl⟩
abbrev cc24_stg0_1 : Ref sig .tc := ⟨.vmem, 145, rfl⟩
abbrev cc24_stg1_0 : Ref sig .tc := ⟨.vmem, 146, rfl⟩
abbrev cc24_stg1_1 : Ref sig .tc := ⟨.vmem, 147, rfl⟩
abbrev cc24_stg2_0 : Ref sig .tc := ⟨.vmem, 148, rfl⟩
abbrev cc24_stg2_1 : Ref sig .tc := ⟨.vmem, 149, rfl⟩
abbrev cc25_stg0_0 : Ref sig .tc := ⟨.vmem, 150, rfl⟩
abbrev cc25_stg0_1 : Ref sig .tc := ⟨.vmem, 151, rfl⟩
abbrev cc25_stg1_0 : Ref sig .tc := ⟨.vmem, 152, rfl⟩
abbrev cc25_stg2_0 : Ref sig .tc := ⟨.vmem, 153, rfl⟩
abbrev cc25_stg3_0 : Ref sig .tc := ⟨.vmem, 154, rfl⟩
abbrev cc25_stg3_1 : Ref sig .tc := ⟨.vmem, 155, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65
abbrev cc11_sem0_0 : DmaSem sig := 66
abbrev cc11_sem0_1 : DmaSem sig := 67
abbrev cc11_sem1_0 : DmaSem sig := 68
abbrev cc11_sem1_1 : DmaSem sig := 69
abbrev cc11_sem2_0 : DmaSem sig := 70
abbrev cc11_sem2_1 : DmaSem sig := 71
abbrev cc12_sem0_0 : DmaSem sig := 72
abbrev cc12_sem0_1 : DmaSem sig := 73
abbrev cc12_sem1_0 : DmaSem sig := 74
abbrev cc12_sem2_0 : DmaSem sig := 75
abbrev cc12_sem3_0 : DmaSem sig := 76
abbrev cc12_sem3_1 : DmaSem sig := 77
abbrev cc13_sem0_0 : DmaSem sig := 78
abbrev cc13_sem0_1 : DmaSem sig := 79
abbrev cc13_sem1_0 : DmaSem sig := 80
abbrev cc13_sem1_1 : DmaSem sig := 81
abbrev cc13_sem2_0 : DmaSem sig := 82
abbrev cc13_sem2_1 : DmaSem sig := 83
abbrev cc14_sem0_0 : DmaSem sig := 84
abbrev cc14_sem0_1 : DmaSem sig := 85
abbrev cc14_sem1_0 : DmaSem sig := 86
abbrev cc14_sem1_1 : DmaSem sig := 87
abbrev cc14_sem2_0 : DmaSem sig := 88
abbrev cc14_sem2_1 : DmaSem sig := 89
abbrev cc15_sem0_0 : DmaSem sig := 90
abbrev cc15_sem0_1 : DmaSem sig := 91
abbrev cc15_sem1_0 : DmaSem sig := 92
abbrev cc15_sem1_1 : DmaSem sig := 93
abbrev cc15_sem2_0 : DmaSem sig := 94
abbrev cc15_sem2_1 : DmaSem sig := 95
abbrev cc16_sem0_0 : DmaSem sig := 96
abbrev cc16_sem0_1 : DmaSem sig := 97
abbrev cc16_sem1_0 : DmaSem sig := 98
abbrev cc16_sem1_1 : DmaSem sig := 99
abbrev cc16_sem2_0 : DmaSem sig := 100
abbrev cc16_sem2_1 : DmaSem sig := 101
abbrev cc17_sem0_0 : DmaSem sig := 102
abbrev cc17_sem0_1 : DmaSem sig := 103
abbrev cc17_sem1_0 : DmaSem sig := 104
abbrev cc17_sem1_1 : DmaSem sig := 105
abbrev cc17_sem2_0 : DmaSem sig := 106
abbrev cc17_sem2_1 : DmaSem sig := 107
abbrev cc18_sem0_0 : DmaSem sig := 108
abbrev cc18_sem0_1 : DmaSem sig := 109
abbrev cc18_sem1_0 : DmaSem sig := 110
abbrev cc18_sem1_1 : DmaSem sig := 111
abbrev cc18_sem2_0 : DmaSem sig := 112
abbrev cc18_sem2_1 : DmaSem sig := 113
abbrev cc19_sem0_0 : DmaSem sig := 114
abbrev cc19_sem0_1 : DmaSem sig := 115
abbrev cc19_sem1_0 : DmaSem sig := 116
abbrev cc19_sem1_1 : DmaSem sig := 117
abbrev cc19_sem2_0 : DmaSem sig := 118
abbrev cc19_sem2_1 : DmaSem sig := 119
abbrev cc20_sem0_0 : DmaSem sig := 120
abbrev cc20_sem0_1 : DmaSem sig := 121
abbrev cc20_sem1_0 : DmaSem sig := 122
abbrev cc20_sem1_1 : DmaSem sig := 123
abbrev cc20_sem2_0 : DmaSem sig := 124
abbrev cc20_sem2_1 : DmaSem sig := 125
abbrev cc21_sem0_0 : DmaSem sig := 126
abbrev cc21_sem0_1 : DmaSem sig := 127
abbrev cc21_sem1_0 : DmaSem sig := 128
abbrev cc21_sem1_1 : DmaSem sig := 129
abbrev cc21_sem2_0 : DmaSem sig := 130
abbrev cc21_sem2_1 : DmaSem sig := 131
abbrev cc22_sem0_0 : DmaSem sig := 132
abbrev cc22_sem0_1 : DmaSem sig := 133
abbrev cc22_sem1_0 : DmaSem sig := 134
abbrev cc22_sem1_1 : DmaSem sig := 135
abbrev cc22_sem2_0 : DmaSem sig := 136
abbrev cc22_sem2_1 : DmaSem sig := 137
abbrev cc23_sem0_0 : DmaSem sig := 138
abbrev cc23_sem0_1 : DmaSem sig := 139
abbrev cc23_sem1_0 : DmaSem sig := 140
abbrev cc23_sem1_1 : DmaSem sig := 141
abbrev cc23_sem2_0 : DmaSem sig := 142
abbrev cc23_sem2_1 : DmaSem sig := 143
abbrev cc24_sem0_0 : DmaSem sig := 144
abbrev cc24_sem0_1 : DmaSem sig := 145
abbrev cc24_sem1_0 : DmaSem sig := 146
abbrev cc24_sem1_1 : DmaSem sig := 147
abbrev cc24_sem2_0 : DmaSem sig := 148
abbrev cc24_sem2_1 : DmaSem sig := 149
abbrev cc25_sem0_0 : DmaSem sig := 150
abbrev cc25_sem0_1 : DmaSem sig := 151
abbrev cc25_sem1_0 : DmaSem sig := 152
abbrev cc25_sem2_0 : DmaSem sig := 153
abbrev cc25_sem3_0 : DmaSem sig := 154
abbrev cc25_sem3_1 : DmaSem sig := 155

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6400x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![125], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6400x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6400x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S6400x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![125], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S6400x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S6400x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S6400x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S5000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![125], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S6400x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S6400x1 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S6400x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S5000x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S5000x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![125], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S6400x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S6400x1 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S6400x128 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S5000x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S5000x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S5000x1 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S5000x128 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![125], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S6400x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S6400x1 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S6400x128 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![10], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S5000x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S5000x128 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 2 → Memref sig .tc .vmem S5000x128 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev grid22 : Pipeline.Grid := ⟨1, ![10], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S5000x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S5000x1 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 2 → Memref sig .tc .vmem S5000x128 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev grid23 : Pipeline.Grid := ⟨1, ![125], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_2 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S6400x128 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 2 → Memref sig .tc .vmem S6400x1 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true]

abbrev stage23_2 : Fin 2 → Memref sig .tc .vmem S6400x128 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true]

abbrev grid24 : Pipeline.Grid := ⟨1, ![10], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S5000x128 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S5000x128 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev stage24_2 : Fin 2 → Memref sig .tc .vmem S5000x128 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true]

abbrev grid25 : Pipeline.Grid := ⟨1, ![10], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_3 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S5000x128 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S128x128 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 1 → Memref sig .tc .vmem S1x128 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false]

abbrev stage25_3 : Fin 2 → Memref sig .tc .vmem S5000x128 .f32 := fun | 0 => Memref.whole cc25_stg3_0 | 1 => Memref.whole cc25_stg3_1 | ⟨_ + 2, h⟩ => absurd h (Nat.not_lt.2 (Nat.le_add_left _ _))
abbrev sem25_3 : Fin 2 → DmaSem sig := fun | 0 => cc25_sem3_0 | 1 => cc25_sem3_1 | ⟨_ + 2, h⟩ => absurd h (Nat.not_lt.2 (Nat.le_add_left _ _))
abbrev reads25_3 : Fin grid25.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S2x800000_S1x800000_0_0 : S2x800000.Slices ![0, 0] S1x800000
  shapeCasts_S1x800000_S800000 : S1x800000.ShapeCasts S800000
  shapeCasts_S800000_S800000x1 : S800000.ShapeCasts S800000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x128 : S6400x1.Broadcasts S6400x128
  bcast_S_S50000x128 : S_.BroadcastsInDim S50000x128 (![] : Fin 0 → Fin S50000x128.rank)
  shapeCasts_S5000x128_S5000x128 : S5000x128.ShapeCasts S5000x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x800000_S1x800000_1_0 : S2x800000.Slices ![1, 0] S1x800000
  slices_S2x128x128_S1x128x128_1_0_0 : S2x128x128.Slices ![1, 0, 0] S1x128x128
  slices_S2x128_S1x128_1_0 : S2x128.Slices ![1, 0] S1x128
  concatenates_S50000x128_S50000x128_S50000x256_d1 : Shape.Concatenates [S50000x128, S50000x128] S50000x256 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .f32 = 32 ∨ (Rect.block (s := S800000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S800000x1.size a
  hwx1_1 : ∀ i : grid1.Coords, EltTy.bits .f32 = 32 ∨ (Rect.block (s := S800000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S800000x128.size a
  hwx1_2 : ∀ i : grid1.Coords, EltTy.bits .f32 = 32 ∨ (Rect.block (s := S800000x128) S6400x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x128.size a ≤ S800000x128.size a
  hwx4_0 : ∀ i : grid4.Coords, EltTy.bits .f32 = 32 ∨ (Rect.block (s := S800000x128) S6400x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x1.size a ≤ S800000x1.size a
  hwx4_1 : ∀ i : grid4.Coords, EltTy.bits .f32 = 32 ∨ (Rect.block (s := S800000x1) S6400x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6400x128.size a ≤ S800000x128.size a
  hwx4_2 : ∀ i : grid4.Coords, EltTy.bits .f32 = 32 ∨ (Rect.block (s := S800000x128) S6400x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6400x128.size a ≤ S800000x128.size a
  hwx7_0 : ∀ i : grid7.Coords, EltTy.bits .f32 = 32 ∨ (Rect.block (s := S800000x128) S6400x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6400x1.size a ≤ S800000x1.size a
  hwx7_1 : ∀ i : grid7.Coords, EltTy.bits .f32 = 32 ∨ (Rect.block (s := S800000x1) S6400x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S6400x128.size a ≤ S800000x128.size a
  hwx7_2 : ∀ i : grid7.Coords, EltTy.bits .f32 = 32 ∨ (Rect.block (s := S800000x128) S6400x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S50000x1.size a
  hwx9_1 : ∀ i : grid9.Coords, EltTy.bits .f32 = 32 ∨ (Rect.block (s := S50000x1) S5000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S6400x128.size a ≤ S800000x128.size a
  hwx10_0 : ∀ i : grid10.Coords, EltTy.bits .f32 = 32 ∨ (Rect.block (s := S800000x128) S6400x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S6400x1.size a ≤ S800000x1.size a
  hwx10_1 : ∀ i : grid10.Coords, EltTy.bits .f32 = 32 ∨ (Rect.block (s := S800000x1) S6400x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S6400x128.size a ≤ S800000x128.size a
  hwx10_2 : ∀ i : grid10.Coords, EltTy.bits .f32 = 32 ∨ (Rect.block (s := S800000x128) S6400x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x128.size a ≤ S50000x128.size a
  hwx11_1 : ∀ i : grid11.Coords, EltTy.bits .f32 = 32 ∨ (Rect.block (s := S50000x128) S5000x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S50000x128.size a
  hwx11_2 : ∀ i : grid11.Coords, EltTy.bits .f32 = 32 ∨ (Rect.block (s := S50000x128) S5000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x128.size a ≤ S50000x128.size a
  hwx12_3 : ∀ i : grid12.Coords, EltTy.bits .f32 = 32 ∨ (Rect.block (s := S50000x128) S5000x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x1.size a ≤ S50000x1.size a
  hwx13_1 : ∀ i : grid13.Coords, EltTy.bits .f32 = 32 ∨ (Rect.block (s := S50000x1) S5000x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x128.size a ≤ S50000x128.size a
  hwx13_2 : ∀ i : grid13.Coords, EltTy.bits .f32 = 32 ∨ (Rect.block (s := S50000x128) S5000x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S6400x128.size a ≤ S800000x128.size a
  hwx14_0 : ∀ i : grid14.Coords, EltTy.bits .f32 = 32 ∨ (Rect.block (s := S800000x128) S6400x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S6400x1.size a ≤ S800000x1.size a
  hwx14_1 : ∀ i : grid14.Coords, EltTy.bits .f32 = 32 ∨ (Rect.block (s := S800000x1) S6400x1.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S6400x128.size a ≤ S800000x128.size a
  hwx14_2 : ∀ i : grid14.Coords, EltTy.bits .f32 = 32 ∨ (Rect.block (s := S800000x128) S6400x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x128.size a ≤ S50000x128.size a
  hwx15_1 : ∀ i : grid15.Coords, EltTy.bits .f32 = 32 ∨ (Rect.block (s := S50000x128) S5000x128.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x128.size a ≤ S50000x128.size a
  hwx15_2 : ∀ i : grid15.Coords, EltTy.bits .f32 = 32 ∨ (Rect.block (s := S50000x128) S5000x128.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S50000x128.size a
  hwx16_0 : ∀ i : grid16.Coords, EltTy.bits .f32 = 32 ∨ (Rect.block (s := S50000x128) S5000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x1.size a ≤ S50000x1.size a
  hwx16_1 : ∀ i : grid16.Coords, EltTy.bits .f32 = 32 ∨ (Rect.block (s := S50000x1) S5000x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x128.size a ≤ S50000x128.size a
  hwx16_2 : ∀ i : grid16.Coords, EltTy.bits .f32 = 32 ∨ (Rect.block (s := S50000x128) S5000x128.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S6400x128.size a ≤ S800000x128.size a
  hwx17_0 : ∀ i : grid17.Coords, EltTy.bits .f32 = 32 ∨ (Rect.block (s := S800000x128) S6400x128.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S6400x1.size a ≤ S800000x1.size a
  hwx17_1 : ∀ i : grid17.Coords, EltTy.bits .f32 = 32 ∨ (Rect.block (s := S800000x1) S6400x1.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S6400x128.size a ≤ S800000x128.size a
  hwx17_2 : ∀ i : grid17.Coords, EltTy.bits .f32 = 32 ∨ (Rect.block (s := S800000x128) S6400x128.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x128.size a ≤ S50000x128.size a
  hwx18_0 : ∀ i : grid18.Coords, EltTy.bits .f32 = 32 ∨ (Rect.block (s := S50000x128) S5000x128.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S5000x128.size a ≤ S50000x128.size a
  hwx18_1 : ∀ i : grid18.Coords, EltTy.bits .f32 = 32 ∨ (Rect.block (s := S50000x128) S5000x128.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S5000x128.size a ≤ S50000x128.size a
  hwx18_2 : ∀ i : grid18.Coords, EltTy.bits .f32 = 32 ∨ (Rect.block (s := S50000x128) S5000x128.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x128.size a ≤ S50000x128.size a
  hwx19_0 : ∀ i : grid19.Coords, EltTy.bits .f32 = 32 ∨ (Rect.block (s := S50000x128) S5000x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S5000x1.size a ≤ S50000x1.size a
  hwx19_1 : ∀ i : grid19.Coords, EltTy.bits .f32 = 32 ∨ (Rect.block (s := S50000x1) S5000x1.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S5000x128.size a ≤ S50000x128.size a
  hwx19_2 : ∀ i : grid19.Coords, EltTy.bits .f32 = 32 ∨ (Rect.block (s := S50000x128) S5000x128.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S6400x128.size a ≤ S800000x128.size a
  hwx20_0 : ∀ i : grid20.Coords, EltTy.bits .f32 = 32 ∨ (Rect.block (s := S800000x128) S6400x128.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S6400x1.size a ≤ S800000x1.size a
  hwx20_1 : ∀ i : grid20.Coords, EltTy.bits .f32 = 32 ∨ (Rect.block (s := S800000x1) S6400x1.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S6400x128.size a ≤ S800000x128.size a
  hwx20_2 : ∀ i : grid20.Coords, EltTy.bits .f32 = 32 ∨ (Rect.block (s := S800000x128) S6400x128.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S5000x128.size a ≤ S50000x128.size a
  hwx21_0 : ∀ i : grid21.Coords, EltTy.bits .f32 = 32 ∨ (Rect.block (s := S50000x128) S5000x128.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S5000x128.size a ≤ S50000x128.size a
  hwx21_1 : ∀ i : grid21.Coords, EltTy.bits .f32 = 32 ∨ (Rect.block (s := S50000x128) S5000x128.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S5000x128.size a ≤ S50000x128.size a
  hwx21_2 : ∀ i : grid21.Coords, EltTy.bits .f32 = 32 ∨ (Rect.block (s := S50000x128) S5000x128.size (cc21_transform_2 i) (hinb21_2 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x128.size a ≤ S50000x128.size a
  hwx22_0 : ∀ i : grid22.Coords, EltTy.bits .f32 = 32 ∨ (Rect.block (s := S50000x128) S5000x128.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S5000x1.size a ≤ S50000x1.size a
  hwx22_1 : ∀ i : grid22.Coords, EltTy.bits .f32 = 32 ∨ (Rect.block (s := S50000x1) S5000x1.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S5000x128.size a ≤ S50000x128.size a
  hwx22_2 : ∀ i : grid22.Coords, EltTy.bits .f32 = 32 ∨ (Rect.block (s := S50000x128) S5000x128.size (cc22_transform_2 i) (hinb22_2 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S6400x128.size a ≤ S800000x128.size a
  hwx23_0 : ∀ i : grid23.Coords, EltTy.bits .f32 = 32 ∨ (Rect.block (s := S800000x128) S6400x128.size (cc23_transform_0 i) (hinb23_0 i)).WholeWords (EltTy.packing .f32)
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S6400x1.size a ≤ S800000x1.size a
  hwx23_1 : ∀ i : grid23.Coords, EltTy.bits .f32 = 32 ∨ (Rect.block (s := S800000x1) S6400x1.size (cc23_transform_1 i) (hinb23_1 i)).WholeWords (EltTy.packing .f32)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S6400x128.size a ≤ S800000x128.size a
  hwx23_2 : ∀ i : grid23.Coords, EltTy.bits .f32 = 32 ∨ (Rect.block (s := S800000x128) S6400x128.size (cc23_transform_2 i) (hinb23_2 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S5000x128.size a ≤ S50000x128.size a
  hwx24_0 : ∀ i : grid24.Coords, EltTy.bits .f32 = 32 ∨ (Rect.block (s := S50000x128) S5000x128.size (cc24_transform_0 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S5000x128.size a ≤ S50000x128.size a
  hwx24_1 : ∀ i : grid24.Coords, EltTy.bits .f32 = 32 ∨ (Rect.block (s := S50000x128) S5000x128.size (cc24_transform_1 i) (hinb24_1 i)).WholeWords (EltTy.packing .f32)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S5000x128.size a ≤ S50000x128.size a
  hwx24_2 : ∀ i : grid24.Coords, EltTy.bits .f32 = 32 ∨ (Rect.block (s := S50000x128) S5000x128.size (cc24_transform_2 i) (hinb24_2 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S5000x128.size a ≤ S50000x128.size a
  hwx25_0 : ∀ i : grid25.Coords, EltTy.bits .f32 = 32 ∨ (Rect.block (s := S50000x128) S5000x128.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S128x128.size a ≤ S128x128.size a
  hwx25_1 : ∀ i : grid25.Coords, EltTy.bits .f32 = 32 ∨ (Rect.block (s := S128x128) S128x128.size (cc25_transform_1 i) (hinb25_1 i)).WholeWords (EltTy.packing .f32)
  hstage25_2 : ∀ j, (stage25_2 j).IsWhole
  nbuf25_2 : grid25.bufCount reads25_2 true = 1
  hreads25_2 : ∀ i i' : grid25.Coords, (∀ a, reads25_2 a = true → i a = i' a) → cc25_transform_2 i = cc25_transform_2 i'
  hinb25_2 : ∀ (i : grid25.Coords) a, (cc25_transform_2 i a + 1) * S1x128.size a ≤ S1x128.size a
  hwx25_2 : ∀ i : grid25.Coords, EltTy.bits .f32 = 32 ∨ (Rect.block (s := S1x128) S1x128.size (cc25_transform_2 i) (hinb25_2 i)).WholeWords (EltTy.packing .f32)
  hstage25_3 : ∀ j, (stage25_3 j).IsWhole
  nbuf25_3 : grid25.bufCount reads25_3 false = 2
  hreads25_3 : ∀ i i' : grid25.Coords, (∀ a, reads25_3 a = true → i a = i' a) → cc25_transform_3 i = cc25_transform_3 i'
  hinb25_3 : ∀ (i : grid25.Coords) a, (cc25_transform_3 i a + 1) * S5000x128.size a ≤ S50000x128.size a
  hwx25_3 : ∀ i : grid25.Coords, EltTy.bits .f32 = 32 ∨ (Rect.block (s := S50000x128) S5000x128.size (cc25_transform_3 i) (hinb25_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S6400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v22) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v23) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S6400x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S6400x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S6400x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v35) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v36) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v36) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v37) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v44) S6400x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v10) S6400x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v45) S6400x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v48) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg0) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v49) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v49) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v7) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v50) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v57) S6400x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v10) S6400x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v58) S6400x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v61) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg0) S5000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v62) S5000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v62) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v64) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v67) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v68) S5000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_arg0) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v7) S5000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v72) S5000x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v79) S6400x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v71) S6400x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v80) S6400x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v83) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg0) S5000x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v84) S5000x128.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v84) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v7) S5000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v85) S5000x128.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v92) S6400x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v71) S6400x1.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v93) S6400x128.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v96) S5000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_arg0) S5000x128.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v97) S5000x128.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v97) S5000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v7) S5000x1.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v98) S5000x128.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v105) S6400x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v71) S6400x1.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v106) S6400x128.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v109) S5000x128.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_arg0) S5000x128.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v110) S5000x128.size cc21_transform_2 reads21_2 true false 2 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev win22_0 : Pipeline.Window sig grid22 :=
  Pipeline.Window.ofSpec (Memref.whole main_v110) S5000x128.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v7) S5000x1.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v111) S5000x128.size cc22_transform_2 reads22_2 true false 2 stage22_2 sem22_2
    hrank22 hreads22_2 hinb22_2 nbuf22_2 (Memref.isWhole_whole _) hwx22_2 hstage22_2

abbrev win22 : Fin 3 → Pipeline.Window sig grid22 := fun | 0 => win22_0 | 1 => win22_1 | 2 => win22_2 | ⟨_ + 3, h⟩ => absurd h (Nat.not_lt.2 (Nat.le_add_left _ _))
abbrev spec22 : Fin 3 → Pipeline.WinSpec sig grid22.rank := fun w => (win22 w).toWinSpec

abbrev win23_0 : Pipeline.Window sig grid23 :=
  Pipeline.Window.ofSpec (Memref.whole main_v118) S6400x128.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v71) S6400x1.size cc23_transform_1 reads23_1 false false 2 stage23_1 sem23_1
    hrank23 hreads23_1 hinb23_1 nbuf23_1 (Memref.isWhole_whole _) hwx23_1 hstage23_1

abbrev win23_2 : Pipeline.Window sig grid23 :=
  Pipeline.Window.ofSpec (Memref.whole main_v119) S6400x128.size cc23_transform_2 reads23_2 true false 2 stage23_2 sem23_2
    hrank23 hreads23_2 hinb23_2 nbuf23_2 (Memref.isWhole_whole _) hwx23_2 hstage23_2

abbrev win23 : Fin 3 → Pipeline.Window sig grid23 := fun | 0 => win23_0 | 1 => win23_1 | 2 => win23_2 | ⟨_ + 3, h⟩ => absurd h (Nat.not_lt.2 (Nat.le_add_left _ _))
abbrev spec23 : Fin 3 → Pipeline.WinSpec sig grid23.rank := fun w => (win23 w).toWinSpec

abbrev win24_0 : Pipeline.Window sig grid24 :=
  Pipeline.Window.ofSpec (Memref.whole main_v122) S5000x128.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_arg0) S5000x128.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_v123) S5000x128.size cc24_transform_2 reads24_2 true false 2 stage24_2 sem24_2
    hrank24 hreads24_2 hinb24_2 nbuf24_2 (Memref.isWhole_whole _) hwx24_2 hstage24_2

abbrev win24 : Fin 3 → Pipeline.Window sig grid24 := fun | 0 => win24_0 | 1 => win24_1 | 2 => win24_2 | ⟨_ + 3, h⟩ => absurd h (Nat.not_lt.2 (Nat.le_add_left _ _))
abbrev spec24 : Fin 3 → Pipeline.WinSpec sig grid24.rank := fun w => (win24 w).toWinSpec

abbrev win25_0 : Pipeline.Window sig grid25 :=
  Pipeline.Window.ofSpec (Memref.whole main_v123) S5000x128.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v125) S128x128.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_v128) S1x128.size cc25_transform_2 reads25_2 false true 1 stage25_2 sem25_2
    hrank25 hreads25_2 hinb25_2 nbuf25_2 (Memref.isWhole_whole _) hwx25_2 hstage25_2

abbrev win25_3 : Pipeline.Window sig grid25 :=
  Pipeline.Window.ofSpec (Memref.whole main_v129) S5000x128.size cc25_transform_3 reads25_3 true false 2 stage25_3 sem25_3
    hrank25 hreads25_3 hinb25_3 nbuf25_3 (Memref.isWhole_whole _) hwx25_3 hstage25_3

abbrev win25 : Fin 4 → Pipeline.Window sig grid25 := fun | 0 => win25_0 | 1 => win25_1 | 2 => win25_2 | 3 => win25_3 | ⟨_ + 4, h⟩ => absurd h (Nat.not_lt.2 (Nat.le_add_left _ _))
abbrev spec25 : Fin 4 → Pipeline.WinSpec sig grid25.rank := fun w => (win25 w).toWinSpec

class Facts : Prop extends Facts₀ where

variable [Facts]
-- ==== ReferenceIdeal.lean ====
abbrev S50000x128 : Shape := ⟨2, ![50000, 128]⟩
abbrev S800000 : Shape := ⟨1, ![800000]⟩
abbrev S2x800000 : Shape := ⟨2, ![2, 800000]⟩
abbrev S2x128x128 : Shape := ⟨3, ![2, 128, 128]⟩
abbrev S2x128 : Shape := ⟨2, ![2, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x800000 : Shape := ⟨2, ![1, 800000]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x256 : Shape := ⟨2, ![50000, 256]⟩

abbrev nBuf : Space → Nat
  | .hbm => 247
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S2x800000, .f32⟩
  | 4 => ⟨S2x128x128, .f32⟩
  | 5 => ⟨S2x128, .f32⟩
  | 6 => ⟨S_, .f32⟩
  | 7 => ⟨S800000, .f32⟩
  | 8 => ⟨S_, .f32⟩
  | 9 => ⟨S50000, .f32⟩
  | 10 => ⟨S800000x1, .i32⟩
  | 11 => ⟨S50000, .f32⟩
  | 12 => ⟨S_, .f32⟩
  | 13 => ⟨S_, .f32⟩
  | 14 => ⟨S50000, .f32⟩
  | 15 => ⟨S50000, .f32⟩
  | 16 => ⟨S_, .f32⟩
  | 17 => ⟨S50000, .f32⟩
  | 18 => ⟨S50000, .f32⟩
  | 19 => ⟨S50000x1, .f32⟩
  | 20 => ⟨S1x800000, .f32⟩
  | 21 => ⟨S800000, .f32⟩
  | 22 => ⟨S50000x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x1, .f32⟩
  | 34 => ⟨S800000x128, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S_, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S_, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S50000x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S800000x1, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S_, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S50000x128, .f32⟩
  | 98 => ⟨S50000x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S800000x1, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S1x128x128, .f32⟩
  | 123 => ⟨S128x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S1x800000, .f32⟩
  | 6 => ⟨S800000, .f32⟩
  | 7 => ⟨S50000x128, .f32⟩
  | 8 => ⟨S50000x128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S800000x1, .f32⟩
  | 19 => ⟨S800000x128, .f32⟩
  | 20 => ⟨S800000x128, .f32⟩
  | 21 => ⟨S_, .f32⟩
  | 22 => ⟨S50000x128, .f32⟩
  | 23 => ⟨S800000x1, .i32⟩
  | 24 => ⟨S50000x128, .f32⟩
  | 25 => ⟨S_, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x1, .f32⟩
  | 44 => ⟨S800000x128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S_, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S50000x128, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x1, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S_, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S800000x1, .f32⟩
  | 94 => ⟨S800000x128, .f32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S_, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S1x128x128, .f32⟩
  | 108 => ⟨S128x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_c_18 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_19 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_20 : Ref sig .tc := ⟨.hbm, 115, rfl⟩
abbrev main_v85 : Ref sig .tc := ⟨.hbm, 116, rfl⟩
abbrev main_v86 : Ref sig .tc := ⟨.hbm, 117, rfl⟩
abbrev main_cst_21 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call1_cst : Ref sig .tc := ⟨.hbm, 130, rfl⟩
abbrev main_call1_v0 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_c_23 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_24 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_25 : Ref sig .tc := ⟨.hbm, 153, rfl⟩
abbrev main_v116 : Ref sig .tc := ⟨.hbm, 154, rfl⟩
abbrev main_v117 : Ref sig .tc := ⟨.hbm, 155, rfl⟩
abbrev main_cst_26 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_c_27 : Ref sig .tc := ⟨.hbm, 162, rfl⟩
abbrev main_v123 : Ref sig .tc := ⟨.hbm, 163, rfl⟩
abbrev main_v124 : Ref sig .tc := ⟨.hbm, 164, rfl⟩
abbrev main_c_28 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_29 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_cst_30 : Ref sig .tc := ⟨.hbm, 178, rfl⟩
abbrev main_v136 : Ref sig .tc := ⟨.hbm, 179, rfl⟩
abbrev main_v137 : Ref sig .tc := ⟨.hbm, 180, rfl⟩
abbrev main_cst_31 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_c_32 : Ref sig .tc := ⟨.hbm, 187, rfl⟩
abbrev main_v143 : Ref sig .tc := ⟨.hbm, 188, rfl⟩
abbrev main_v144 : Ref sig .tc := ⟨.hbm, 189, rfl⟩
abbrev main_c_33 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_34 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_35 : Ref sig .tc := ⟨.hbm, 203, rfl⟩
abbrev main_v156 : Ref sig .tc := ⟨.hbm, 204, rfl⟩
abbrev main_v157 : Ref sig .tc := ⟨.hbm, 205, rfl⟩
abbrev main_cst_36 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_c_37 : Ref sig .tc := ⟨.hbm, 212, rfl⟩
abbrev main_v163 : Ref sig .tc := ⟨.hbm, 213, rfl⟩
abbrev main_v164 : Ref sig .tc := ⟨.hbm, 214, rfl⟩
abbrev main_c_38 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_cst_39 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_40 : Ref sig .tc := ⟨.hbm, 228, rfl⟩
abbrev main_v176 : Ref sig .tc := ⟨.hbm, 229, rfl⟩
abbrev main_v177 : Ref sig .tc := ⟨.hbm, 230, rfl⟩
abbrev main_cst_41 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_call2_cst : Ref sig .tc := ⟨.hbm, 243, rfl⟩
abbrev main_call2_v0 : Ref sig .tc := ⟨.hbm, 244, rfl⟩
abbrev main_v189 : Ref sig .tc := ⟨.hbm, 245, rfl⟩
abbrev main_v190 : Ref sig .tc := ⟨.hbm, 246, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_1_0 : S2x800000.Slices ![1, 0] S1x800000
  slices_S2x128x128_S1x128x128_1_0_0 : S2x128x128.Slices ![1, 0, 0] S1x128x128
  slices_S2x128_S1x128_1_0 : S2x128.Slices ![1, 0] S1x128
  concatenates_S50000x128_S50000x128_S50000x256_d1 : Shape.Concatenates [S50000x128, S50000x128] S50000x256 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The message-passing network, stage by stage, as whole-array functions of the argument arrays at the
  extended reals.  Every stage is spelled with the host operations of the plain jnp program, so that the
  plain program's result is this specification by unfolding; the tiled kernels are then shown, one by one,
  to compute the same stages.

  A graph convolution hop is  h ↦ 0.9 · A_w (h ⊙ n) + 0.1 · h₀  where  n  is the column of
  inverse square roots of the clipped in-degrees,  A_w  gathers the rows named by the source indices,
  scales row e by the edge weight w e and adds it into the row named by the destination index.  Four hops are
  followed by  relu (h · W + b);  the two graphs' outputs are joined along the feature axis.
-/
import proofs.«172771_j21320217657536_1_alg».proof.ReferenceIdeal
import Idealize.ShloMosaic.PureOps.Ideal

noncomputable section

namespace Cert.Spec

open Cert.ReferenceIdeal Idealize.ShloMosaic

variable [Cert.ReferenceIdeal.Facts]
open Cert.ReferenceIdeal.Facts₀ Cert.ReferenceIdeal.Facts

/-- A float array of shape `S` at the extended reals. -/
abbrev FA (S : Shape) := FVec Ideal S .f32
/-- A 32-bit integer array of shape `S`. -/
abbrev IA (S : Shape) := IVec S 32

/-- The all-zero node-feature array: the start of every segment sum, and the floor of the relu. -/
def zeroND : FA S50000x128 := broadcastInDim S50000x128 ![] bcast_S_S50000x128 (constant S_ .f32 0x00000000#32)

/-- The destination indices as a column of index vectors. -/
def dstIdx (a2 : IA S800000) : IA S800000x1 := broadcastInDim S800000x1 ![0] bcast_S800000_S800000x1_0 a2

/-- The source indices, a negative one wrapped once by the number of nodes, as a column of index vectors. -/
def srcIdx (a1 : IA S800000) : IA S800000x1 :=
  broadcastInDim S800000x1 ![0] bcast_S800000_S800000x1_0
    (select (cmpi .slt a1 (broadcastInDim S800000 ![] bcast_S_S800000 (constantI S_ 32 0#32)))
      (addi a1 (broadcastInDim S800000 ![] bcast_S_S800000 (constantI S_ 32 50000#32))) a1)

/-- max(in-degree, 1) ^ (-1/2), one entry per node. -/
def degPow (a2 : IA S800000) : FA S50000 :=
  Host.powf
    (maximumf (broadcastInDim S50000 ![] bcast_S_S50000 (id (constant S_ .f32 0x3F800000#32)))
      (Host.scatterAdd scatter_S50000_S800000x1_S800000_n_0_0_1
        (broadcastInDim S50000 ![] bcast_S_S50000 (constant S_ .f32 0x00000000#32)) (dstIdx a2)
        (broadcastInDim S800000 ![] bcast_S_S800000 (constant S_ .f32 0x3F800000#32))))
    (broadcastInDim S50000 ![] bcast_S_S50000 (constant S_ .f32 0xBF000000#32))

/-- Row `p` of `x` times the one entry of row `p` of the column `s`, for node-sized arrays. -/
def scaleRows (x : FA S50000x128) (s : FA S50000x1) : FA S50000x128 :=
  mulf x (broadcastInDim S50000x128 ![0, 1] bcast_S50000x1_S50000x128_0_1 s)

/-- The same for edge-sized arrays. -/
def scaleEdges (x : FA S800000x128) (s : FA S800000x1) : FA S800000x128 :=
  mulf x (broadcastInDim S800000x128 ![0, 1] bcast_S800000x1_S800000x128_0_1 s)

/-- Row e of the result is the row of `x` that edge e's source index names. -/
def gatherRows (x : FA S50000x128) (a1 : IA S800000) : FA S800000x128 :=
  Host.gather gather_S50000x128_S800000x1_S800000x128_1_0_n_n_0_1_1128 x (srcIdx a1)

/-- Row n of the result is the sum of the rows e of `u` whose destination index is n. -/
def segSum (u : FA S800000x128) (a2 : IA S800000) : FA S50000x128 :=
  Host.scatterAdd scatter_S50000x128_S800000x1_S800000x128_1_0_0_1 zeroND (dstIdx a2) u

/-- 0.9 · agg + 0.1 · h₀, the two coefficients the single-precision numbers nearest 0.9 and 0.1. -/
def mix (agg h0 : FA S50000x128) : FA S50000x128 :=
  addf (mulf agg (broadcastInDim S50000x128 ![] bcast_S_S50000x128 (constant S_ .f32 0x3F666666#32)))
    (mulf h0 (broadcastInDim S50000x128 ![] bcast_S_S50000x128 (constant S_ .f32 0x3DCCCCCD#32)))

/-- One hop of message passing. -/
def hop (h0 : FA S50000x128) (nrm : FA S50000x1) (w : FA S800000x1) (a1 a2 : IA S800000) (h : FA S50000x128) :
    FA S50000x128 :=
  mix (segSum (scaleEdges (gatherRows (scaleRows h nrm) a1) w) a2) h0

/-- A hop is its five stages composed: whatever arrays hold the stages' values, the last one holds the hop. -/
theorem hop_compose {h0 hin x1 x4 x5 : FA S50000x128} {nrm : FA S50000x1} {w : FA S800000x1} {a1 a2 : IA S800000}
    {x2 x3 : FA S800000x128} (r1 : x1 = scaleRows hin nrm) (g2 : x2 = gatherRows x1 a1) (r3 : x3 = scaleEdges x2 w)
    (g4 : x4 = segSum x3 a2) (r5 : x5 = mix x4 h0) : x5 = hop h0 nrm w a1 a2 hin := by
  subst r1 g2 r3 g4; exact r5

/-- relu (h · W + b), the bias a row added to every row. -/
def dense (h : FA S50000x128) (W : FA S128x128) (b : FA S1x128) : FA S50000x128 :=
  maximumf (addf (Host.dotGeneral dot_S50000x128_S128x128_S50000x128_1_0_0_1_n_n none h W)
    (broadcastInDim S50000x128 ![0, 1] bcast_S1x128_S50000x128_0_1 b)) zeroND

/-- Four hops from the input features, then the dense layer. -/
def graphOut (h0 : FA S50000x128) (nrm : FA S50000x1) (w : FA S800000x1) (a1 a2 : IA S800000) (W : FA S128x128)
    (b : FA S1x128) : FA S50000x128 :=
  dense (hop h0 nrm w a1 a2 (hop h0 nrm w a1 a2 (hop h0 nrm w a1 a2 (hop h0 nrm w a1 a2 h0)))) W b

/-- The two graphs' outputs side by side. -/
def joined (o0 o1 : FA S50000x128) : FA S50000x256 :=
  concatenate S50000x256 1 [⟨S50000x128, o0⟩, ⟨S50000x128, o1⟩] concatenates_S50000x128_S50000x128_S50000x256_d1

/-! ### The per-graph operands, as the plain program forms them -/

/-- The degree normalisation as a column. -/
def normR (a2 : IA S800000) : FA S50000x1 := broadcastInDim S50000x1 ![0] bcast_S50000_S50000x1_0 (degPow a2)

/-- Graph 0's edge weights, a vector. -/
def edgeVec0 (a3 : FA S2x800000) : FA S800000 :=
  shapeCast _ (extractStridedSlice S1x800000 ![0, 0] a3 slices_S2x800000_S1x800000_0_0) shapeCasts_S1x800000_S800000
/-- Graph 1's edge weights, a vector. -/
def edgeVec1 (a3 : FA S2x800000) : FA S800000 :=
  shapeCast _ (extractStridedSlice S1x800000 ![1, 0] a3 slices_S2x800000_S1x800000_1_0) shapeCasts_S1x800000_S800000
/-- A vector of edge weights as a column. -/
def colR (v : FA S800000) : FA S800000x1 := broadcastInDim S800000x1 ![0] bcast_S800000_S800000x1_0 v

/-- Graph 0's weight matrix. -/
def wMat0 (a4 : FA S2x128x128) : FA S128x128 :=
  shapeCast _ (extractStridedSlice S1x128x128 ![0, 0, 0] a4 slices_S2x128x128_S1x128x128_0_0_0) shapeCasts_S1x128x128_S128x128
/-- Graph 1's weight matrix. -/
def wMat1 (a4 : FA S2x128x128) : FA S128x128 :=
  shapeCast _ (extractStridedSlice S1x128x128 ![1, 0, 0] a4 slices_S2x128x128_S1x128x128_1_0_0) shapeCasts_S1x128x128_S128x128
/-- Graph 0's bias, a vector. -/
def biasVec0 (a5 : FA S2x128) : FA S128 :=
  shapeCast _ (extractStridedSlice S1x128 ![0, 0] a5 slices_S2x128_S1x128_0_0) shapeCasts_S1x128_S128
/-- Graph 1's bias, a vector. -/
def biasVec1 (a5 : FA S2x128) : FA S128 :=
  shapeCast _ (extractStridedSlice S1x128 ![1, 0] a5 slices_S2x128_S1x128_1_0) shapeCasts_S1x128_S128
/-- A bias vector as a row. -/
def rowR (v : FA S128) : FA S1x128 := broadcastInDim S1x128 ![1] bcast_S128_S1x128_1 v

/-- The whole network as the plain program forms it. -/
def resultR (a0 : FA S50000x128) (a1 a2 : IA S800000) (a3 : FA S2x800000) (a4 : FA S2x128x128) (a5 : FA S2x128) :
    FA S50000x256 :=
  joined (graphOut a0 (normR a2) (colR (edgeVec0 a3)) a1 a2 (wMat0 a4) (rowR (biasVec0 a5)))
    (graphOut a0 (normR a2) (colR (edgeVec1 a3)) a1 a2 (wMat1 a4) (rowR (biasVec1 a5)))

/-! ### The same operands as the tiled program forms them: by re-laying a vector as a column or a row -/

/-- The degree normalisation re-laid as a column. -/
def normK (a2 : IA S800000) (h : S50000.ShapeCasts S50000x1) : FA S50000x1 := shapeCast S50000x1 (degPow a2) h
/-- A vector of edge weights re-laid as a column. -/
def colK (v : FA S800000) (h : S800000.ShapeCasts S800000x1) : FA S800000x1 := shapeCast S800000x1 v h
/-- A bias vector re-laid as a row. -/
def rowK (v : FA S128) (h : S128.ShapeCasts S1x128) : FA S1x128 := shapeCast S1x128 v h

/-- The whole network as the tiled program forms it. -/
def resultK (a0 : FA S50000x128) (a1 a2 : IA S800000) (a3 : FA S2x800000) (a4 : FA S2x128x128) (a5 : FA S2x128)
    (h1 : S50000.ShapeCasts S50000x1) (h2 : S800000.ShapeCasts S800000x1) (h3 : S128.ShapeCasts S1x128) : FA S50000x256 :=
  joined (graphOut a0 (normK a2 h1) (colK (edgeVec0 a3) h2) a1 a2 (wMat0 a4) (rowK (biasVec0 a5) h3))
    (graphOut a0 (normK a2 h1) (colK (edgeVec1 a3) h2) a1 a2 (wMat1 a4) (rowK (biasVec1 a5) h3))

end Cert.Spec

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibBroadcastInDim.lean ====
/-
  A host `broadcast_in_dim` read at an explicit index, for the shapes a bias row and a kept row-reduction take:
  a vector laid out as a column or as a row, a column repeated along the columns, and a row repeated along the rows. Stated over any element type.
-/
import Idealize.ShloMosaic.Lib.Pipeline.Value
import Idealize.ShloMosaic.Lib.ValueIdx

namespace Idealize.ShloMosaic.ValueIdx

variable {α : Type}

/-- `[a]` laid out as the column `[a, 1]`: entry `(p, u)` is the vector's entry `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v (ix2 p u) (ix1 p) (fun ax => match ax with
    | ⟨0, _⟩ => by
      show p.val = if a = 1 then 0 else p.val
      split
      · have := p.isLt; omega
      · rfl)

/-- `[b]` laid out as the row `[1, b]`: entry `(u, c)` is the vector's entry `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) :=
  broadcastInDim_apply _ h v (ix2 u c) (ix1 c) (fun ax => match ax with
    | ⟨0, _⟩ => by
      show c.val = if b = 1 then 0 else c.val
      split
      · have := c.isLt; omega
      · rfl)

/-- The column `[a, 1]` repeated to `[a, b]`: entry `(p, c)` is the column's entry in row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => rfl)

/-- The row `[1, b]` repeated to `[a, b]`: entry `(p, c)` is the row's entry in column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v (ix2 p c) (ix2 (0 : Fin 1) c) (fun ax => match ax with
    | ⟨0, _⟩ => rfl
    | ⟨1, _⟩ => by
      show c.val = if b = 1 then 0 else c.val
      split
      · have := c.isLt; omega
      · rfl)

end Idealize.ShloMosaic.ValueIdx
-- ==== Proof.Relayout.lean ====
/-
  A vector re-laid as a column or as a row by a reshape is the same array as the vector laid out along that axis by a
  broadcast.  Both read, at entry (p, u) of an a × 1 column, the vector's entry p, and at entry (u, c) of a 1 × b row the
  vector's entry c: the row-major position of (p, u) in an a × 1 array is p · 1 + u = p, that of (u, c) in a 1 × b array is
  u · b + c = c, the unit coordinate u being 0; and a broadcast along the one named axis reads the coordinate on that axis.
-/
import proofs.«172771_j21320217657536_1_alg».proof.Proof.Spec
import proofs.«172771_j21320217657536_1_alg».proof.Proof.LibKeepdims
import proofs.«172771_j21320217657536_1_alg».proof.Proof.LibBroadcastInDim
import Idealize.ShloMosaic.Lib.ValueLayout

namespace Cert.Spec

open Cert.ReferenceIdeal Idealize.ShloMosaic Idealize.ShloMosaic.ValueIdx

variable [Cert.ReferenceIdeal.Facts]
open Cert.ReferenceIdeal.Facts₀ Cert.ReferenceIdeal.Facts

/-- The degree normalisation as a column: the reshape and the broadcast both put entry p of the vector in row p. -/
theorem normK_eq (a2 : IA S800000) (h : S50000.ShapeCasts S50000x1) : normK a2 h = normR a2 := by
  funext j
  obtain ⟨p, u, rfl⟩ : ∃ (p : Fin 50000) (u : Fin 1), j = ix2 p u := ⟨j 0, j 1, eq_ix2 j⟩
  unfold normK normR
  exact (shapeCast_a_a1_apply (degPow a2) h p u).trans
    (broadcastInDim_a_a1_apply (degPow a2) bcast_S50000_S50000x1_0 p u).symm

/-- A vector of edge weights as a column: entry e of the vector in row e, either way. -/
theorem colK_eq (v : FA S800000) (h : S800000.ShapeCasts S800000x1) : colK v h = colR v := by
  funext j
  obtain ⟨p, u, rfl⟩ : ∃ (p : Fin 800000) (u : Fin 1), j = ix2 p u := ⟨j 0, j 1, eq_ix2 j⟩
  unfold colK colR
  exact (shapeCast_a_a1_apply v h p u).trans (broadcastInDim_a_a1_apply v bcast_S800000_S800000x1_0 p u).symm

/-- A bias vector as a row: entry c of the vector in column c, either way. -/
theorem rowK_eq (v : FA S128) (h : S128.ShapeCasts S1x128) : rowK v h = rowR v := by
  funext j
  obtain ⟨u, c, rfl⟩ : ∃ (u : Fin 1) (c : Fin 128), j = ix2 u c := ⟨j 0, j 1, eq_ix2 j⟩
  unfold rowK rowR
  exact (shapeCast_a_1a_apply v h u c).trans (broadcastInDim_b_1b_apply v bcast_S128_S1x128_1 u c).symm

end Cert.Spec
-- ==== Proof.RefResult.lean ====
/-
  The plain program's result, as its run states it, is the specification of the network applied to the six argument arrays:
  the run's composed term is the specification's stages written out in full, so the two agree once each stage's name is
  opened (degree normalisation, four hops of gather / scale / segment-sum / mix, the dense layer, and the two graphs joined).
-/
import proofs.«172771_j21320217657536_1_alg».proof.Proof.Gen.ReferenceIdeal.Run
import proofs.«172771_j21320217657536_1_alg».proof.Proof.Spec

namespace Cert.ReferenceIdeal.RefValue

open Cert.ReferenceIdeal Cert.ReferenceIdeal.Gen Idealize.ShloMosaic Idealize.ShloMosaic.TcCoe Idealize.SL.Sem
  Idealize.ShloMosaic.StableHlo

set_option maxRecDepth 8192 in
/-- The run's result term is the network's specification at the arguments' launch contents. -/
theorem ref_result (m : (ℓ : Loc nD τ sig) → Buf (Elt Ideal) ℓ) (c : Dev nD) :
    Cert.ReferenceIdeal.Value.res_main_v190 (F := Ideal) m c =
      Cert.Spec.resultR (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  unfold Cert.ReferenceIdeal.Value.res_main_v190
  rfl

end Cert.ReferenceIdeal.RefValue
-- ==== Proof.KernelRun.lean ====
/-
  The tiled program's run with its RESULT named: every weakly fair execution terminates without a fault, the result
  buffer then holds what the last segment boundary's contents say (the fold of the host stretches and of the
  regions' write-backs from the launch memory), and the argument arrays are as launched.  The launch over the
  segments is the one that gives the frame; only the last reading differs: the result buffer, an unscoped
  buffer like the arguments, is read off the final thread state too.
-/
import proofs.«172771_j21320217657536_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents. -/
theorem run_value : θ_run defs (onTc (τ := τ) (main (F := F))) ⟨m, fun _ => 0, ρ⟩ (fun r => ∀ c : Dev nD,
      r.2.mem ((c.tc : Thread nD τ).loc main_v130) = W49 m ρ c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W49 m ρ c b)
    (hfin := fun c s' => by
      iintro ⟨⟨Hh, -⟩, HSI⟩
      unfold StableHlo.held
      imodintro
      iapply (pointsTo_read_all (Pipeline.ucRefs τ sig) (fun b => (((c : Thread nD τ)).1, b)) (W49 m ρ c) s')
      isplitl [Hh] <;> iassumption)
    (hQ := fun s h c =>
      ⟨h c _ (mem_uc main_v130 (by decide)),
       (h c _ (mem_uc main_arg0 (by decide))).trans (W49_main_arg0 m ρ c),
       (h c _ (mem_uc main_arg1 (by decide))).trans (W49_main_arg1 m ρ c),
       (h c _ (mem_uc main_arg2 (by decide))).trans (W49_main_arg2 m ρ c),
       (h c _ (mem_uc main_arg3 (by decide))).trans (W49_main_arg3 m ρ c),
       (h c _ (mem_uc main_arg4 (by decide))).trans (W49_main_arg4 m ρ c),
       (h c _ (mem_uc main_arg5 (by decide))).trans (W49_main_arg5 m ρ c)⟩)

end Cert.KernelIdeal.RunValue

end
-- ==== Proof.ChainArgsA.lean ====
/- The node features, the source indices and the destination indices are arguments: no host operation and no region writes them
   (a region reads one through an input window or passes it by), so at every segment boundary they hold what was launched.
-/
import proofs.«172771_j21320217657536_1_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- A stretch of host operations leaves a buffer that none of them writes as it was: each operation writes one buffer, and it is another one. -/
local macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ### `main_arg0` at the boundaries 0 … 45 -/
theorem arg0_0 (c : Dev nD) : W0 m ρ c (Proc.devRef .tc main_arg0) = m ((c : Thread nD τ).loc main_arg0) := rfl
theorem arg0_1 (c : Dev nD) : W1 m ρ c (Proc.devRef .tc main_arg0) = m ((c : Thread nD τ).loc main_arg0) :=
  (by host_keeps hostOps0 : W1 m ρ c (Proc.devRef .tc main_arg0) = W0 m ρ c (Proc.devRef .tc main_arg0)).trans (arg0_0 m ρ c)
theorem arg0_2 (c : Dev nD) : W2 m ρ c (Proc.devRef .tc main_arg0) = m ((c : Thread nD τ).loc main_arg0) :=
  (by host_keeps hostOps0_1 : W2 m ρ c (Proc.devRef .tc main_arg0) = W1 m ρ c (Proc.devRef .tc main_arg0)).trans (arg0_1 m ρ c)
theorem arg0_3 (c : Dev nD) : W3 m ρ c (Proc.devRef .tc main_arg0) = m ((c : Thread nD τ).loc main_arg0) :=
  (by host_keeps hostOps0_2 : W3 m ρ c (Proc.devRef .tc main_arg0) = W2 m ρ c (Proc.devRef .tc main_arg0)).trans (arg0_2 m ρ c)
theorem arg0_4 (c : Dev nD) : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (arg0_3 m ρ c)
theorem arg0_5 (c : Dev nD) : W5 m ρ c (Proc.devRef .tc main_arg0) = m ((c : Thread nD τ).loc main_arg0) :=
  (by host_keeps hostOps1 : W5 m ρ c (Proc.devRef .tc main_arg0) = W4 m ρ c (Proc.devRef .tc main_arg0)).trans (arg0_4 m ρ c)
theorem arg0_6 (c : Dev nD) : W6 m ρ c (Proc.devRef .tc main_arg0) = m ((c : Thread nD τ).loc main_arg0) :=
  (W6_of_ne m ρ c main_arg0 (by decide)).trans (arg0_5 m ρ c)
theorem arg0_7 (c : Dev nD) : W7 m ρ c (Proc.devRef .tc main_arg0) = m ((c : Thread nD τ).loc main_arg0) :=
  (by host_keeps hostOps2 : W7 m ρ c (Proc.devRef .tc main_arg0) = W6 m ρ c (Proc.devRef .tc main_arg0)).trans (arg0_6 m ρ c)
theorem arg0_8 (c : Dev nD) : W8 m ρ c (Proc.devRef .tc main_arg0) = m ((c : Thread nD τ).loc main_arg0) :=
  ((W8_arr m ρ c 1).trans (((dat2 (V7 m ρ) c).arrAt_in 1 rfl _).trans (A_eq2 (V7 m ρ) c 1))).trans (arg0_7 m ρ c)
theorem arg0_9 (c : Dev nD) : W9 m ρ c (Proc.devRef .tc main_arg0) = m ((c : Thread nD τ).loc main_arg0) :=
  (W9_of_ne m ρ c main_arg0 (by decide)).trans (arg0_8 m ρ c)
theorem arg0_10 (c : Dev nD) : W10 m ρ c (Proc.devRef .tc main_arg0) = m ((c : Thread nD τ).loc main_arg0) :=
  (by host_keeps hostOps4 : W10 m ρ c (Proc.devRef .tc main_arg0) = W9 m ρ c (Proc.devRef .tc main_arg0)).trans (arg0_9 m ρ c)
theorem arg0_11 (c : Dev nD) : W11 m ρ c (Proc.devRef .tc main_arg0) = m ((c : Thread nD τ).loc main_arg0) :=
  (W11_of_ne m ρ c main_arg0 (by decide)).trans (arg0_10 m ρ c)
theorem arg0_12 (c : Dev nD) : W12 m ρ c (Proc.devRef .tc main_arg0) = m ((c : Thread nD τ).loc main_arg0) :=
  (by host_keeps hostOps5 : W12 m ρ c (Proc.devRef .tc main_arg0) = W11 m ρ c (Proc.devRef .tc main_arg0)).trans (arg0_11 m ρ c)
theorem arg0_13 (c : Dev nD) : W13 m ρ c (Proc.devRef .tc main_arg0) = m ((c : Thread nD τ).loc main_arg0) :=
  ((W13_arr m ρ c 1).trans (((dat5 (V12 m ρ) c).arrAt_in 1 rfl _).trans (A_eq5 (V12 m ρ) c 1))).trans (arg0_12 m ρ c)
theorem arg0_14 (c : Dev nD) : W14 m ρ c (Proc.devRef .tc main_arg0) = m ((c : Thread nD τ).loc main_arg0) :=
  (W14_of_ne m ρ c main_arg0 (by decide)).trans (arg0_13 m ρ c)
theorem arg0_15 (c : Dev nD) : W15 m ρ c (Proc.devRef .tc main_arg0) = m ((c : Thread nD τ).loc main_arg0) :=
  (by host_keeps hostOps7 : W15 m ρ c (Proc.devRef .tc main_arg0) = W14 m ρ c (Proc.devRef .tc main_arg0)).trans (arg0_14 m ρ c)
theorem arg0_16 (c : Dev nD) : W16 m ρ c (Proc.devRef .tc main_arg0) = m ((c : Thread nD τ).loc main_arg0) :=
  (W16_of_ne m ρ c main_arg0 (by decide)).trans (arg0_15 m ρ c)
theorem arg0_17 (c : Dev nD) : W17 m ρ c (Proc.devRef .tc main_arg0) = m ((c : Thread nD τ).loc main_arg0) :=
  (by host_keeps hostOps8 : W17 m ρ c (Proc.devRef .tc main_arg0) = W16 m ρ c (Proc.devRef .tc main_arg0)).trans (arg0_16 m ρ c)
theorem arg0_18 (c : Dev nD) : W18 m ρ c (Proc.devRef .tc main_arg0) = m ((c : Thread nD τ).loc main_arg0) :=
  ((W18_arr m ρ c 1).trans (((dat8 (V17 m ρ) c).arrAt_in 1 rfl _).trans (A_eq8 (V17 m ρ) c 1))).trans (arg0_17 m ρ c)
theorem arg0_19 (c : Dev nD) : W19 m ρ c (Proc.devRef .tc main_arg0) = m ((c : Thread nD τ).loc main_arg0) :=
  (W19_of_ne m ρ c main_arg0 (by decide)).trans (arg0_18 m ρ c)
theorem arg0_20 (c : Dev nD) : W20 m ρ c (Proc.devRef .tc main_arg0) = m ((c : Thread nD τ).loc main_arg0) :=
  (by host_keeps hostOps10 : W20 m ρ c (Proc.devRef .tc main_arg0) = W19 m ρ c (Proc.devRef .tc main_arg0)).trans (arg0_19 m ρ c)
theorem arg0_21 (c : Dev nD) : W21 m ρ c (Proc.devRef .tc main_arg0) = m ((c : Thread nD τ).loc main_arg0) :=
  (W21_of_ne m ρ c main_arg0 (by decide)).trans (arg0_20 m ρ c)
theorem arg0_22 (c : Dev nD) : W22 m ρ c (Proc.devRef .tc main_arg0) = m ((c : Thread nD τ).loc main_arg0) :=
  (by host_keeps hostOps11 : W22 m ρ c (Proc.devRef .tc main_arg0) = W21 m ρ c (Proc.devRef .tc main_arg0)).trans (arg0_21 m ρ c)
theorem arg0_23 (c : Dev nD) : W23 m ρ c (Proc.devRef .tc main_arg0) = m ((c : Thread nD τ).loc main_arg0) :=
  ((W23_arr m ρ c 1).trans (((dat11 (V22 m ρ) c).arrAt_in 1 rfl _).trans (A_eq11 (V22 m ρ) c 1))).trans (arg0_22 m ρ c)
theorem arg0_24 (c : Dev nD) : W24 m ρ c (Proc.devRef .tc main_arg0) = m ((c : Thread nD τ).loc main_arg0) :=
  (by host_keeps hostOps12 : W24 m ρ c (Proc.devRef .tc main_arg0) = W23 m ρ c (Proc.devRef .tc main_arg0)).trans (arg0_23 m ρ c)
theorem arg0_25 (c : Dev nD) : W25 m ρ c (Proc.devRef .tc main_arg0) = m ((c : Thread nD τ).loc main_arg0) :=
  (W25_of_ne m ρ c main_arg0 (by decide)).trans (arg0_24 m ρ c)
theorem arg0_26 (c : Dev nD) : W26 m ρ c (Proc.devRef .tc main_arg0) = m ((c : Thread nD τ).loc main_arg0) :=
  (by host_keeps hostOps13 : W26 m ρ c (Proc.devRef .tc main_arg0) = W25 m ρ c (Proc.devRef .tc main_arg0)).trans (arg0_25 m ρ c)
theorem arg0_27 (c : Dev nD) : W27 m ρ c (Proc.devRef .tc main_arg0) = m ((c : Thread nD τ).loc main_arg0) :=
  ((W27_arr m ρ c 0).trans (((dat13 (V26 m ρ) c).arrAt_in 0 rfl _).trans (A_eq13 (V26 m ρ) c 0))).trans (arg0_26 m ρ c)
theorem arg0_28 (c : Dev nD) : W28 m ρ c (Proc.devRef .tc main_arg0) = m ((c : Thread nD τ).loc main_arg0) :=
  (by host_keeps hostOps14 : W28 m ρ c (Proc.devRef .tc main_arg0) = W27 m ρ c (Proc.devRef .tc main_arg0)).trans (arg0_27 m ρ c)
theorem arg0_29 (c : Dev nD) : W29 m ρ c (Proc.devRef .tc main_arg0) = m ((c : Thread nD τ).loc main_arg0) :=
  (W29_of_ne m ρ c main_arg0 (by decide)).trans (arg0_28 m ρ c)
theorem arg0_30 (c : Dev nD) : W30 m ρ c (Proc.devRef .tc main_arg0) = m ((c : Thread nD τ).loc main_arg0) :=
  (by host_keeps hostOps15 : W30 m ρ c (Proc.devRef .tc main_arg0) = W29 m ρ c (Proc.devRef .tc main_arg0)).trans (arg0_29 m ρ c)
theorem arg0_31 (c : Dev nD) : W31 m ρ c (Proc.devRef .tc main_arg0) = m ((c : Thread nD τ).loc main_arg0) :=
  ((W31_arr m ρ c 1).trans (((dat15 (V30 m ρ) c).arrAt_in 1 rfl _).trans (A_eq15 (V30 m ρ) c 1))).trans (arg0_30 m ρ c)
theorem arg0_32 (c : Dev nD) : W32 m ρ c (Proc.devRef .tc main_arg0) = m ((c : Thread nD τ).loc main_arg0) :=
  (W32_of_ne m ρ c main_arg0 (by decide)).trans (arg0_31 m ρ c)
theorem arg0_33 (c : Dev nD) : W33 m ρ c (Proc.devRef .tc main_arg0) = m ((c : Thread nD τ).loc main_arg0) :=
  (by host_keeps hostOps17 : W33 m ρ c (Proc.devRef .tc main_arg0) = W32 m ρ c (Proc.devRef .tc main_arg0)).trans (arg0_32 m ρ c)
theorem arg0_34 (c : Dev nD) : W34 m ρ c (Proc.devRef .tc main_arg0) = m ((c : Thread nD τ).loc main_arg0) :=
  (W34_of_ne m ρ c main_arg0 (by decide)).trans (arg0_33 m ρ c)
theorem arg0_35 (c : Dev nD) : W35 m ρ c (Proc.devRef .tc main_arg0) = m ((c : Thread nD τ).loc main_arg0) :=
  (by host_keeps hostOps18 : W35 m ρ c (Proc.devRef .tc main_arg0) = W34 m ρ c (Proc.devRef .tc main_arg0)).trans (arg0_34 m ρ c)
theorem arg0_36 (c : Dev nD) : W36 m ρ c (Proc.devRef .tc main_arg0) = m ((c : Thread nD τ).loc main_arg0) :=
  ((W36_arr m ρ c 1).trans (((dat18 (V35 m ρ) c).arrAt_in 1 rfl _).trans (A_eq18 (V35 m ρ) c 1))).trans (arg0_35 m ρ c)
theorem arg0_37 (c : Dev nD) : W37 m ρ c (Proc.devRef .tc main_arg0) = m ((c : Thread nD τ).loc main_arg0) :=
  (W37_of_ne m ρ c main_arg0 (by decide)).trans (arg0_36 m ρ c)
theorem arg0_38 (c : Dev nD) : W38 m ρ c (Proc.devRef .tc main_arg0) = m ((c : Thread nD τ).loc main_arg0) :=
  (by host_keeps hostOps20 : W38 m ρ c (Proc.devRef .tc main_arg0) = W37 m ρ c (Proc.devRef .tc main_arg0)).trans (arg0_37 m ρ c)
theorem arg0_39 (c : Dev nD) : W39 m ρ c (Proc.devRef .tc main_arg0) = m ((c : Thread nD τ).loc main_arg0) :=
  (W39_of_ne m ρ c main_arg0 (by decide)).trans (arg0_38 m ρ c)
theorem arg0_40 (c : Dev nD) : W40 m ρ c (Proc.devRef .tc main_arg0) = m ((c : Thread nD τ).loc main_arg0) :=
  (by host_keeps hostOps21 : W40 m ρ c (Proc.devRef .tc main_arg0) = W39 m ρ c (Proc.devRef .tc main_arg0)).trans (arg0_39 m ρ c)
theorem arg0_41 (c : Dev nD) : W41 m ρ c (Proc.devRef .tc main_arg0) = m ((c : Thread nD τ).loc main_arg0) :=
  ((W41_arr m ρ c 1).trans (((dat21 (V40 m ρ) c).arrAt_in 1 rfl _).trans (A_eq21 (V40 m ρ) c 1))).trans (arg0_40 m ρ c)
theorem arg0_42 (c : Dev nD) : W42 m ρ c (Proc.devRef .tc main_arg0) = m ((c : Thread nD τ).loc main_arg0) :=
  (W42_of_ne m ρ c main_arg0 (by decide)).trans (arg0_41 m ρ c)
theorem arg0_43 (c : Dev nD) : W43 m ρ c (Proc.devRef .tc main_arg0) = m ((c : Thread nD τ).loc main_arg0) :=
  (by host_keeps hostOps23 : W43 m ρ c (Proc.devRef .tc main_arg0) = W42 m ρ c (Proc.devRef .tc main_arg0)).trans (arg0_42 m ρ c)
theorem arg0_44 (c : Dev nD) : W44 m ρ c (Proc.devRef .tc main_arg0) = m ((c : Thread nD τ).loc main_arg0) :=
  (W44_of_ne m ρ c main_arg0 (by decide)).trans (arg0_43 m ρ c)
theorem arg0_45 (c : Dev nD) : W45 m ρ c (Proc.devRef .tc main_arg0) = m ((c : Thread nD τ).loc main_arg0) :=
  (by host_keeps hostOps24 : W45 m ρ c (Proc.devRef .tc main_arg0) = W44 m ρ c (Proc.devRef .tc main_arg0)).trans (arg0_44 m ρ c)

/-! ### `main_arg1` at the boundaries 0 … 42 -/
theorem arg1_0 (c : Dev nD) : W0 m ρ c (Proc.devRef .tc main_arg1) = m ((c : Thread nD τ).loc main_arg1) := rfl
theorem arg1_1 (c : Dev nD) : W1 m ρ c (Proc.devRef .tc main_arg1) = m ((c : Thread nD τ).loc main_arg1) :=
  (by host_keeps hostOps0 : W1 m ρ c (Proc.devRef .tc main_arg1) = W0 m ρ c (Proc.devRef .tc main_arg1)).trans (arg1_0 m ρ c)
theorem arg1_2 (c : Dev nD) : W2 m ρ c (Proc.devRef .tc main_arg1) = m ((c : Thread nD τ).loc main_arg1) :=
  (by host_keeps hostOps0_1 : W2 m ρ c (Proc.devRef .tc main_arg1) = W1 m ρ c (Proc.devRef .tc main_arg1)).trans (arg1_1 m ρ c)
theorem arg1_3 (c : Dev nD) : W3 m ρ c (Proc.devRef .tc main_arg1) = m ((c : Thread nD τ).loc main_arg1) :=
  (by host_keeps hostOps0_2 : W3 m ρ c (Proc.devRef .tc main_arg1) = W2 m ρ c (Proc.devRef .tc main_arg1)).trans (arg1_2 m ρ c)
theorem arg1_4 (c : Dev nD) : W4 m ρ c (Proc.devRef .tc main_arg1) = m ((c : Thread nD τ).loc main_arg1) :=
  (W4_of_ne m ρ c main_arg1 (by decide)).trans (arg1_3 m ρ c)
theorem arg1_5 (c : Dev nD) : W5 m ρ c (Proc.devRef .tc main_arg1) = m ((c : Thread nD τ).loc main_arg1) :=
  (by host_keeps hostOps1 : W5 m ρ c (Proc.devRef .tc main_arg1) = W4 m ρ c (Proc.devRef .tc main_arg1)).trans (arg1_4 m ρ c)
theorem arg1_6 (c : Dev nD) : W6 m ρ c (Proc.devRef .tc main_arg1) = m ((c : Thread nD τ).loc main_arg1) :=
  (W6_of_ne m ρ c main_arg1 (by decide)).trans (arg1_5 m ρ c)
theorem arg1_7 (c : Dev nD) : W7 m ρ c (Proc.devRef .tc main_arg1) = m ((c : Thread nD τ).loc main_arg1) :=
  (by host_keeps hostOps2 : W7 m ρ c (Proc.devRef .tc main_arg1) = W6 m ρ c (Proc.devRef .tc main_arg1)).trans (arg1_6 m ρ c)
theorem arg1_8 (c : Dev nD) : W8 m ρ c (Proc.devRef .tc main_arg1) = m ((c : Thread nD τ).loc main_arg1) :=
  (W8_of_ne m ρ c main_arg1 (by decide)).trans (arg1_7 m ρ c)
theorem arg1_9 (c : Dev nD) : W9 m ρ c (Proc.devRef .tc main_arg1) = m ((c : Thread nD τ).loc main_arg1) :=
  (W9_of_ne m ρ c main_arg1 (by decide)).trans (arg1_8 m ρ c)
theorem arg1_10 (c : Dev nD) : W10 m ρ c (Proc.devRef .tc main_arg1) = m ((c : Thread nD τ).loc main_arg1) :=
  (by host_keeps hostOps4 : W10 m ρ c (Proc.devRef .tc main_arg1) = W9 m ρ c (Proc.devRef .tc main_arg1)).trans (arg1_9 m ρ c)
theorem arg1_11 (c : Dev nD) : W11 m ρ c (Proc.devRef .tc main_arg1) = m ((c : Thread nD τ).loc main_arg1) :=
  (W11_of_ne m ρ c main_arg1 (by decide)).trans (arg1_10 m ρ c)
theorem arg1_12 (c : Dev nD) : W12 m ρ c (Proc.devRef .tc main_arg1) = m ((c : Thread nD τ).loc main_arg1) :=
  (by host_keeps hostOps5 : W12 m ρ c (Proc.devRef .tc main_arg1) = W11 m ρ c (Proc.devRef .tc main_arg1)).trans (arg1_11 m ρ c)
theorem arg1_13 (c : Dev nD) : W13 m ρ c (Proc.devRef .tc main_arg1) = m ((c : Thread nD τ).loc main_arg1) :=
  (W13_of_ne m ρ c main_arg1 (by decide)).trans (arg1_12 m ρ c)
theorem arg1_14 (c : Dev nD) : W14 m ρ c (Proc.devRef .tc main_arg1) = m ((c : Thread nD τ).loc main_arg1) :=
  (W14_of_ne m ρ c main_arg1 (by decide)).trans (arg1_13 m ρ c)
theorem arg1_15 (c : Dev nD) : W15 m ρ c (Proc.devRef .tc main_arg1) = m ((c : Thread nD τ).loc main_arg1) :=
  (by host_keeps hostOps7 : W15 m ρ c (Proc.devRef .tc main_arg1) = W14 m ρ c (Proc.devRef .tc main_arg1)).trans (arg1_14 m ρ c)
theorem arg1_16 (c : Dev nD) : W16 m ρ c (Proc.devRef .tc main_arg1) = m ((c : Thread nD τ).loc main_arg1) :=
  (W16_of_ne m ρ c main_arg1 (by decide)).trans (arg1_15 m ρ c)
theorem arg1_17 (c : Dev nD) : W17 m ρ c (Proc.devRef .tc main_arg1) = m ((c : Thread nD τ).loc main_arg1) :=
  (by host_keeps hostOps8 : W17 m ρ c (Proc.devRef .tc main_arg1) = W16 m ρ c (Proc.devRef .tc main_arg1)).trans (arg1_16 m ρ c)
theorem arg1_18 (c : Dev nD) : W18 m ρ c (Proc.devRef .tc main_arg1) = m ((c : Thread nD τ).loc main_arg1) :=
  (W18_of_ne m ρ c main_arg1 (by decide)).trans (arg1_17 m ρ c)
theorem arg1_19 (c : Dev nD) : W19 m ρ c (Proc.devRef .tc main_arg1) = m ((c : Thread nD τ).loc main_arg1) :=
  (W19_of_ne m ρ c main_arg1 (by decide)).trans (arg1_18 m ρ c)
theorem arg1_20 (c : Dev nD) : W20 m ρ c (Proc.devRef .tc main_arg1) = m ((c : Thread nD τ).loc main_arg1) :=
  (by host_keeps hostOps10 : W20 m ρ c (Proc.devRef .tc main_arg1) = W19 m ρ c (Proc.devRef .tc main_arg1)).trans (arg1_19 m ρ c)
theorem arg1_21 (c : Dev nD) : W21 m ρ c (Proc.devRef .tc main_arg1) = m ((c : Thread nD τ).loc main_arg1) :=
  (W21_of_ne m ρ c main_arg1 (by decide)).trans (arg1_20 m ρ c)
theorem arg1_22 (c : Dev nD) : W22 m ρ c (Proc.devRef .tc main_arg1) = m ((c : Thread nD τ).loc main_arg1) :=
  (by host_keeps hostOps11 : W22 m ρ c (Proc.devRef .tc main_arg1) = W21 m ρ c (Proc.devRef .tc main_arg1)).trans (arg1_21 m ρ c)
theorem arg1_23 (c : Dev nD) : W23 m ρ c (Proc.devRef .tc main_arg1) = m ((c : Thread nD τ).loc main_arg1) :=
  (W23_of_ne m ρ c main_arg1 (by decide)).trans (arg1_22 m ρ c)
theorem arg1_24 (c : Dev nD) : W24 m ρ c (Proc.devRef .tc main_arg1) = m ((c : Thread nD τ).loc main_arg1) :=
  (by host_keeps hostOps12 : W24 m ρ c (Proc.devRef .tc main_arg1) = W23 m ρ c (Proc.devRef .tc main_arg1)).trans (arg1_23 m ρ c)
theorem arg1_25 (c : Dev nD) : W25 m ρ c (Proc.devRef .tc main_arg1) = m ((c : Thread nD τ).loc main_arg1) :=
  (W25_of_ne m ρ c main_arg1 (by decide)).trans (arg1_24 m ρ c)
theorem arg1_26 (c : Dev nD) : W26 m ρ c (Proc.devRef .tc main_arg1) = m ((c : Thread nD τ).loc main_arg1) :=
  (by host_keeps hostOps13 : W26 m ρ c (Proc.devRef .tc main_arg1) = W25 m ρ c (Proc.devRef .tc main_arg1)).trans (arg1_25 m ρ c)
theorem arg1_27 (c : Dev nD) : W27 m ρ c (Proc.devRef .tc main_arg1) = m ((c : Thread nD τ).loc main_arg1) :=
  (W27_of_ne m ρ c main_arg1 (by decide)).trans (arg1_26 m ρ c)
theorem arg1_28 (c : Dev nD) : W28 m ρ c (Proc.devRef .tc main_arg1) = m ((c : Thread nD τ).loc main_arg1) :=
  (by host_keeps hostOps14 : W28 m ρ c (Proc.devRef .tc main_arg1) = W27 m ρ c (Proc.devRef .tc main_arg1)).trans (arg1_27 m ρ c)
theorem arg1_29 (c : Dev nD) : W29 m ρ c (Proc.devRef .tc main_arg1) = m ((c : Thread nD τ).loc main_arg1) :=
  (W29_of_ne m ρ c main_arg1 (by decide)).trans (arg1_28 m ρ c)
theorem arg1_30 (c : Dev nD) : W30 m ρ c (Proc.devRef .tc main_arg1) = m ((c : Thread nD τ).loc main_arg1) :=
  (by host_keeps hostOps15 : W30 m ρ c (Proc.devRef .tc main_arg1) = W29 m ρ c (Proc.devRef .tc main_arg1)).trans (arg1_29 m ρ c)
theorem arg1_31 (c : Dev nD) : W31 m ρ c (Proc.devRef .tc main_arg1) = m ((c : Thread nD τ).loc main_arg1) :=
  (W31_of_ne m ρ c main_arg1 (by decide)).trans (arg1_30 m ρ c)
theorem arg1_32 (c : Dev nD) : W32 m ρ c (Proc.devRef .tc main_arg1) = m ((c : Thread nD τ).loc main_arg1) :=
  (W32_of_ne m ρ c main_arg1 (by decide)).trans (arg1_31 m ρ c)
theorem arg1_33 (c : Dev nD) : W33 m ρ c (Proc.devRef .tc main_arg1) = m ((c : Thread nD τ).loc main_arg1) :=
  (by host_keeps hostOps17 : W33 m ρ c (Proc.devRef .tc main_arg1) = W32 m ρ c (Proc.devRef .tc main_arg1)).trans (arg1_32 m ρ c)
theorem arg1_34 (c : Dev nD) : W34 m ρ c (Proc.devRef .tc main_arg1) = m ((c : Thread nD τ).loc main_arg1) :=
  (W34_of_ne m ρ c main_arg1 (by decide)).trans (arg1_33 m ρ c)
theorem arg1_35 (c : Dev nD) : W35 m ρ c (Proc.devRef .tc main_arg1) = m ((c : Thread nD τ).loc main_arg1) :=
  (by host_keeps hostOps18 : W35 m ρ c (Proc.devRef .tc main_arg1) = W34 m ρ c (Proc.devRef .tc main_arg1)).trans (arg1_34 m ρ c)
theorem arg1_36 (c : Dev nD) : W36 m ρ c (Proc.devRef .tc main_arg1) = m ((c : Thread nD τ).loc main_arg1) :=
  (W36_of_ne m ρ c main_arg1 (by decide)).trans (arg1_35 m ρ c)
theorem arg1_37 (c : Dev nD) : W37 m ρ c (Proc.devRef .tc main_arg1) = m ((c : Thread nD τ).loc main_arg1) :=
  (W37_of_ne m ρ c main_arg1 (by decide)).trans (arg1_36 m ρ c)
theorem arg1_38 (c : Dev nD) : W38 m ρ c (Proc.devRef .tc main_arg1) = m ((c : Thread nD τ).loc main_arg1) :=
  (by host_keeps hostOps20 : W38 m ρ c (Proc.devRef .tc main_arg1) = W37 m ρ c (Proc.devRef .tc main_arg1)).trans (arg1_37 m ρ c)
theorem arg1_39 (c : Dev nD) : W39 m ρ c (Proc.devRef .tc main_arg1) = m ((c : Thread nD τ).loc main_arg1) :=
  (W39_of_ne m ρ c main_arg1 (by decide)).trans (arg1_38 m ρ c)
theorem arg1_40 (c : Dev nD) : W40 m ρ c (Proc.devRef .tc main_arg1) = m ((c : Thread nD τ).loc main_arg1) :=
  (by host_keeps hostOps21 : W40 m ρ c (Proc.devRef .tc main_arg1) = W39 m ρ c (Proc.devRef .tc main_arg1)).trans (arg1_39 m ρ c)
theorem arg1_41 (c : Dev nD) : W41 m ρ c (Proc.devRef .tc main_arg1) = m ((c : Thread nD τ).loc main_arg1) :=
  (W41_of_ne m ρ c main_arg1 (by decide)).trans (arg1_40 m ρ c)
theorem arg1_42 (c : Dev nD) : W42 m ρ c (Proc.devRef .tc main_arg1) = m ((c : Thread nD τ).loc main_arg1) :=
  (W42_of_ne m ρ c main_arg1 (by decide)).trans (arg1_41 m ρ c)

/-! ### `main_arg2` at the boundaries 0 … 44 -/
theorem arg2_0 (c : Dev nD) : W0 m ρ c (Proc.devRef .tc main_arg2) = m ((c : Thread nD τ).loc main_arg2) := rfl
theorem arg2_1 (c : Dev nD) : W1 m ρ c (Proc.devRef .tc main_arg2) = m ((c : Thread nD τ).loc main_arg2) :=
  (by host_keeps hostOps0 : W1 m ρ c (Proc.devRef .tc main_arg2) = W0 m ρ c (Proc.devRef .tc main_arg2)).trans (arg2_0 m ρ c)
theorem arg2_2 (c : Dev nD) : W2 m ρ c (Proc.devRef .tc main_arg2) = m ((c : Thread nD τ).loc main_arg2) :=
  (by host_keeps hostOps0_1 : W2 m ρ c (Proc.devRef .tc main_arg2) = W1 m ρ c (Proc.devRef .tc main_arg2)).trans (arg2_1 m ρ c)
theorem arg2_3 (c : Dev nD) : W3 m ρ c (Proc.devRef .tc main_arg2) = m ((c : Thread nD τ).loc main_arg2) :=
  (by host_keeps hostOps0_2 : W3 m ρ c (Proc.devRef .tc main_arg2) = W2 m ρ c (Proc.devRef .tc main_arg2)).trans (arg2_2 m ρ c)
theorem arg2_4 (c : Dev nD) : W4 m ρ c (Proc.devRef .tc main_arg2) = m ((c : Thread nD τ).loc main_arg2) :=
  (W4_of_ne m ρ c main_arg2 (by decide)).trans (arg2_3 m ρ c)
theorem arg2_5 (c : Dev nD) : W5 m ρ c (Proc.devRef .tc main_arg2) = m ((c : Thread nD τ).loc main_arg2) :=
  (by host_keeps hostOps1 : W5 m ρ c (Proc.devRef .tc main_arg2) = W4 m ρ c (Proc.devRef .tc main_arg2)).trans (arg2_4 m ρ c)
theorem arg2_6 (c : Dev nD) : W6 m ρ c (Proc.devRef .tc main_arg2) = m ((c : Thread nD τ).loc main_arg2) :=
  (W6_of_ne m ρ c main_arg2 (by decide)).trans (arg2_5 m ρ c)
theorem arg2_7 (c : Dev nD) : W7 m ρ c (Proc.devRef .tc main_arg2) = m ((c : Thread nD τ).loc main_arg2) :=
  (by host_keeps hostOps2 : W7 m ρ c (Proc.devRef .tc main_arg2) = W6 m ρ c (Proc.devRef .tc main_arg2)).trans (arg2_6 m ρ c)
theorem arg2_8 (c : Dev nD) : W8 m ρ c (Proc.devRef .tc main_arg2) = m ((c : Thread nD τ).loc main_arg2) :=
  (W8_of_ne m ρ c main_arg2 (by decide)).trans (arg2_7 m ρ c)
theorem arg2_9 (c : Dev nD) : W9 m ρ c (Proc.devRef .tc main_arg2) = m ((c : Thread nD τ).loc main_arg2) :=
  (W9_of_ne m ρ c main_arg2 (by decide)).trans (arg2_8 m ρ c)
theorem arg2_10 (c : Dev nD) : W10 m ρ c (Proc.devRef .tc main_arg2) = m ((c : Thread nD τ).loc main_arg2) :=
  (by host_keeps hostOps4 : W10 m ρ c (Proc.devRef .tc main_arg2) = W9 m ρ c (Proc.devRef .tc main_arg2)).trans (arg2_9 m ρ c)
theorem arg2_11 (c : Dev nD) : W11 m ρ c (Proc.devRef .tc main_arg2) = m ((c : Thread nD τ).loc main_arg2) :=
  (W11_of_ne m ρ c main_arg2 (by decide)).trans (arg2_10 m ρ c)
theorem arg2_12 (c : Dev nD) : W12 m ρ c (Proc.devRef .tc main_arg2) = m ((c : Thread nD τ).loc main_arg2) :=
  (by host_keeps hostOps5 : W12 m ρ c (Proc.devRef .tc main_arg2) = W11 m ρ c (Proc.devRef .tc main_arg2)).trans (arg2_11 m ρ c)
theorem arg2_13 (c : Dev nD) : W13 m ρ c (Proc.devRef .tc main_arg2) = m ((c : Thread nD τ).loc main_arg2) :=
  (W13_of_ne m ρ c main_arg2 (by decide)).trans (arg2_12 m ρ c)
theorem arg2_14 (c : Dev nD) : W14 m ρ c (Proc.devRef .tc main_arg2) = m ((c : Thread nD τ).loc main_arg2) :=
  (W14_of_ne m ρ c main_arg2 (by decide)).trans (arg2_13 m ρ c)
theorem arg2_15 (c : Dev nD) : W15 m ρ c (Proc.devRef .tc main_arg2) = m ((c : Thread nD τ).loc main_arg2) :=
  (by host_keeps hostOps7 : W15 m ρ c (Proc.devRef .tc main_arg2) = W14 m ρ c (Proc.devRef .tc main_arg2)).trans (arg2_14 m ρ c)
theorem arg2_16 (c : Dev nD) : W16 m ρ c (Proc.devRef .tc main_arg2) = m ((c : Thread nD τ).loc main_arg2) :=
  (W16_of_ne m ρ c main_arg2 (by decide)).trans (arg2_15 m ρ c)
theorem arg2_17 (c : Dev nD) : W17 m ρ c (Proc.devRef .tc main_arg2) = m ((c : Thread nD τ).loc main_arg2) :=
  (by host_keeps hostOps8 : W17 m ρ c (Proc.devRef .tc main_arg2) = W16 m ρ c (Proc.devRef .tc main_arg2)).trans (arg2_16 m ρ c)
theorem arg2_18 (c : Dev nD) : W18 m ρ c (Proc.devRef .tc main_arg2) = m ((c : Thread nD τ).loc main_arg2) :=
  (W18_of_ne m ρ c main_arg2 (by decide)).trans (arg2_17 m ρ c)
theorem arg2_19 (c : Dev nD) : W19 m ρ c (Proc.devRef .tc main_arg2) = m ((c : Thread nD τ).loc main_arg2) :=
  (W19_of_ne m ρ c main_arg2 (by decide)).trans (arg2_18 m ρ c)
theorem arg2_20 (c : Dev nD) : W20 m ρ c (Proc.devRef .tc main_arg2) = m ((c : Thread nD τ).loc main_arg2) :=
  (by host_keeps hostOps10 : W20 m ρ c (Proc.devRef .tc main_arg2) = W19 m ρ c (Proc.devRef .tc main_arg2)).trans (arg2_19 m ρ c)
theorem arg2_21 (c : Dev nD) : W21 m ρ c (Proc.devRef .tc main_arg2) = m ((c : Thread nD τ).loc main_arg2) :=
  (W21_of_ne m ρ c main_arg2 (by decide)).trans (arg2_20 m ρ c)
theorem arg2_22 (c : Dev nD) : W22 m ρ c (Proc.devRef .tc main_arg2) = m ((c : Thread nD τ).loc main_arg2) :=
  (by host_keeps hostOps11 : W22 m ρ c (Proc.devRef .tc main_arg2) = W21 m ρ c (Proc.devRef .tc main_arg2)).trans (arg2_21 m ρ c)
theorem arg2_23 (c : Dev nD) : W23 m ρ c (Proc.devRef .tc main_arg2) = m ((c : Thread nD τ).loc main_arg2) :=
  (W23_of_ne m ρ c main_arg2 (by decide)).trans (arg2_22 m ρ c)
theorem arg2_24 (c : Dev nD) : W24 m ρ c (Proc.devRef .tc main_arg2) = m ((c : Thread nD τ).loc main_arg2) :=
  (by host_keeps hostOps12 : W24 m ρ c (Proc.devRef .tc main_arg2) = W23 m ρ c (Proc.devRef .tc main_arg2)).trans (arg2_23 m ρ c)
theorem arg2_25 (c : Dev nD) : W25 m ρ c (Proc.devRef .tc main_arg2) = m ((c : Thread nD τ).loc main_arg2) :=
  (W25_of_ne m ρ c main_arg2 (by decide)).trans (arg2_24 m ρ c)
theorem arg2_26 (c : Dev nD) : W26 m ρ c (Proc.devRef .tc main_arg2) = m ((c : Thread nD τ).loc main_arg2) :=
  (by host_keeps hostOps13 : W26 m ρ c (Proc.devRef .tc main_arg2) = W25 m ρ c (Proc.devRef .tc main_arg2)).trans (arg2_25 m ρ c)
theorem arg2_27 (c : Dev nD) : W27 m ρ c (Proc.devRef .tc main_arg2) = m ((c : Thread nD τ).loc main_arg2) :=
  (W27_of_ne m ρ c main_arg2 (by decide)).trans (arg2_26 m ρ c)
theorem arg2_28 (c : Dev nD) : W28 m ρ c (Proc.devRef .tc main_arg2) = m ((c : Thread nD τ).loc main_arg2) :=
  (by host_keeps hostOps14 : W28 m ρ c (Proc.devRef .tc main_arg2) = W27 m ρ c (Proc.devRef .tc main_arg2)).trans (arg2_27 m ρ c)
theorem arg2_29 (c : Dev nD) : W29 m ρ c (Proc.devRef .tc main_arg2) = m ((c : Thread nD τ).loc main_arg2) :=
  (W29_of_ne m ρ c main_arg2 (by decide)).trans (arg2_28 m ρ c)
theorem arg2_30 (c : Dev nD) : W30 m ρ c (Proc.devRef .tc main_arg2) = m ((c : Thread nD τ).loc main_arg2) :=
  (by host_keeps hostOps15 : W30 m ρ c (Proc.devRef .tc main_arg2) = W29 m ρ c (Proc.devRef .tc main_arg2)).trans (arg2_29 m ρ c)
theorem arg2_31 (c : Dev nD) : W31 m ρ c (Proc.devRef .tc main_arg2) = m ((c : Thread nD τ).loc main_arg2) :=
  (W31_of_ne m ρ c main_arg2 (by decide)).trans (arg2_30 m ρ c)
theorem arg2_32 (c : Dev nD) : W32 m ρ c (Proc.devRef .tc main_arg2) = m ((c : Thread nD τ).loc main_arg2) :=
  (W32_of_ne m ρ c main_arg2 (by decide)).trans (arg2_31 m ρ c)
theorem arg2_33 (c : Dev nD) : W33 m ρ c (Proc.devRef .tc main_arg2) = m ((c : Thread nD τ).loc main_arg2) :=
  (by host_keeps hostOps17 : W33 m ρ c (Proc.devRef .tc main_arg2) = W32 m ρ c (Proc.devRef .tc main_arg2)).trans (arg2_32 m ρ c)
theorem arg2_34 (c : Dev nD) : W34 m ρ c (Proc.devRef .tc main_arg2) = m ((c : Thread nD τ).loc main_arg2) :=
  (W34_of_ne m ρ c main_arg2 (by decide)).trans (arg2_33 m ρ c)
theorem arg2_35 (c : Dev nD) : W35 m ρ c (Proc.devRef .tc main_arg2) = m ((c : Thread nD τ).loc main_arg2) :=
  (by host_keeps hostOps18 : W35 m ρ c (Proc.devRef .tc main_arg2) = W34 m ρ c (Proc.devRef .tc main_arg2)).trans (arg2_34 m ρ c)
theorem arg2_36 (c : Dev nD) : W36 m ρ c (Proc.devRef .tc main_arg2) = m ((c : Thread nD τ).loc main_arg2) :=
  (W36_of_ne m ρ c main_arg2 (by decide)).trans (arg2_35 m ρ c)
theorem arg2_37 (c : Dev nD) : W37 m ρ c (Proc.devRef .tc main_arg2) = m ((c : Thread nD τ).loc main_arg2) :=
  (W37_of_ne m ρ c main_arg2 (by decide)).trans (arg2_36 m ρ c)
theorem arg2_38 (c : Dev nD) : W38 m ρ c (Proc.devRef .tc main_arg2) = m ((c : Thread nD τ).loc main_arg2) :=
  (by host_keeps hostOps20 : W38 m ρ c (Proc.devRef .tc main_arg2) = W37 m ρ c (Proc.devRef .tc main_arg2)).trans (arg2_37 m ρ c)
theorem arg2_39 (c : Dev nD) : W39 m ρ c (Proc.devRef .tc main_arg2) = m ((c : Thread nD τ).loc main_arg2) :=
  (W39_of_ne m ρ c main_arg2 (by decide)).trans (arg2_38 m ρ c)
theorem arg2_40 (c : Dev nD) : W40 m ρ c (Proc.devRef .tc main_arg2) = m ((c : Thread nD τ).loc main_arg2) :=
  (by host_keeps hostOps21 : W40 m ρ c (Proc.devRef .tc main_arg2) = W39 m ρ c (Proc.devRef .tc main_arg2)).trans (arg2_39 m ρ c)
theorem arg2_41 (c : Dev nD) : W41 m ρ c (Proc.devRef .tc main_arg2) = m ((c : Thread nD τ).loc main_arg2) :=
  (W41_of_ne m ρ c main_arg2 (by decide)).trans (arg2_40 m ρ c)
theorem arg2_42 (c : Dev nD) : W42 m ρ c (Proc.devRef .tc main_arg2) = m ((c : Thread nD τ).loc main_arg2) :=
  (W42_of_ne m ρ c main_arg2 (by decide)).trans (arg2_41 m ρ c)
theorem arg2_43 (c : Dev nD) : W43 m ρ c (Proc.devRef .tc main_arg2) = m ((c : Thread nD τ).loc main_arg2) :=
  (by host_keeps hostOps23 : W43 m ρ c (Proc.devRef .tc main_arg2) = W42 m ρ c (Proc.devRef .tc main_arg2)).trans (arg2_42 m ρ c)
theorem arg2_44 (c : Dev nD) : W44 m ρ c (Proc.devRef .tc main_arg2) = m ((c : Thread nD τ).loc main_arg2) :=
  (W44_of_ne m ρ c main_arg2 (by decide)).trans (arg2_43 m ρ c)

end Cert.KernelIdeal.Chain

end
-- ==== Proof.ChainArgsB.lean ====
/- The edge weights, the weight matrices and the biases are arguments too: they hold what was launched at every boundary where a host
   stretch slices a graph's part out of them.
-/
import proofs.«172771_j21320217657536_1_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- A stretch of host operations leaves a buffer that none of them writes as it was: each operation writes one buffer, and it is another one. -/
local macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ### `main_arg3` at the boundaries 0 … 25 -/
theorem arg3_0 (c : Dev nD) : W0 m ρ c (Proc.devRef .tc main_arg3) = m ((c : Thread nD τ).loc main_arg3) := rfl
theorem arg3_1 (c : Dev nD) : W1 m ρ c (Proc.devRef .tc main_arg3) = m ((c : Thread nD τ).loc main_arg3) :=
  (by host_keeps hostOps0 : W1 m ρ c (Proc.devRef .tc main_arg3) = W0 m ρ c (Proc.devRef .tc main_arg3)).trans (arg3_0 m ρ c)
theorem arg3_2 (c : Dev nD) : W2 m ρ c (Proc.devRef .tc main_arg3) = m ((c : Thread nD τ).loc main_arg3) :=
  (by host_keeps hostOps0_1 : W2 m ρ c (Proc.devRef .tc main_arg3) = W1 m ρ c (Proc.devRef .tc main_arg3)).trans (arg3_1 m ρ c)
theorem arg3_3 (c : Dev nD) : W3 m ρ c (Proc.devRef .tc main_arg3) = m ((c : Thread nD τ).loc main_arg3) :=
  (by host_keeps hostOps0_2 : W3 m ρ c (Proc.devRef .tc main_arg3) = W2 m ρ c (Proc.devRef .tc main_arg3)).trans (arg3_2 m ρ c)
theorem arg3_4 (c : Dev nD) : W4 m ρ c (Proc.devRef .tc main_arg3) = m ((c : Thread nD τ).loc main_arg3) :=
  (W4_of_ne m ρ c main_arg3 (by decide)).trans (arg3_3 m ρ c)
theorem arg3_5 (c : Dev nD) : W5 m ρ c (Proc.devRef .tc main_arg3) = m ((c : Thread nD τ).loc main_arg3) :=
  (by host_keeps hostOps1 : W5 m ρ c (Proc.devRef .tc main_arg3) = W4 m ρ c (Proc.devRef .tc main_arg3)).trans (arg3_4 m ρ c)
theorem arg3_6 (c : Dev nD) : W6 m ρ c (Proc.devRef .tc main_arg3) = m ((c : Thread nD τ).loc main_arg3) :=
  (W6_of_ne m ρ c main_arg3 (by decide)).trans (arg3_5 m ρ c)
theorem arg3_7 (c : Dev nD) : W7 m ρ c (Proc.devRef .tc main_arg3) = m ((c : Thread nD τ).loc main_arg3) :=
  (by host_keeps hostOps2 : W7 m ρ c (Proc.devRef .tc main_arg3) = W6 m ρ c (Proc.devRef .tc main_arg3)).trans (arg3_6 m ρ c)
theorem arg3_8 (c : Dev nD) : W8 m ρ c (Proc.devRef .tc main_arg3) = m ((c : Thread nD τ).loc main_arg3) :=
  (W8_of_ne m ρ c main_arg3 (by decide)).trans (arg3_7 m ρ c)
theorem arg3_9 (c : Dev nD) : W9 m ρ c (Proc.devRef .tc main_arg3) = m ((c : Thread nD τ).loc main_arg3) :=
  (W9_of_ne m ρ c main_arg3 (by decide)).trans (arg3_8 m ρ c)
theorem arg3_10 (c : Dev nD) : W10 m ρ c (Proc.devRef .tc main_arg3) = m ((c : Thread nD τ).loc main_arg3) :=
  (by host_keeps hostOps4 : W10 m ρ c (Proc.devRef .tc main_arg3) = W9 m ρ c (Proc.devRef .tc main_arg3)).trans (arg3_9 m ρ c)
theorem arg3_11 (c : Dev nD) : W11 m ρ c (Proc.devRef .tc main_arg3) = m ((c : Thread nD τ).loc main_arg3) :=
  (W11_of_ne m ρ c main_arg3 (by decide)).trans (arg3_10 m ρ c)
theorem arg3_12 (c : Dev nD) : W12 m ρ c (Proc.devRef .tc main_arg3) = m ((c : Thread nD τ).loc main_arg3) :=
  (by host_keeps hostOps5 : W12 m ρ c (Proc.devRef .tc main_arg3) = W11 m ρ c (Proc.devRef .tc main_arg3)).trans (arg3_11 m ρ c)
theorem arg3_13 (c : Dev nD) : W13 m ρ c (Proc.devRef .tc main_arg3) = m ((c : Thread nD τ).loc main_arg3) :=
  (W13_of_ne m ρ c main_arg3 (by decide)).trans (arg3_12 m ρ c)
theorem arg3_14 (c : Dev nD) : W14 m ρ c (Proc.devRef .tc main_arg3) = m ((c : Thread nD τ).loc main_arg3) :=
  (W14_of_ne m ρ c main_arg3 (by decide)).trans (arg3_13 m ρ c)
theorem arg3_15 (c : Dev nD) : W15 m ρ c (Proc.devRef .tc main_arg3) = m ((c : Thread nD τ).loc main_arg3) :=
  (by host_keeps hostOps7 : W15 m ρ c (Proc.devRef .tc main_arg3) = W14 m ρ c (Proc.devRef .tc main_arg3)).trans (arg3_14 m ρ c)
theorem arg3_16 (c : Dev nD) : W16 m ρ c (Proc.devRef .tc main_arg3) = m ((c : Thread nD τ).loc main_arg3) :=
  (W16_of_ne m ρ c main_arg3 (by decide)).trans (arg3_15 m ρ c)
theorem arg3_17 (c : Dev nD) : W17 m ρ c (Proc.devRef .tc main_arg3) = m ((c : Thread nD τ).loc main_arg3) :=
  (by host_keeps hostOps8 : W17 m ρ c (Proc.devRef .tc main_arg3) = W16 m ρ c (Proc.devRef .tc main_arg3)).trans (arg3_16 m ρ c)
theorem arg3_18 (c : Dev nD) : W18 m ρ c (Proc.devRef .tc main_arg3) = m ((c : Thread nD τ).loc main_arg3) :=
  (W18_of_ne m ρ c main_arg3 (by decide)).trans (arg3_17 m ρ c)
theorem arg3_19 (c : Dev nD) : W19 m ρ c (Proc.devRef .tc main_arg3) = m ((c : Thread nD τ).loc main_arg3) :=
  (W19_of_ne m ρ c main_arg3 (by decide)).trans (arg3_18 m ρ c)
theorem arg3_20 (c : Dev nD) : W20 m ρ c (Proc.devRef .tc main_arg3) = m ((c : Thread nD τ).loc main_arg3) :=
  (by host_keeps hostOps10 : W20 m ρ c (Proc.devRef .tc main_arg3) = W19 m ρ c (Proc.devRef .tc main_arg3)).trans (arg3_19 m ρ c)
theorem arg3_21 (c : Dev nD) : W21 m ρ c (Proc.devRef .tc main_arg3) = m ((c : Thread nD τ).loc main_arg3) :=
  (W21_of_ne m ρ c main_arg3 (by decide)).trans (arg3_20 m ρ c)
theorem arg3_22 (c : Dev nD) : W22 m ρ c (Proc.devRef .tc main_arg3) = m ((c : Thread nD τ).loc main_arg3) :=
  (by host_keeps hostOps11 : W22 m ρ c (Proc.devRef .tc main_arg3) = W21 m ρ c (Proc.devRef .tc main_arg3)).trans (arg3_21 m ρ c)
theorem arg3_23 (c : Dev nD) : W23 m ρ c (Proc.devRef .tc main_arg3) = m ((c : Thread nD τ).loc main_arg3) :=
  (W23_of_ne m ρ c main_arg3 (by decide)).trans (arg3_22 m ρ c)
theorem arg3_24 (c : Dev nD) : W24 m ρ c (Proc.devRef .tc main_arg3) = m ((c : Thread nD τ).loc main_arg3) :=
  (by host_keeps hostOps12 : W24 m ρ c (Proc.devRef .tc main_arg3) = W23 m ρ c (Proc.devRef .tc main_arg3)).trans (arg3_23 m ρ c)
theorem arg3_25 (c : Dev nD) : W25 m ρ c (Proc.devRef .tc main_arg3) = m ((c : Thread nD τ).loc main_arg3) :=
  (W25_of_ne m ρ c main_arg3 (by decide)).trans (arg3_24 m ρ c)

/-! ### `main_arg4` at the boundaries 0 … 46 -/
theorem arg4_0 (c : Dev nD) : W0 m ρ c (Proc.devRef .tc main_arg4) = m ((c : Thread nD τ).loc main_arg4) := rfl
theorem arg4_1 (c : Dev nD) : W1 m ρ c (Proc.devRef .tc main_arg4) = m ((c : Thread nD τ).loc main_arg4) :=
  (by host_keeps hostOps0 : W1 m ρ c (Proc.devRef .tc main_arg4) = W0 m ρ c (Proc.devRef .tc main_arg4)).trans (arg4_0 m ρ c)
theorem arg4_2 (c : Dev nD) : W2 m ρ c (Proc.devRef .tc main_arg4) = m ((c : Thread nD τ).loc main_arg4) :=
  (by host_keeps hostOps0_1 : W2 m ρ c (Proc.devRef .tc main_arg4) = W1 m ρ c (Proc.devRef .tc main_arg4)).trans (arg4_1 m ρ c)
theorem arg4_3 (c : Dev nD) : W3 m ρ c (Proc.devRef .tc main_arg4) = m ((c : Thread nD τ).loc main_arg4) :=
  (by host_keeps hostOps0_2 : W3 m ρ c (Proc.devRef .tc main_arg4) = W2 m ρ c (Proc.devRef .tc main_arg4)).trans (arg4_2 m ρ c)
theorem arg4_4 (c : Dev nD) : W4 m ρ c (Proc.devRef .tc main_arg4) = m ((c : Thread nD τ).loc main_arg4) :=
  (W4_of_ne m ρ c main_arg4 (by decide)).trans (arg4_3 m ρ c)
theorem arg4_5 (c : Dev nD) : W5 m ρ c (Proc.devRef .tc main_arg4) = m ((c : Thread nD τ).loc main_arg4) :=
  (by host_keeps hostOps1 : W5 m ρ c (Proc.devRef .tc main_arg4) = W4 m ρ c (Proc.devRef .tc main_arg4)).trans (arg4_4 m ρ c)
theorem arg4_6 (c : Dev nD) : W6 m ρ c (Proc.devRef .tc main_arg4) = m ((c : Thread nD τ).loc main_arg4) :=
  (W6_of_ne m ρ c main_arg4 (by decide)).trans (arg4_5 m ρ c)
theorem arg4_7 (c : Dev nD) : W7 m ρ c (Proc.devRef .tc main_arg4) = m ((c : Thread nD τ).loc main_arg4) :=
  (by host_keeps hostOps2 : W7 m ρ c (Proc.devRef .tc main_arg4) = W6 m ρ c (Proc.devRef .tc main_arg4)).trans (arg4_6 m ρ c)
theorem arg4_8 (c : Dev nD) : W8 m ρ c (Proc.devRef .tc main_arg4) = m ((c : Thread nD τ).loc main_arg4) :=
  (W8_of_ne m ρ c main_arg4 (by decide)).trans (arg4_7 m ρ c)
theorem arg4_9 (c : Dev nD) : W9 m ρ c (Proc.devRef .tc main_arg4) = m ((c : Thread nD τ).loc main_arg4) :=
  (W9_of_ne m ρ c main_arg4 (by decide)).trans (arg4_8 m ρ c)
theorem arg4_10 (c : Dev nD) : W10 m ρ c (Proc.devRef .tc main_arg4) = m ((c : Thread nD τ).loc main_arg4) :=
  (by host_keeps hostOps4 : W10 m ρ c (Proc.devRef .tc main_arg4) = W9 m ρ c (Proc.devRef .tc main_arg4)).trans (arg4_9 m ρ c)
theorem arg4_11 (c : Dev nD) : W11 m ρ c (Proc.devRef .tc main_arg4) = m ((c : Thread nD τ).loc main_arg4) :=
  (W11_of_ne m ρ c main_arg4 (by decide)).trans (arg4_10 m ρ c)
theorem arg4_12 (c : Dev nD) : W12 m ρ c (Proc.devRef .tc main_arg4) = m ((c : Thread nD τ).loc main_arg4) :=
  (by host_keeps hostOps5 : W12 m ρ c (Proc.devRef .tc main_arg4) = W11 m ρ c (Proc.devRef .tc main_arg4)).trans (arg4_11 m ρ c)
theorem arg4_13 (c : Dev nD) : W13 m ρ c (Proc.devRef .tc main_arg4) = m ((c : Thread nD τ).loc main_arg4) :=
  (W13_of_ne m ρ c main_arg4 (by decide)).trans (arg4_12 m ρ c)
theorem arg4_14 (c : Dev nD) : W14 m ρ c (Proc.devRef .tc main_arg4) = m ((c : Thread nD τ).loc main_arg4) :=
  (W14_of_ne m ρ c main_arg4 (by decide)).trans (arg4_13 m ρ c)
theorem arg4_15 (c : Dev nD) : W15 m ρ c (Proc.devRef .tc main_arg4) = m ((c : Thread nD τ).loc main_arg4) :=
  (by host_keeps hostOps7 : W15 m ρ c (Proc.devRef .tc main_arg4) = W14 m ρ c (Proc.devRef .tc main_arg4)).trans (arg4_14 m ρ c)
theorem arg4_16 (c : Dev nD) : W16 m ρ c (Proc.devRef .tc main_arg4) = m ((c : Thread nD τ).loc main_arg4) :=
  (W16_of_ne m ρ c main_arg4 (by decide)).trans (arg4_15 m ρ c)
theorem arg4_17 (c : Dev nD) : W17 m ρ c (Proc.devRef .tc main_arg4) = m ((c : Thread nD τ).loc main_arg4) :=
  (by host_keeps hostOps8 : W17 m ρ c (Proc.devRef .tc main_arg4) = W16 m ρ c (Proc.devRef .tc main_arg4)).trans (arg4_16 m ρ c)
theorem arg4_18 (c : Dev nD) : W18 m ρ c (Proc.devRef .tc main_arg4) = m ((c : Thread nD τ).loc main_arg4) :=
  (W18_of_ne m ρ c main_arg4 (by decide)).trans (arg4_17 m ρ c)
theorem arg4_19 (c : Dev nD) : W19 m ρ c (Proc.devRef .tc main_arg4) = m ((c : Thread nD τ).loc main_arg4) :=
  (W19_of_ne m ρ c main_arg4 (by decide)).trans (arg4_18 m ρ c)
theorem arg4_20 (c : Dev nD) : W20 m ρ c (Proc.devRef .tc main_arg4) = m ((c : Thread nD τ).loc main_arg4) :=
  (by host_keeps hostOps10 : W20 m ρ c (Proc.devRef .tc main_arg4) = W19 m ρ c (Proc.devRef .tc main_arg4)).trans (arg4_19 m ρ c)
theorem arg4_21 (c : Dev nD) : W21 m ρ c (Proc.devRef .tc main_arg4) = m ((c : Thread nD τ).loc main_arg4) :=
  (W21_of_ne m ρ c main_arg4 (by decide)).trans (arg4_20 m ρ c)
theorem arg4_22 (c : Dev nD) : W22 m ρ c (Proc.devRef .tc main_arg4) = m ((c : Thread nD τ).loc main_arg4) :=
  (by host_keeps hostOps11 : W22 m ρ c (Proc.devRef .tc main_arg4) = W21 m ρ c (Proc.devRef .tc main_arg4)).trans (arg4_21 m ρ c)
theorem arg4_23 (c : Dev nD) : W23 m ρ c (Proc.devRef .tc main_arg4) = m ((c : Thread nD τ).loc main_arg4) :=
  (W23_of_ne m ρ c main_arg4 (by decide)).trans (arg4_22 m ρ c)
theorem arg4_24 (c : Dev nD) : W24 m ρ c (Proc.devRef .tc main_arg4) = m ((c : Thread nD τ).loc main_arg4) :=
  (by host_keeps hostOps12 : W24 m ρ c (Proc.devRef .tc main_arg4) = W23 m ρ c (Proc.devRef .tc main_arg4)).trans (arg4_23 m ρ c)
theorem arg4_25 (c : Dev nD) : W25 m ρ c (Proc.devRef .tc main_arg4) = m ((c : Thread nD τ).loc main_arg4) :=
  (W25_of_ne m ρ c main_arg4 (by decide)).trans (arg4_24 m ρ c)
theorem arg4_26 (c : Dev nD) : W26 m ρ c (Proc.devRef .tc main_arg4) = m ((c : Thread nD τ).loc main_arg4) :=
  (by host_keeps hostOps13 : W26 m ρ c (Proc.devRef .tc main_arg4) = W25 m ρ c (Proc.devRef .tc main_arg4)).trans (arg4_25 m ρ c)
theorem arg4_27 (c : Dev nD) : W27 m ρ c (Proc.devRef .tc main_arg4) = m ((c : Thread nD τ).loc main_arg4) :=
  (W27_of_ne m ρ c main_arg4 (by decide)).trans (arg4_26 m ρ c)
theorem arg4_28 (c : Dev nD) : W28 m ρ c (Proc.devRef .tc main_arg4) = m ((c : Thread nD τ).loc main_arg4) :=
  (by host_keeps hostOps14 : W28 m ρ c (Proc.devRef .tc main_arg4) = W27 m ρ c (Proc.devRef .tc main_arg4)).trans (arg4_27 m ρ c)
theorem arg4_29 (c : Dev nD) : W29 m ρ c (Proc.devRef .tc main_arg4) = m ((c : Thread nD τ).loc main_arg4) :=
  (W29_of_ne m ρ c main_arg4 (by decide)).trans (arg4_28 m ρ c)
theorem arg4_30 (c : Dev nD) : W30 m ρ c (Proc.devRef .tc main_arg4) = m ((c : Thread nD τ).loc main_arg4) :=
  (by host_keeps hostOps15 : W30 m ρ c (Proc.devRef .tc main_arg4) = W29 m ρ c (Proc.devRef .tc main_arg4)).trans (arg4_29 m ρ c)
theorem arg4_31 (c : Dev nD) : W31 m ρ c (Proc.devRef .tc main_arg4) = m ((c : Thread nD τ).loc main_arg4) :=
  (W31_of_ne m ρ c main_arg4 (by decide)).trans (arg4_30 m ρ c)
theorem arg4_32 (c : Dev nD) : W32 m ρ c (Proc.devRef .tc main_arg4) = m ((c : Thread nD τ).loc main_arg4) :=
  (W32_of_ne m ρ c main_arg4 (by decide)).trans (arg4_31 m ρ c)
theorem arg4_33 (c : Dev nD) : W33 m ρ c (Proc.devRef .tc main_arg4) = m ((c : Thread nD τ).loc main_arg4) :=
  (by host_keeps hostOps17 : W33 m ρ c (Proc.devRef .tc main_arg4) = W32 m ρ c (Proc.devRef .tc main_arg4)).trans (arg4_32 m ρ c)
theorem arg4_34 (c : Dev nD) : W34 m ρ c (Proc.devRef .tc main_arg4) = m ((c : Thread nD τ).loc main_arg4) :=
  (W34_of_ne m ρ c main_arg4 (by decide)).trans (arg4_33 m ρ c)
theorem arg4_35 (c : Dev nD) : W35 m ρ c (Proc.devRef .tc main_arg4) = m ((c : Thread nD τ).loc main_arg4) :=
  (by host_keeps hostOps18 : W35 m ρ c (Proc.devRef .tc main_arg4) = W34 m ρ c (Proc.devRef .tc main_arg4)).trans (arg4_34 m ρ c)
theorem arg4_36 (c : Dev nD) : W36 m ρ c (Proc.devRef .tc main_arg4) = m ((c : Thread nD τ).loc main_arg4) :=
  (W36_of_ne m ρ c main_arg4 (by decide)).trans (arg4_35 m ρ c)
theorem arg4_37 (c : Dev nD) : W37 m ρ c (Proc.devRef .tc main_arg4) = m ((c : Thread nD τ).loc main_arg4) :=
  (W37_of_ne m ρ c main_arg4 (by decide)).trans (arg4_36 m ρ c)
theorem arg4_38 (c : Dev nD) : W38 m ρ c (Proc.devRef .tc main_arg4) = m ((c : Thread nD τ).loc main_arg4) :=
  (by host_keeps hostOps20 : W38 m ρ c (Proc.devRef .tc main_arg4) = W37 m ρ c (Proc.devRef .tc main_arg4)).trans (arg4_37 m ρ c)
theorem arg4_39 (c : Dev nD) : W39 m ρ c (Proc.devRef .tc main_arg4) = m ((c : Thread nD τ).loc main_arg4) :=
  (W39_of_ne m ρ c main_arg4 (by decide)).trans (arg4_38 m ρ c)
theorem arg4_40 (c : Dev nD) : W40 m ρ c (Proc.devRef .tc main_arg4) = m ((c : Thread nD τ).loc main_arg4) :=
  (by host_keeps hostOps21 : W40 m ρ c (Proc.devRef .tc main_arg4) = W39 m ρ c (Proc.devRef .tc main_arg4)).trans (arg4_39 m ρ c)
theorem arg4_41 (c : Dev nD) : W41 m ρ c (Proc.devRef .tc main_arg4) = m ((c : Thread nD τ).loc main_arg4) :=
  (W41_of_ne m ρ c main_arg4 (by decide)).trans (arg4_40 m ρ c)
theorem arg4_42 (c : Dev nD) : W42 m ρ c (Proc.devRef .tc main_arg4) = m ((c : Thread nD τ).loc main_arg4) :=
  (W42_of_ne m ρ c main_arg4 (by decide)).trans (arg4_41 m ρ c)
theorem arg4_43 (c : Dev nD) : W43 m ρ c (Proc.devRef .tc main_arg4) = m ((c : Thread nD τ).loc main_arg4) :=
  (by host_keeps hostOps23 : W43 m ρ c (Proc.devRef .tc main_arg4) = W42 m ρ c (Proc.devRef .tc main_arg4)).trans (arg4_42 m ρ c)
theorem arg4_44 (c : Dev nD) : W44 m ρ c (Proc.devRef .tc main_arg4) = m ((c : Thread nD τ).loc main_arg4) :=
  (W44_of_ne m ρ c main_arg4 (by decide)).trans (arg4_43 m ρ c)
theorem arg4_45 (c : Dev nD) : W45 m ρ c (Proc.devRef .tc main_arg4) = m ((c : Thread nD τ).loc main_arg4) :=
  (by host_keeps hostOps24 : W45 m ρ c (Proc.devRef .tc main_arg4) = W44 m ρ c (Proc.devRef .tc main_arg4)).trans (arg4_44 m ρ c)
theorem arg4_46 (c : Dev nD) : W46 m ρ c (Proc.devRef .tc main_arg4) = m ((c : Thread nD τ).loc main_arg4) :=
  (W46_of_ne m ρ c main_arg4 (by decide)).trans (arg4_45 m ρ c)

/-! ### `main_arg5` at the boundaries 0 … 46 -/
theorem arg5_0 (c : Dev nD) : W0 m ρ c (Proc.devRef .tc main_arg5) = m ((c : Thread nD τ).loc main_arg5) := rfl
theorem arg5_1 (c : Dev nD) : W1 m ρ c (Proc.devRef .tc main_arg5) = m ((c : Thread nD τ).loc main_arg5) :=
  (by host_keeps hostOps0 : W1 m ρ c (Proc.devRef .tc main_arg5) = W0 m ρ c (Proc.devRef .tc main_arg5)).trans (arg5_0 m ρ c)
theorem arg5_2 (c : Dev nD) : W2 m ρ c (Proc.devRef .tc main_arg5) = m ((c : Thread nD τ).loc main_arg5) :=
  (by host_keeps hostOps0_1 : W2 m ρ c (Proc.devRef .tc main_arg5) = W1 m ρ c (Proc.devRef .tc main_arg5)).trans (arg5_1 m ρ c)
theorem arg5_3 (c : Dev nD) : W3 m ρ c (Proc.devRef .tc main_arg5) = m ((c : Thread nD τ).loc main_arg5) :=
  (by host_keeps hostOps0_2 : W3 m ρ c (Proc.devRef .tc main_arg5) = W2 m ρ c (Proc.devRef .tc main_arg5)).trans (arg5_2 m ρ c)
theorem arg5_4 (c : Dev nD) : W4 m ρ c (Proc.devRef .tc main_arg5) = m ((c : Thread nD τ).loc main_arg5) :=
  (W4_of_ne m ρ c main_arg5 (by decide)).trans (arg5_3 m ρ c)
theorem arg5_5 (c : Dev nD) : W5 m ρ c (Proc.devRef .tc main_arg5) = m ((c : Thread nD τ).loc main_arg5) :=
  (by host_keeps hostOps1 : W5 m ρ c (Proc.devRef .tc main_arg5) = W4 m ρ c (Proc.devRef .tc main_arg5)).trans (arg5_4 m ρ c)
theorem arg5_6 (c : Dev nD) : W6 m ρ c (Proc.devRef .tc main_arg5) = m ((c : Thread nD τ).loc main_arg5) :=
  (W6_of_ne m ρ c main_arg5 (by decide)).trans (arg5_5 m ρ c)
theorem arg5_7 (c : Dev nD) : W7 m ρ c (Proc.devRef .tc main_arg5) = m ((c : Thread nD τ).loc main_arg5) :=
  (by host_keeps hostOps2 : W7 m ρ c (Proc.devRef .tc main_arg5) = W6 m ρ c (Proc.devRef .tc main_arg5)).trans (arg5_6 m ρ c)
theorem arg5_8 (c : Dev nD) : W8 m ρ c (Proc.devRef .tc main_arg5) = m ((c : Thread nD τ).loc main_arg5) :=
  (W8_of_ne m ρ c main_arg5 (by decide)).trans (arg5_7 m ρ c)
theorem arg5_9 (c : Dev nD) : W9 m ρ c (Proc.devRef .tc main_arg5) = m ((c : Thread nD τ).loc main_arg5) :=
  (W9_of_ne m ρ c main_arg5 (by decide)).trans (arg5_8 m ρ c)
theorem arg5_10 (c : Dev nD) : W10 m ρ c (Proc.devRef .tc main_arg5) = m ((c : Thread nD τ).loc main_arg5) :=
  (by host_keeps hostOps4 : W10 m ρ c (Proc.devRef .tc main_arg5) = W9 m ρ c (Proc.devRef .tc main_arg5)).trans (arg5_9 m ρ c)
theorem arg5_11 (c : Dev nD) : W11 m ρ c (Proc.devRef .tc main_arg5) = m ((c : Thread nD τ).loc main_arg5) :=
  (W11_of_ne m ρ c main_arg5 (by decide)).trans (arg5_10 m ρ c)
theorem arg5_12 (c : Dev nD) : W12 m ρ c (Proc.devRef .tc main_arg5) = m ((c : Thread nD τ).loc main_arg5) :=
  (by host_keeps hostOps5 : W12 m ρ c (Proc.devRef .tc main_arg5) = W11 m ρ c (Proc.devRef .tc main_arg5)).trans (arg5_11 m ρ c)
theorem arg5_13 (c : Dev nD) : W13 m ρ c (Proc.devRef .tc main_arg5) = m ((c : Thread nD τ).loc main_arg5) :=
  (W13_of_ne m ρ c main_arg5 (by decide)).trans (arg5_12 m ρ c)
theorem arg5_14 (c : Dev nD) : W14 m ρ c (Proc.devRef .tc main_arg5) = m ((c : Thread nD τ).loc main_arg5) :=
  (W14_of_ne m ρ c main_arg5 (by decide)).trans (arg5_13 m ρ c)
theorem arg5_15 (c : Dev nD) : W15 m ρ c (Proc.devRef .tc main_arg5) = m ((c : Thread nD τ).loc main_arg5) :=
  (by host_keeps hostOps7 : W15 m ρ c (Proc.devRef .tc main_arg5) = W14 m ρ c (Proc.devRef .tc main_arg5)).trans (arg5_14 m ρ c)
theorem arg5_16 (c : Dev nD) : W16 m ρ c (Proc.devRef .tc main_arg5) = m ((c : Thread nD τ).loc main_arg5) :=
  (W16_of_ne m ρ c main_arg5 (by decide)).trans (arg5_15 m ρ c)
theorem arg5_17 (c : Dev nD) : W17 m ρ c (Proc.devRef .tc main_arg5) = m ((c : Thread nD τ).loc main_arg5) :=
  (by host_keeps hostOps8 : W17 m ρ c (Proc.devRef .tc main_arg5) = W16 m ρ c (Proc.devRef .tc main_arg5)).trans (arg5_16 m ρ c)
theorem arg5_18 (c : Dev nD) : W18 m ρ c (Proc.devRef .tc main_arg5) = m ((c : Thread nD τ).loc main_arg5) :=
  (W18_of_ne m ρ c main_arg5 (by decide)).trans (arg5_17 m ρ c)
theorem arg5_19 (c : Dev nD) : W19 m ρ c (Proc.devRef .tc main_arg5) = m ((c : Thread nD τ).loc main_arg5) :=
  (W19_of_ne m ρ c main_arg5 (by decide)).trans (arg5_18 m ρ c)
theorem arg5_20 (c : Dev nD) : W20 m ρ c (Proc.devRef .tc main_arg5) = m ((c : Thread nD τ).loc main_arg5) :=
  (by host_keeps hostOps10 : W20 m ρ c (Proc.devRef .tc main_arg5) = W19 m ρ c (Proc.devRef .tc main_arg5)).trans (arg5_19 m ρ c)
theorem arg5_21 (c : Dev nD) : W21 m ρ c (Proc.devRef .tc main_arg5) = m ((c : Thread nD τ).loc main_arg5) :=
  (W21_of_ne m ρ c main_arg5 (by decide)).trans (arg5_20 m ρ c)
theorem arg5_22 (c : Dev nD) : W22 m ρ c (Proc.devRef .tc main_arg5) = m ((c : Thread nD τ).loc main_arg5) :=
  (by host_keeps hostOps11 : W22 m ρ c (Proc.devRef .tc main_arg5) = W21 m ρ c (Proc.devRef .tc main_arg5)).trans (arg5_21 m ρ c)
theorem arg5_23 (c : Dev nD) : W23 m ρ c (Proc.devRef .tc main_arg5) = m ((c : Thread nD τ).loc main_arg5) :=
  (W23_of_ne m ρ c main_arg5 (by decide)).trans (arg5_22 m ρ c)
theorem arg5_24 (c : Dev nD) : W24 m ρ c (Proc.devRef .tc main_arg5) = m ((c : Thread nD τ).loc main_arg5) :=
  (by host_keeps hostOps12 : W24 m ρ c (Proc.devRef .tc main_arg5) = W23 m ρ c (Proc.devRef .tc main_arg5)).trans (arg5_23 m ρ c)
theorem arg5_25 (c : Dev nD) : W25 m ρ c (Proc.devRef .tc main_arg5) = m ((c : Thread nD τ).loc main_arg5) :=
  (W25_of_ne m ρ c main_arg5 (by decide)).trans (arg5_24 m ρ c)
theorem arg5_26 (c : Dev nD) : W26 m ρ c (Proc.devRef .tc main_arg5) = m ((c : Thread nD τ).loc main_arg5) :=
  (by host_keeps hostOps13 : W26 m ρ c (Proc.devRef .tc main_arg5) = W25 m ρ c (Proc.devRef .tc main_arg5)).trans (arg5_25 m ρ c)
theorem arg5_27 (c : Dev nD) : W27 m ρ c (Proc.devRef .tc main_arg5) = m ((c : Thread nD τ).loc main_arg5) :=
  (W27_of_ne m ρ c main_arg5 (by decide)).trans (arg5_26 m ρ c)
theorem arg5_28 (c : Dev nD) : W28 m ρ c (Proc.devRef .tc main_arg5) = m ((c : Thread nD τ).loc main_arg5) :=
  (by host_keeps hostOps14 : W28 m ρ c (Proc.devRef .tc main_arg5) = W27 m ρ c (Proc.devRef .tc main_arg5)).trans (arg5_27 m ρ c)
theorem arg5_29 (c : Dev nD) : W29 m ρ c (Proc.devRef .tc main_arg5) = m ((c : Thread nD τ).loc main_arg5) :=
  (W29_of_ne m ρ c main_arg5 (by decide)).trans (arg5_28 m ρ c)
theorem arg5_30 (c : Dev nD) : W30 m ρ c (Proc.devRef .tc main_arg5) = m ((c : Thread nD τ).loc main_arg5) :=
  (by host_keeps hostOps15 : W30 m ρ c (Proc.devRef .tc main_arg5) = W29 m ρ c (Proc.devRef .tc main_arg5)).trans (arg5_29 m ρ c)
theorem arg5_31 (c : Dev nD) : W31 m ρ c (Proc.devRef .tc main_arg5) = m ((c : Thread nD τ).loc main_arg5) :=
  (W31_of_ne m ρ c main_arg5 (by decide)).trans (arg5_30 m ρ c)
theorem arg5_32 (c : Dev nD) : W32 m ρ c (Proc.devRef .tc main_arg5) = m ((c : Thread nD τ).loc main_arg5) :=
  (W32_of_ne m ρ c main_arg5 (by decide)).trans (arg5_31 m ρ c)
theorem arg5_33 (c : Dev nD) : W33 m ρ c (Proc.devRef .tc main_arg5) = m ((c : Thread nD τ).loc main_arg5) :=
  (by host_keeps hostOps17 : W33 m ρ c (Proc.devRef .tc main_arg5) = W32 m ρ c (Proc.devRef .tc main_arg5)).trans (arg5_32 m ρ c)
theorem arg5_34 (c : Dev nD) : W34 m ρ c (Proc.devRef .tc main_arg5) = m ((c : Thread nD τ).loc main_arg5) :=
  (W34_of_ne m ρ c main_arg5 (by decide)).trans (arg5_33 m ρ c)
theorem arg5_35 (c : Dev nD) : W35 m ρ c (Proc.devRef .tc main_arg5) = m ((c : Thread nD τ).loc main_arg5) :=
  (by host_keeps hostOps18 : W35 m ρ c (Proc.devRef .tc main_arg5) = W34 m ρ c (Proc.devRef .tc main_arg5)).trans (arg5_34 m ρ c)
theorem arg5_36 (c : Dev nD) : W36 m ρ c (Proc.devRef .tc main_arg5) = m ((c : Thread nD τ).loc main_arg5) :=
  (W36_of_ne m ρ c main_arg5 (by decide)).trans (arg5_35 m ρ c)
theorem arg5_37 (c : Dev nD) : W37 m ρ c (Proc.devRef .tc main_arg5) = m ((c : Thread nD τ).loc main_arg5) :=
  (W37_of_ne m ρ c main_arg5 (by decide)).trans (arg5_36 m ρ c)
theorem arg5_38 (c : Dev nD) : W38 m ρ c (Proc.devRef .tc main_arg5) = m ((c : Thread nD τ).loc main_arg5) :=
  (by host_keeps hostOps20 : W38 m ρ c (Proc.devRef .tc main_arg5) = W37 m ρ c (Proc.devRef .tc main_arg5)).trans (arg5_37 m ρ c)
theorem arg5_39 (c : Dev nD) : W39 m ρ c (Proc.devRef .tc main_arg5) = m ((c : Thread nD τ).loc main_arg5) :=
  (W39_of_ne m ρ c main_arg5 (by decide)).trans (arg5_38 m ρ c)
theorem arg5_40 (c : Dev nD) : W40 m ρ c (Proc.devRef .tc main_arg5) = m ((c : Thread nD τ).loc main_arg5) :=
  (by host_keeps hostOps21 : W40 m ρ c (Proc.devRef .tc main_arg5) = W39 m ρ c (Proc.devRef .tc main_arg5)).trans (arg5_39 m ρ c)
theorem arg5_41 (c : Dev nD) : W41 m ρ c (Proc.devRef .tc main_arg5) = m ((c : Thread nD τ).loc main_arg5) :=
  (W41_of_ne m ρ c main_arg5 (by decide)).trans (arg5_40 m ρ c)
theorem arg5_42 (c : Dev nD) : W42 m ρ c (Proc.devRef .tc main_arg5) = m ((c : Thread nD τ).loc main_arg5) :=
  (W42_of_ne m ρ c main_arg5 (by decide)).trans (arg5_41 m ρ c)
theorem arg5_43 (c : Dev nD) : W43 m ρ c (Proc.devRef .tc main_arg5) = m ((c : Thread nD τ).loc main_arg5) :=
  (by host_keeps hostOps23 : W43 m ρ c (Proc.devRef .tc main_arg5) = W42 m ρ c (Proc.devRef .tc main_arg5)).trans (arg5_42 m ρ c)
theorem arg5_44 (c : Dev nD) : W44 m ρ c (Proc.devRef .tc main_arg5) = m ((c : Thread nD τ).loc main_arg5) :=
  (W44_of_ne m ρ c main_arg5 (by decide)).trans (arg5_43 m ρ c)
theorem arg5_45 (c : Dev nD) : W45 m ρ c (Proc.devRef .tc main_arg5) = m ((c : Thread nD τ).loc main_arg5) :=
  (by host_keeps hostOps24 : W45 m ρ c (Proc.devRef .tc main_arg5) = W44 m ρ c (Proc.devRef .tc main_arg5)).trans (arg5_44 m ρ c)
theorem arg5_46 (c : Dev nD) : W46 m ρ c (Proc.devRef .tc main_arg5) = m ((c : Thread nD τ).loc main_arg5) :=
  (W46_of_ne m ρ c main_arg5 (by decide)).trans (arg5_45 m ρ c)

end Cert.KernelIdeal.Chain

end
-- ==== Proof.ChainKept.lean ====
/- Four intermediate arrays outlive the segment that made them: the degree normalisation (made before the first region, read by every
   node-row scaling), each graph's column of edge weights (read by that graph's four edge-row scalings) and the first graph's output (read by
   the final join). Each holds, at every later boundary it is read at, what it held where it was made.
-/
import proofs.«172771_j21320217657536_1_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- A stretch of host operations leaves a buffer that none of them writes as it was: each operation writes one buffer, and it is another one. -/
local macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ### `main_v7` at the boundaries 3 … 41 -/
theorem nrm_3 (c : Dev nD) : W3 m ρ c (Proc.devRef .tc main_v7) = W3 m ρ c (Proc.devRef .tc main_v7) := rfl
theorem nrm_4 (c : Dev nD) : W4 m ρ c (Proc.devRef .tc main_v7) = W3 m ρ c (Proc.devRef .tc main_v7) :=
  ((W4_arr m ρ c 1).trans (((dat0 (V3 m ρ) c).arrAt_in 1 rfl _).trans (A_eq0 (V3 m ρ) c 1))).trans (nrm_3 m ρ c)
theorem nrm_5 (c : Dev nD) : W5 m ρ c (Proc.devRef .tc main_v7) = W3 m ρ c (Proc.devRef .tc main_v7) :=
  (by host_keeps hostOps1 : W5 m ρ c (Proc.devRef .tc main_v7) = W4 m ρ c (Proc.devRef .tc main_v7)).trans (nrm_4 m ρ c)
theorem nrm_6 (c : Dev nD) : W6 m ρ c (Proc.devRef .tc main_v7) = W3 m ρ c (Proc.devRef .tc main_v7) :=
  (W6_of_ne m ρ c main_v7 (by decide)).trans (nrm_5 m ρ c)
theorem nrm_7 (c : Dev nD) : W7 m ρ c (Proc.devRef .tc main_v7) = W3 m ρ c (Proc.devRef .tc main_v7) :=
  (by host_keeps hostOps2 : W7 m ρ c (Proc.devRef .tc main_v7) = W6 m ρ c (Proc.devRef .tc main_v7)).trans (nrm_6 m ρ c)
theorem nrm_8 (c : Dev nD) : W8 m ρ c (Proc.devRef .tc main_v7) = W3 m ρ c (Proc.devRef .tc main_v7) :=
  (W8_of_ne m ρ c main_v7 (by decide)).trans (nrm_7 m ρ c)
theorem nrm_9 (c : Dev nD) : W9 m ρ c (Proc.devRef .tc main_v7) = W3 m ρ c (Proc.devRef .tc main_v7) :=
  ((W9_arr m ρ c 1).trans (((dat3 (V8 m ρ) c).arrAt_in 1 rfl _).trans (A_eq3 (V8 m ρ) c 1))).trans (nrm_8 m ρ c)
theorem nrm_10 (c : Dev nD) : W10 m ρ c (Proc.devRef .tc main_v7) = W3 m ρ c (Proc.devRef .tc main_v7) :=
  (by host_keeps hostOps4 : W10 m ρ c (Proc.devRef .tc main_v7) = W9 m ρ c (Proc.devRef .tc main_v7)).trans (nrm_9 m ρ c)
theorem nrm_11 (c : Dev nD) : W11 m ρ c (Proc.devRef .tc main_v7) = W3 m ρ c (Proc.devRef .tc main_v7) :=
  (W11_of_ne m ρ c main_v7 (by decide)).trans (nrm_10 m ρ c)
theorem nrm_12 (c : Dev nD) : W12 m ρ c (Proc.devRef .tc main_v7) = W3 m ρ c (Proc.devRef .tc main_v7) :=
  (by host_keeps hostOps5 : W12 m ρ c (Proc.devRef .tc main_v7) = W11 m ρ c (Proc.devRef .tc main_v7)).trans (nrm_11 m ρ c)
theorem nrm_13 (c : Dev nD) : W13 m ρ c (Proc.devRef .tc main_v7) = W3 m ρ c (Proc.devRef .tc main_v7) :=
  (W13_of_ne m ρ c main_v7 (by decide)).trans (nrm_12 m ρ c)
theorem nrm_14 (c : Dev nD) : W14 m ρ c (Proc.devRef .tc main_v7) = W3 m ρ c (Proc.devRef .tc main_v7) :=
  ((W14_arr m ρ c 1).trans (((dat6 (V13 m ρ) c).arrAt_in 1 rfl _).trans (A_eq6 (V13 m ρ) c 1))).trans (nrm_13 m ρ c)
theorem nrm_15 (c : Dev nD) : W15 m ρ c (Proc.devRef .tc main_v7) = W3 m ρ c (Proc.devRef .tc main_v7) :=
  (by host_keeps hostOps7 : W15 m ρ c (Proc.devRef .tc main_v7) = W14 m ρ c (Proc.devRef .tc main_v7)).trans (nrm_14 m ρ c)
theorem nrm_16 (c : Dev nD) : W16 m ρ c (Proc.devRef .tc main_v7) = W3 m ρ c (Proc.devRef .tc main_v7) :=
  (W16_of_ne m ρ c main_v7 (by decide)).trans (nrm_15 m ρ c)
theorem nrm_17 (c : Dev nD) : W17 m ρ c (Proc.devRef .tc main_v7) = W3 m ρ c (Proc.devRef .tc main_v7) :=
  (by host_keeps hostOps8 : W17 m ρ c (Proc.devRef .tc main_v7) = W16 m ρ c (Proc.devRef .tc main_v7)).trans (nrm_16 m ρ c)
theorem nrm_18 (c : Dev nD) : W18 m ρ c (Proc.devRef .tc main_v7) = W3 m ρ c (Proc.devRef .tc main_v7) :=
  (W18_of_ne m ρ c main_v7 (by decide)).trans (nrm_17 m ρ c)
theorem nrm_19 (c : Dev nD) : W19 m ρ c (Proc.devRef .tc main_v7) = W3 m ρ c (Proc.devRef .tc main_v7) :=
  ((W19_arr m ρ c 1).trans (((dat9 (V18 m ρ) c).arrAt_in 1 rfl _).trans (A_eq9 (V18 m ρ) c 1))).trans (nrm_18 m ρ c)
theorem nrm_20 (c : Dev nD) : W20 m ρ c (Proc.devRef .tc main_v7) = W3 m ρ c (Proc.devRef .tc main_v7) :=
  (by host_keeps hostOps10 : W20 m ρ c (Proc.devRef .tc main_v7) = W19 m ρ c (Proc.devRef .tc main_v7)).trans (nrm_19 m ρ c)
theorem nrm_21 (c : Dev nD) : W21 m ρ c (Proc.devRef .tc main_v7) = W3 m ρ c (Proc.devRef .tc main_v7) :=
  (W21_of_ne m ρ c main_v7 (by decide)).trans (nrm_20 m ρ c)
theorem nrm_22 (c : Dev nD) : W22 m ρ c (Proc.devRef .tc main_v7) = W3 m ρ c (Proc.devRef .tc main_v7) :=
  (by host_keeps hostOps11 : W22 m ρ c (Proc.devRef .tc main_v7) = W21 m ρ c (Proc.devRef .tc main_v7)).trans (nrm_21 m ρ c)
theorem nrm_23 (c : Dev nD) : W23 m ρ c (Proc.devRef .tc main_v7) = W3 m ρ c (Proc.devRef .tc main_v7) :=
  (W23_of_ne m ρ c main_v7 (by decide)).trans (nrm_22 m ρ c)
theorem nrm_24 (c : Dev nD) : W24 m ρ c (Proc.devRef .tc main_v7) = W3 m ρ c (Proc.devRef .tc main_v7) :=
  (by host_keeps hostOps12 : W24 m ρ c (Proc.devRef .tc main_v7) = W23 m ρ c (Proc.devRef .tc main_v7)).trans (nrm_23 m ρ c)
theorem nrm_25 (c : Dev nD) : W25 m ρ c (Proc.devRef .tc main_v7) = W3 m ρ c (Proc.devRef .tc main_v7) :=
  (W25_of_ne m ρ c main_v7 (by decide)).trans (nrm_24 m ρ c)
theorem nrm_26 (c : Dev nD) : W26 m ρ c (Proc.devRef .tc main_v7) = W3 m ρ c (Proc.devRef .tc main_v7) :=
  (by host_keeps hostOps13 : W26 m ρ c (Proc.devRef .tc main_v7) = W25 m ρ c (Proc.devRef .tc main_v7)).trans (nrm_25 m ρ c)
theorem nrm_27 (c : Dev nD) : W27 m ρ c (Proc.devRef .tc main_v7) = W3 m ρ c (Proc.devRef .tc main_v7) :=
  ((W27_arr m ρ c 1).trans (((dat13 (V26 m ρ) c).arrAt_in 1 rfl _).trans (A_eq13 (V26 m ρ) c 1))).trans (nrm_26 m ρ c)
theorem nrm_28 (c : Dev nD) : W28 m ρ c (Proc.devRef .tc main_v7) = W3 m ρ c (Proc.devRef .tc main_v7) :=
  (by host_keeps hostOps14 : W28 m ρ c (Proc.devRef .tc main_v7) = W27 m ρ c (Proc.devRef .tc main_v7)).trans (nrm_27 m ρ c)
theorem nrm_29 (c : Dev nD) : W29 m ρ c (Proc.devRef .tc main_v7) = W3 m ρ c (Proc.devRef .tc main_v7) :=
  (W29_of_ne m ρ c main_v7 (by decide)).trans (nrm_28 m ρ c)
theorem nrm_30 (c : Dev nD) : W30 m ρ c (Proc.devRef .tc main_v7) = W3 m ρ c (Proc.devRef .tc main_v7) :=
  (by host_keeps hostOps15 : W30 m ρ c (Proc.devRef .tc main_v7) = W29 m ρ c (Proc.devRef .tc main_v7)).trans (nrm_29 m ρ c)
theorem nrm_31 (c : Dev nD) : W31 m ρ c (Proc.devRef .tc main_v7) = W3 m ρ c (Proc.devRef .tc main_v7) :=
  (W31_of_ne m ρ c main_v7 (by decide)).trans (nrm_30 m ρ c)
theorem nrm_32 (c : Dev nD) : W32 m ρ c (Proc.devRef .tc main_v7) = W3 m ρ c (Proc.devRef .tc main_v7) :=
  ((W32_arr m ρ c 1).trans (((dat16 (V31 m ρ) c).arrAt_in 1 rfl _).trans (A_eq16 (V31 m ρ) c 1))).trans (nrm_31 m ρ c)
theorem nrm_33 (c : Dev nD) : W33 m ρ c (Proc.devRef .tc main_v7) = W3 m ρ c (Proc.devRef .tc main_v7) :=
  (by host_keeps hostOps17 : W33 m ρ c (Proc.devRef .tc main_v7) = W32 m ρ c (Proc.devRef .tc main_v7)).trans (nrm_32 m ρ c)
theorem nrm_34 (c : Dev nD) : W34 m ρ c (Proc.devRef .tc main_v7) = W3 m ρ c (Proc.devRef .tc main_v7) :=
  (W34_of_ne m ρ c main_v7 (by decide)).trans (nrm_33 m ρ c)
theorem nrm_35 (c : Dev nD) : W35 m ρ c (Proc.devRef .tc main_v7) = W3 m ρ c (Proc.devRef .tc main_v7) :=
  (by host_keeps hostOps18 : W35 m ρ c (Proc.devRef .tc main_v7) = W34 m ρ c (Proc.devRef .tc main_v7)).trans (nrm_34 m ρ c)
theorem nrm_36 (c : Dev nD) : W36 m ρ c (Proc.devRef .tc main_v7) = W3 m ρ c (Proc.devRef .tc main_v7) :=
  (W36_of_ne m ρ c main_v7 (by decide)).trans (nrm_35 m ρ c)
theorem nrm_37 (c : Dev nD) : W37 m ρ c (Proc.devRef .tc main_v7) = W3 m ρ c (Proc.devRef .tc main_v7) :=
  ((W37_arr m ρ c 1).trans (((dat19 (V36 m ρ) c).arrAt_in 1 rfl _).trans (A_eq19 (V36 m ρ) c 1))).trans (nrm_36 m ρ c)
theorem nrm_38 (c : Dev nD) : W38 m ρ c (Proc.devRef .tc main_v7) = W3 m ρ c (Proc.devRef .tc main_v7) :=
  (by host_keeps hostOps20 : W38 m ρ c (Proc.devRef .tc main_v7) = W37 m ρ c (Proc.devRef .tc main_v7)).trans (nrm_37 m ρ c)
theorem nrm_39 (c : Dev nD) : W39 m ρ c (Proc.devRef .tc main_v7) = W3 m ρ c (Proc.devRef .tc main_v7) :=
  (W39_of_ne m ρ c main_v7 (by decide)).trans (nrm_38 m ρ c)
theorem nrm_40 (c : Dev nD) : W40 m ρ c (Proc.devRef .tc main_v7) = W3 m ρ c (Proc.devRef .tc main_v7) :=
  (by host_keeps hostOps21 : W40 m ρ c (Proc.devRef .tc main_v7) = W39 m ρ c (Proc.devRef .tc main_v7)).trans (nrm_39 m ρ c)
theorem nrm_41 (c : Dev nD) : W41 m ρ c (Proc.devRef .tc main_v7) = W3 m ρ c (Proc.devRef .tc main_v7) :=
  (W41_of_ne m ρ c main_v7 (by decide)).trans (nrm_40 m ρ c)

/-! ### `main_v10` at the boundaries 3 … 20 -/
theorem ew0_3 (c : Dev nD) : W3 m ρ c (Proc.devRef .tc main_v10) = W3 m ρ c (Proc.devRef .tc main_v10) := rfl
theorem ew0_4 (c : Dev nD) : W4 m ρ c (Proc.devRef .tc main_v10) = W3 m ρ c (Proc.devRef .tc main_v10) :=
  (W4_of_ne m ρ c main_v10 (by decide)).trans (ew0_3 m ρ c)
theorem ew0_5 (c : Dev nD) : W5 m ρ c (Proc.devRef .tc main_v10) = W3 m ρ c (Proc.devRef .tc main_v10) :=
  (by host_keeps hostOps1 : W5 m ρ c (Proc.devRef .tc main_v10) = W4 m ρ c (Proc.devRef .tc main_v10)).trans (ew0_4 m ρ c)
theorem ew0_6 (c : Dev nD) : W6 m ρ c (Proc.devRef .tc main_v10) = W3 m ρ c (Proc.devRef .tc main_v10) :=
  ((W6_arr m ρ c 1).trans (((dat1 (V5 m ρ) c).arrAt_in 1 rfl _).trans (A_eq1 (V5 m ρ) c 1))).trans (ew0_5 m ρ c)
theorem ew0_7 (c : Dev nD) : W7 m ρ c (Proc.devRef .tc main_v10) = W3 m ρ c (Proc.devRef .tc main_v10) :=
  (by host_keeps hostOps2 : W7 m ρ c (Proc.devRef .tc main_v10) = W6 m ρ c (Proc.devRef .tc main_v10)).trans (ew0_6 m ρ c)
theorem ew0_8 (c : Dev nD) : W8 m ρ c (Proc.devRef .tc main_v10) = W3 m ρ c (Proc.devRef .tc main_v10) :=
  (W8_of_ne m ρ c main_v10 (by decide)).trans (ew0_7 m ρ c)
theorem ew0_9 (c : Dev nD) : W9 m ρ c (Proc.devRef .tc main_v10) = W3 m ρ c (Proc.devRef .tc main_v10) :=
  (W9_of_ne m ρ c main_v10 (by decide)).trans (ew0_8 m ρ c)
theorem ew0_10 (c : Dev nD) : W10 m ρ c (Proc.devRef .tc main_v10) = W3 m ρ c (Proc.devRef .tc main_v10) :=
  (by host_keeps hostOps4 : W10 m ρ c (Proc.devRef .tc main_v10) = W9 m ρ c (Proc.devRef .tc main_v10)).trans (ew0_9 m ρ c)
theorem ew0_11 (c : Dev nD) : W11 m ρ c (Proc.devRef .tc main_v10) = W3 m ρ c (Proc.devRef .tc main_v10) :=
  ((W11_arr m ρ c 1).trans (((dat4 (V10 m ρ) c).arrAt_in 1 rfl _).trans (A_eq4 (V10 m ρ) c 1))).trans (ew0_10 m ρ c)
theorem ew0_12 (c : Dev nD) : W12 m ρ c (Proc.devRef .tc main_v10) = W3 m ρ c (Proc.devRef .tc main_v10) :=
  (by host_keeps hostOps5 : W12 m ρ c (Proc.devRef .tc main_v10) = W11 m ρ c (Proc.devRef .tc main_v10)).trans (ew0_11 m ρ c)
theorem ew0_13 (c : Dev nD) : W13 m ρ c (Proc.devRef .tc main_v10) = W3 m ρ c (Proc.devRef .tc main_v10) :=
  (W13_of_ne m ρ c main_v10 (by decide)).trans (ew0_12 m ρ c)
theorem ew0_14 (c : Dev nD) : W14 m ρ c (Proc.devRef .tc main_v10) = W3 m ρ c (Proc.devRef .tc main_v10) :=
  (W14_of_ne m ρ c main_v10 (by decide)).trans (ew0_13 m ρ c)
theorem ew0_15 (c : Dev nD) : W15 m ρ c (Proc.devRef .tc main_v10) = W3 m ρ c (Proc.devRef .tc main_v10) :=
  (by host_keeps hostOps7 : W15 m ρ c (Proc.devRef .tc main_v10) = W14 m ρ c (Proc.devRef .tc main_v10)).trans (ew0_14 m ρ c)
theorem ew0_16 (c : Dev nD) : W16 m ρ c (Proc.devRef .tc main_v10) = W3 m ρ c (Proc.devRef .tc main_v10) :=
  ((W16_arr m ρ c 1).trans (((dat7 (V15 m ρ) c).arrAt_in 1 rfl _).trans (A_eq7 (V15 m ρ) c 1))).trans (ew0_15 m ρ c)
theorem ew0_17 (c : Dev nD) : W17 m ρ c (Proc.devRef .tc main_v10) = W3 m ρ c (Proc.devRef .tc main_v10) :=
  (by host_keeps hostOps8 : W17 m ρ c (Proc.devRef .tc main_v10) = W16 m ρ c (Proc.devRef .tc main_v10)).trans (ew0_16 m ρ c)
theorem ew0_18 (c : Dev nD) : W18 m ρ c (Proc.devRef .tc main_v10) = W3 m ρ c (Proc.devRef .tc main_v10) :=
  (W18_of_ne m ρ c main_v10 (by decide)).trans (ew0_17 m ρ c)
theorem ew0_19 (c : Dev nD) : W19 m ρ c (Proc.devRef .tc main_v10) = W3 m ρ c (Proc.devRef .tc main_v10) :=
  (W19_of_ne m ρ c main_v10 (by decide)).trans (ew0_18 m ρ c)
theorem ew0_20 (c : Dev nD) : W20 m ρ c (Proc.devRef .tc main_v10) = W3 m ρ c (Proc.devRef .tc main_v10) :=
  (by host_keeps hostOps10 : W20 m ρ c (Proc.devRef .tc main_v10) = W19 m ρ c (Proc.devRef .tc main_v10)).trans (ew0_19 m ρ c)

/-! ### `main_v71` at the boundaries 26 … 43 -/
theorem ew1_26 (c : Dev nD) : W26 m ρ c (Proc.devRef .tc main_v71) = W26 m ρ c (Proc.devRef .tc main_v71) := rfl
theorem ew1_27 (c : Dev nD) : W27 m ρ c (Proc.devRef .tc main_v71) = W26 m ρ c (Proc.devRef .tc main_v71) :=
  (W27_of_ne m ρ c main_v71 (by decide)).trans (ew1_26 m ρ c)
theorem ew1_28 (c : Dev nD) : W28 m ρ c (Proc.devRef .tc main_v71) = W26 m ρ c (Proc.devRef .tc main_v71) :=
  (by host_keeps hostOps14 : W28 m ρ c (Proc.devRef .tc main_v71) = W27 m ρ c (Proc.devRef .tc main_v71)).trans (ew1_27 m ρ c)
theorem ew1_29 (c : Dev nD) : W29 m ρ c (Proc.devRef .tc main_v71) = W26 m ρ c (Proc.devRef .tc main_v71) :=
  ((W29_arr m ρ c 1).trans (((dat14 (V28 m ρ) c).arrAt_in 1 rfl _).trans (A_eq14 (V28 m ρ) c 1))).trans (ew1_28 m ρ c)
theorem ew1_30 (c : Dev nD) : W30 m ρ c (Proc.devRef .tc main_v71) = W26 m ρ c (Proc.devRef .tc main_v71) :=
  (by host_keeps hostOps15 : W30 m ρ c (Proc.devRef .tc main_v71) = W29 m ρ c (Proc.devRef .tc main_v71)).trans (ew1_29 m ρ c)
theorem ew1_31 (c : Dev nD) : W31 m ρ c (Proc.devRef .tc main_v71) = W26 m ρ c (Proc.devRef .tc main_v71) :=
  (W31_of_ne m ρ c main_v71 (by decide)).trans (ew1_30 m ρ c)
theorem ew1_32 (c : Dev nD) : W32 m ρ c (Proc.devRef .tc main_v71) = W26 m ρ c (Proc.devRef .tc main_v71) :=
  (W32_of_ne m ρ c main_v71 (by decide)).trans (ew1_31 m ρ c)
theorem ew1_33 (c : Dev nD) : W33 m ρ c (Proc.devRef .tc main_v71) = W26 m ρ c (Proc.devRef .tc main_v71) :=
  (by host_keeps hostOps17 : W33 m ρ c (Proc.devRef .tc main_v71) = W32 m ρ c (Proc.devRef .tc main_v71)).trans (ew1_32 m ρ c)
theorem ew1_34 (c : Dev nD) : W34 m ρ c (Proc.devRef .tc main_v71) = W26 m ρ c (Proc.devRef .tc main_v71) :=
  ((W34_arr m ρ c 1).trans (((dat17 (V33 m ρ) c).arrAt_in 1 rfl _).trans (A_eq17 (V33 m ρ) c 1))).trans (ew1_33 m ρ c)
theorem ew1_35 (c : Dev nD) : W35 m ρ c (Proc.devRef .tc main_v71) = W26 m ρ c (Proc.devRef .tc main_v71) :=
  (by host_keeps hostOps18 : W35 m ρ c (Proc.devRef .tc main_v71) = W34 m ρ c (Proc.devRef .tc main_v71)).trans (ew1_34 m ρ c)
theorem ew1_36 (c : Dev nD) : W36 m ρ c (Proc.devRef .tc main_v71) = W26 m ρ c (Proc.devRef .tc main_v71) :=
  (W36_of_ne m ρ c main_v71 (by decide)).trans (ew1_35 m ρ c)
theorem ew1_37 (c : Dev nD) : W37 m ρ c (Proc.devRef .tc main_v71) = W26 m ρ c (Proc.devRef .tc main_v71) :=
  (W37_of_ne m ρ c main_v71 (by decide)).trans (ew1_36 m ρ c)
theorem ew1_38 (c : Dev nD) : W38 m ρ c (Proc.devRef .tc main_v71) = W26 m ρ c (Proc.devRef .tc main_v71) :=
  (by host_keeps hostOps20 : W38 m ρ c (Proc.devRef .tc main_v71) = W37 m ρ c (Proc.devRef .tc main_v71)).trans (ew1_37 m ρ c)
theorem ew1_39 (c : Dev nD) : W39 m ρ c (Proc.devRef .tc main_v71) = W26 m ρ c (Proc.devRef .tc main_v71) :=
  ((W39_arr m ρ c 1).trans (((dat20 (V38 m ρ) c).arrAt_in 1 rfl _).trans (A_eq20 (V38 m ρ) c 1))).trans (ew1_38 m ρ c)
theorem ew1_40 (c : Dev nD) : W40 m ρ c (Proc.devRef .tc main_v71) = W26 m ρ c (Proc.devRef .tc main_v71) :=
  (by host_keeps hostOps21 : W40 m ρ c (Proc.devRef .tc main_v71) = W39 m ρ c (Proc.devRef .tc main_v71)).trans (ew1_39 m ρ c)
theorem ew1_41 (c : Dev nD) : W41 m ρ c (Proc.devRef .tc main_v71) = W26 m ρ c (Proc.devRef .tc main_v71) :=
  (W41_of_ne m ρ c main_v71 (by decide)).trans (ew1_40 m ρ c)
theorem ew1_42 (c : Dev nD) : W42 m ρ c (Proc.devRef .tc main_v71) = W26 m ρ c (Proc.devRef .tc main_v71) :=
  (W42_of_ne m ρ c main_v71 (by decide)).trans (ew1_41 m ρ c)
theorem ew1_43 (c : Dev nD) : W43 m ρ c (Proc.devRef .tc main_v71) = W26 m ρ c (Proc.devRef .tc main_v71) :=
  (by host_keeps hostOps23 : W43 m ρ c (Proc.devRef .tc main_v71) = W42 m ρ c (Proc.devRef .tc main_v71)).trans (ew1_42 m ρ c)

/-! ### `main_v68` at the boundaries 25 … 48 -/
theorem out0_25 (c : Dev nD) : W25 m ρ c (Proc.devRef .tc main_v68) = W25 m ρ c (Proc.devRef .tc main_v68) := rfl
theorem out0_26 (c : Dev nD) : W26 m ρ c (Proc.devRef .tc main_v68) = W25 m ρ c (Proc.devRef .tc main_v68) :=
  (by host_keeps hostOps13 : W26 m ρ c (Proc.devRef .tc main_v68) = W25 m ρ c (Proc.devRef .tc main_v68)).trans (out0_25 m ρ c)
theorem out0_27 (c : Dev nD) : W27 m ρ c (Proc.devRef .tc main_v68) = W25 m ρ c (Proc.devRef .tc main_v68) :=
  (W27_of_ne m ρ c main_v68 (by decide)).trans (out0_26 m ρ c)
theorem out0_28 (c : Dev nD) : W28 m ρ c (Proc.devRef .tc main_v68) = W25 m ρ c (Proc.devRef .tc main_v68) :=
  (by host_keeps hostOps14 : W28 m ρ c (Proc.devRef .tc main_v68) = W27 m ρ c (Proc.devRef .tc main_v68)).trans (out0_27 m ρ c)
theorem out0_29 (c : Dev nD) : W29 m ρ c (Proc.devRef .tc main_v68) = W25 m ρ c (Proc.devRef .tc main_v68) :=
  (W29_of_ne m ρ c main_v68 (by decide)).trans (out0_28 m ρ c)
theorem out0_30 (c : Dev nD) : W30 m ρ c (Proc.devRef .tc main_v68) = W25 m ρ c (Proc.devRef .tc main_v68) :=
  (by host_keeps hostOps15 : W30 m ρ c (Proc.devRef .tc main_v68) = W29 m ρ c (Proc.devRef .tc main_v68)).trans (out0_29 m ρ c)
theorem out0_31 (c : Dev nD) : W31 m ρ c (Proc.devRef .tc main_v68) = W25 m ρ c (Proc.devRef .tc main_v68) :=
  (W31_of_ne m ρ c main_v68 (by decide)).trans (out0_30 m ρ c)
theorem out0_32 (c : Dev nD) : W32 m ρ c (Proc.devRef .tc main_v68) = W25 m ρ c (Proc.devRef .tc main_v68) :=
  (W32_of_ne m ρ c main_v68 (by decide)).trans (out0_31 m ρ c)
theorem out0_33 (c : Dev nD) : W33 m ρ c (Proc.devRef .tc main_v68) = W25 m ρ c (Proc.devRef .tc main_v68) :=
  (by host_keeps hostOps17 : W33 m ρ c (Proc.devRef .tc main_v68) = W32 m ρ c (Proc.devRef .tc main_v68)).trans (out0_32 m ρ c)
theorem out0_34 (c : Dev nD) : W34 m ρ c (Proc.devRef .tc main_v68) = W25 m ρ c (Proc.devRef .tc main_v68) :=
  (W34_of_ne m ρ c main_v68 (by decide)).trans (out0_33 m ρ c)
theorem out0_35 (c : Dev nD) : W35 m ρ c (Proc.devRef .tc main_v68) = W25 m ρ c (Proc.devRef .tc main_v68) :=
  (by host_keeps hostOps18 : W35 m ρ c (Proc.devRef .tc main_v68) = W34 m ρ c (Proc.devRef .tc main_v68)).trans (out0_34 m ρ c)
theorem out0_36 (c : Dev nD) : W36 m ρ c (Proc.devRef .tc main_v68) = W25 m ρ c (Proc.devRef .tc main_v68) :=
  (W36_of_ne m ρ c main_v68 (by decide)).trans (out0_35 m ρ c)
theorem out0_37 (c : Dev nD) : W37 m ρ c (Proc.devRef .tc main_v68) = W25 m ρ c (Proc.devRef .tc main_v68) :=
  (W37_of_ne m ρ c main_v68 (by decide)).trans (out0_36 m ρ c)
theorem out0_38 (c : Dev nD) : W38 m ρ c (Proc.devRef .tc main_v68) = W25 m ρ c (Proc.devRef .tc main_v68) :=
  (by host_keeps hostOps20 : W38 m ρ c (Proc.devRef .tc main_v68) = W37 m ρ c (Proc.devRef .tc main_v68)).trans (out0_37 m ρ c)
theorem out0_39 (c : Dev nD) : W39 m ρ c (Proc.devRef .tc main_v68) = W25 m ρ c (Proc.devRef .tc main_v68) :=
  (W39_of_ne m ρ c main_v68 (by decide)).trans (out0_38 m ρ c)
theorem out0_40 (c : Dev nD) : W40 m ρ c (Proc.devRef .tc main_v68) = W25 m ρ c (Proc.devRef .tc main_v68) :=
  (by host_keeps hostOps21 : W40 m ρ c (Proc.devRef .tc main_v68) = W39 m ρ c (Proc.devRef .tc main_v68)).trans (out0_39 m ρ c)
theorem out0_41 (c : Dev nD) : W41 m ρ c (Proc.devRef .tc main_v68) = W25 m ρ c (Proc.devRef .tc main_v68) :=
  (W41_of_ne m ρ c main_v68 (by decide)).trans (out0_40 m ρ c)
theorem out0_42 (c : Dev nD) : W42 m ρ c (Proc.devRef .tc main_v68) = W25 m ρ c (Proc.devRef .tc main_v68) :=
  (W42_of_ne m ρ c main_v68 (by decide)).trans (out0_41 m ρ c)
theorem out0_43 (c : Dev nD) : W43 m ρ c (Proc.devRef .tc main_v68) = W25 m ρ c (Proc.devRef .tc main_v68) :=
  (by host_keeps hostOps23 : W43 m ρ c (Proc.devRef .tc main_v68) = W42 m ρ c (Proc.devRef .tc main_v68)).trans (out0_42 m ρ c)
theorem out0_44 (c : Dev nD) : W44 m ρ c (Proc.devRef .tc main_v68) = W25 m ρ c (Proc.devRef .tc main_v68) :=
  (W44_of_ne m ρ c main_v68 (by decide)).trans (out0_43 m ρ c)
theorem out0_45 (c : Dev nD) : W45 m ρ c (Proc.devRef .tc main_v68) = W25 m ρ c (Proc.devRef .tc main_v68) :=
  (by host_keeps hostOps24 : W45 m ρ c (Proc.devRef .tc main_v68) = W44 m ρ c (Proc.devRef .tc main_v68)).trans (out0_44 m ρ c)
theorem out0_46 (c : Dev nD) : W46 m ρ c (Proc.devRef .tc main_v68) = W25 m ρ c (Proc.devRef .tc main_v68) :=
  (W46_of_ne m ρ c main_v68 (by decide)).trans (out0_45 m ρ c)
theorem out0_47 (c : Dev nD) : W47 m ρ c (Proc.devRef .tc main_v68) = W25 m ρ c (Proc.devRef .tc main_v68) :=
  (by host_keeps hostOps25 : W47 m ρ c (Proc.devRef .tc main_v68) = W46 m ρ c (Proc.devRef .tc main_v68)).trans (out0_46 m ρ c)
theorem out0_48 (c : Dev nD) : W48 m ρ c (Proc.devRef .tc main_v68) = W25 m ρ c (Proc.devRef .tc main_v68) :=
  (W48_of_ne m ρ c main_v68 (by decide)).trans (out0_47 m ρ c)

end Cert.KernelIdeal.Chain

end
-- ==== Proof.ChainVals.lean ====
/-
  Three operands the host prepares before a graph's regions, read off the host stretches that make them: the degree normalisation
  (the in-degrees by a segment sum of ones over the destination indices, clipped below at one, raised to the power -1/2, re-laid as a
  column) and each graph's row of the edge-weight argument re-laid as a column.  Each is the named function of the argument arrays.
  The normalisation is made in three stretches (the clipping is an outlined function, inlined between two stretches of the main
  program); each stretch is read on its own, over whatever the stretch finds, and the three readings are composed.
-/
import proofs.«172771_j21320217657536_1_alg».proof.Proof.Gen.KernelIdeal.Frame
import proofs.«172771_j21320217657536_1_alg».proof.Proof.Spec
import proofs.«172771_j21320217657536_1_alg».proof.Proof.ChainArgsB

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat Cfg Window)

variable [Cert.ReferenceIdeal.Facts]
variable (m : (ℓ : Loc nD τ sig) → Buf (Elt Ideal) ℓ) (ρ : Dev nD → PrngReg)

/-- The in-degrees: a segment sum of ones over the destination indices. -/
def degOf (a2 : Cert.Spec.IA Cert.ReferenceIdeal.S800000) : Cert.Spec.FA Cert.ReferenceIdeal.S50000 :=
  Host.scatterAdd scatter_S50000_S800000x1_S800000_n_0_0_1
    (broadcastInDim S50000 ![] Gen.bcast_S_S50000 (constant S_ .f32 0x00000000#32))
    (broadcastInDim S800000x1 ![0] Gen.bcast_S800000_S800000x1_0 a2)
    (broadcastInDim S800000 ![] Gen.bcast_S_S800000 (constant S_ .f32 0x3F800000#32))

/-- Clipping below at the scalar `k`. -/
def clipOf (k : Cert.Spec.FA Cert.ReferenceIdeal.S_) (x : Cert.Spec.FA Cert.ReferenceIdeal.S50000) : Cert.Spec.FA Cert.ReferenceIdeal.S50000 :=
  maximumf (broadcastInDim S50000 ![] Gen.bcast_S_S50000 (id k)) x

/-- The power -1/2, re-laid as a column. -/
def normOf (d : Cert.Spec.FA Cert.ReferenceIdeal.S50000) : Cert.Spec.FA Cert.ReferenceIdeal.S50000x1 :=
  shapeCast S50000x1 (Host.powf d (broadcastInDim S50000 ![] Gen.bcast_S_S50000 (constant S_ .f32 0xBF000000#32))) Gen.shapeCasts_S50000_S50000x1

/-- Contents moved to a buffer's own type and back are the contents. -/
theorem ofBuf_toBuf {T : BufTy} (x : TRef sig T) (v : T.Contents (Elt Ideal)) : x.ofBuf (x.toBuf v) = v := by
  obtain ⟨r, rfl, _, _⟩ := x
  rfl

/-- The first stretch leaves the in-degrees of what it finds in the destination indices' buffer … -/
theorem deg_stage (Wz : Valuation τ sig (Elt Ideal)) :
    StableHlo.after hostOps0 Wz (Proc.devRef .tc main_v3) = degOf (Wz (Proc.devRef .tc main_arg2)) := by
  simp only [hostOps0]; after_results <;> rfl

/-- … and the scalar one the clipping is called with. -/
theorem one_stage (Wz : Valuation τ sig (Elt Ideal)) :
    StableHlo.after hostOps0 Wz (Proc.devRef .tc main_cst_1) = (constant S_ .f32 0x3F800000#32 : Cert.Spec.FA Cert.ReferenceIdeal.S_) := by
  simp only [hostOps0]; after_results <;> rfl

/-- The clipping's stretch: its operations are stated at the value types and moved to the buffers' own types and back; the
    moves cancel in pairs, and a move along an equation between equal types is the identity. -/
theorem clip_stage (Wz : Valuation τ sig (Elt Ideal)) :
    StableHlo.after hostOps0_1 Wz (Proc.devRef .tc main_v4)
      = clipOf (Wz (Proc.devRef .tc main_cst_1)) (Wz (Proc.devRef .tc main_v3)) := by
  simp only [hostOps0_1]; after_results
  generalize Wz (Proc.devRef .tc main_cst_1) = K
  generalize Wz (Proc.devRef .tc main_v3) = X
  rw [ofBuf_toBuf, ofBuf_toBuf]
  exact eq_of_heq ((cast_heq _ _).trans (heq_of_eq (congrArg₂ maximumf
    (congrArg (broadcastInDim S50000 ![] Gen.bcast_S_S50000) (congrArg id (cast_eq _ K))) (cast_eq _ X))))

/-- The last stretch before the first region: the power and the re-laying. -/
theorem norm_stage (Wz : Valuation τ sig (Elt Ideal)) :
    StableHlo.after hostOps0_2 Wz (Proc.devRef .tc main_v7) = normOf (Wz (Proc.devRef .tc main_v4)) := by
  simp only [hostOps0_2]; after_results; rfl

/-- The degree normalisation at the first region's entry is the specification's, of the destination indices as launched. -/
theorem nrm_val (c : Dev nD) :
    W3 m ρ c (Proc.devRef .tc main_v7) = Cert.Spec.normK (m ((c : Thread nD τ).loc main_arg2)) Gen.shapeCasts_S50000_S50000x1 := by
  have e3 : W3 m ρ c (Proc.devRef .tc main_v7) = normOf (W2 m ρ c (Proc.devRef .tc main_v4)) := norm_stage (W2 m ρ c)
  have e2 : W2 m ρ c (Proc.devRef .tc main_v4)
      = clipOf (W1 m ρ c (Proc.devRef .tc main_cst_1)) (W1 m ρ c (Proc.devRef .tc main_v3)) := clip_stage (W1 m ρ c)
  have e1 : W1 m ρ c (Proc.devRef .tc main_v3) = degOf (m ((c : Thread nD τ).loc main_arg2)) := deg_stage (W0 m ρ c)
  have e0 : W1 m ρ c (Proc.devRef .tc main_cst_1) = (constant S_ .f32 0x3F800000#32 : Cert.Spec.FA Cert.ReferenceIdeal.S_) :=
    one_stage (W0 m ρ c)
  rw [e3, e2, e1, e0]
  generalize m ((c : Thread nD τ).loc main_arg2) = a2
  rfl

/-- Graph 0's edge weights as a column: row 0 of the weight argument, re-laid. -/
theorem ew0_val (c : Dev nD) :
    W3 m ρ c (Proc.devRef .tc main_v10) = Cert.Spec.colK (Cert.Spec.edgeVec0 (m ((c : Thread nD τ).loc main_arg3))) Gen.shapeCasts_S800000_S800000x1 := by
  show StableHlo.after hostOps0_2 (StableHlo.after hostOps0_1 (StableHlo.after hostOps0 (W0 m ρ c))) (Proc.devRef .tc main_v10) = _
  simp only [hostOps0_2, hostOps0_1, hostOps0]; after_results; rfl

/-- Graph 1's edge weights as a column: row 1 of the weight argument, which still holds what was launched when the stretch after
    graph 0's dense layer slices it. -/
theorem ew1_val (c : Dev nD) :
    W26 m ρ c (Proc.devRef .tc main_v71) = Cert.Spec.colK (Cert.Spec.edgeVec1 (m ((c : Thread nD τ).loc main_arg3))) Gen.shapeCasts_S800000_S800000x1 := by
  have h : W26 m ρ c (Proc.devRef .tc main_v71)
      = Cert.Spec.colK (Cert.Spec.edgeVec1 (W25 m ρ c (Proc.devRef .tc main_arg3))) Gen.shapeCasts_S800000_S800000x1 := by
    show StableHlo.after hostOps13 (W25 m ρ c) (Proc.devRef .tc main_v71) = _
    simp only [hostOps13]; after_results; rfl
  exact h.trans (by rw [arg3_25 m ρ c])

end Cert.KernelIdeal.Chain

end
-- ==== Proof.RegionScaleN.lean ====
/- Eight regions each multiply every row of a 50000 × 128 array by the one entry of the same row of a
  50000 × 1 column, ten blocks of 5000 rows at a time.
  Each region's output array after the region is shown to be ONE whole-array function of its two input arrays as
  the region finds them. Per region: the body's arithmetic read at an entry of a block; the index maps over the grid
  (point t reads and writes block row t); what point t writes back is block t of the whole-array function (an entry
  of block t sits at row t · rows-per-block + its row inside the block, same column); every row r of the array lies
  in the block of point r / rows-per-block; so the blocks cover the array and the array ends holding the function.
-/
import proofs.«172771_j21320217657536_1_alg».proof.Proof.Gen.KernelIdeal.Frame
import proofs.«172771_j21320217657536_1_alg».proof.Proof.Spec
import proofs.«172771_j21320217657536_1_alg».proof.Proof.LibKeepdims
import proofs.«172771_j21320217657536_1_alg».proof.Proof.LibBroadcastInDim
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable [Cert.ReferenceIdeal.Facts]

/-! ## Every row of an array times its own scale -/

theorem hz_rows : (![0, 0] : Fin 2 → Nat) = fun _ => 0 := funext fun a => by fin_cases a <;> rfl

/-- The row scaling of the whole array at row r, column q: the entry times the one entry of row r of the column. -/
theorem scaleRows_apply (X : FVec Ideal S50000x128 .f32) (S : FVec Ideal S50000x1 .f32) (r : Fin 50000) (q : Fin 128) :
    Cert.Spec.scaleRows X S (ix2 r q) = X (ix2 r q) * S (ix2 r (0 : Fin 1)) := by
  unfold Cert.Spec.scaleRows
  rw [mulf_apply, broadcastInDim_a1_ab_apply]

/-- An entry of the array times the column's entry of the same row is the row scaling at that entry. -/
theorem scaleRows_at (X : FVec Ideal S50000x128 .f32) (S : FVec Ideal S50000x1 .f32) (i0 i2 : S50000x128.Idx) (i1 : S50000x1.Idx)
    (h0 : i0 = i2) (h1 : (i1 0).val = (i2 0).val) : X i0 * S i1 = Cert.Spec.scaleRows X S i2 := by
  subst h0
  obtain ⟨r, q, rfl⟩ : ∃ (r : Fin 50000) (q : Fin 128), i0 = ix2 r q := ⟨i0 0, i0 1, eq_ix2 i0⟩
  obtain ⟨r', u, rfl⟩ : ∃ (r' : Fin 50000) (u : Fin 1), i1 = ix2 r' u := ⟨i1 0, i1 1, eq_ix2 i1⟩
  obtain rfl : r' = r := Fin.ext h1
  obtain rfl : u = 0 := Subsingleton.elim _ _
  rw [scaleRows_apply]

/-! ### Region 0 -/

/-- The body's product at row p, column q of a block: the block's entry times the one entry of row p of the column block. -/
theorem pay0_apply (x : Vec Ideal S5000x128 .f32) (s : Vec Ideal S5000x1 .f32) (p : Fin 5000) (q : Fin 128) :
    k0_pay1 x s (ix2 p q) = x (ix2 p q) * s (ix2 p (0 : Fin 1)) := by
  unfold k0_pay1
  rw [mulf_apply, broadcastTo_a1_ab_apply]
  simp only [shapeCast_self]

/-- The three index maps over the grid: point t reads and writes block row t, block column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the row scaling of the two arrays as the region finds them. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Cert.Spec.scaleRows (V c (Pipeline.arrRef spec0 0)) (V c (Pipeline.arrRef spec0 1))) := by
  show (cfg0.win 2).cut (grid0.coords t) ((dat0 V c).after 2 t) = _
  rw [after0_2]
  unfold out0_2
  rw [View.canon_unit_zero hz_rows]
  simp only [View.ld_unit_zero (S := S5000x128) hz_rows, View.ld_unit_zero (S := S5000x1) hz_rows]
  obtain ⟨e0, e1, e2, e3, e4, e5⟩ := idx0 t
  funext j
  obtain ⟨p, q, rfl⟩ : ∃ (p : Fin 5000) (q : Fin 128), j = ix2 p q := ⟨j 0, j 1, eq_ix2 j⟩
  refine (pay0_apply _ _ p q).trans ?_
  refine scaleRows_at (V c (Pipeline.arrRef spec0 0)) (V c (Pipeline.arrRef spec0 1))
    (((cfg0.win 0).blk t).view.emb (ix2 p q)) (((cfg0.win 2).blk t).view.emb (ix2 p q))
    (((cfg0.win 1).blk t).view.emb (ix2 p (0 : Fin 1))) ?_ ?_
  · funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * q.val = win0_2.index t (1 : Fin 2) * 128 + 1 * q.val; omega
  · show win0_1.index t (0 : Fin 2) * 5000 + 1 * p.val = win0_2.index t (0 : Fin 2) * 5000 + 1 * p.val; omega

/-- An index of the array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v11).slice (win0_2.rect t)).set ↔ _
  rw [View.set_slice_whole, Rect.mem_set_unit]
  exact Iff.rfl

/-- Row r of the array lies in the block of point r / 5000. -/
theorem cover0 (i : S50000x128.Idx) : ∃ t : Fin cfg0.N, (cfg0.win 2).flush t = true ∧ i ∈ ((cfg0.win 2).blk t).view.set := by
  have h0 : (i 0).val < 50000 := (i 0).isLt
  have h1 : (i 1).val < 128 := (i 1).isLt
  have hN : cfg0.N = 10 := N_0
  have ht : (i 0).val / 5000 < cfg0.N := by rw [hN]; omega
  obtain ⟨-, -, -, -, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- After region 0, its output array is the row scaling of its two input arrays as the region finds them. -/
theorem final0 (V : (c : Dev nD) → (b : Ref sig .tc) → Buf (Elt Ideal) ((c : Thread nD τ).loc b)) (c : Dev nD) :
    (dat0 (F := Ideal) V c).arrAt 2 cfg0.N = Cert.Spec.scaleRows (V c (Pipeline.arrRef spec0 0)) (V c (Pipeline.arrRef spec0 1)) :=
  (dat0 (F := Ideal) V c).arrAt_eq_of_cover 2 _ (fun t _ => flushed0_eq V c t) cover0

/-! ### Region 3 -/

/-- The body's product at row p, column q of a block: the block's entry times the one entry of row p of the column block. -/
theorem pay3_apply (x : Vec Ideal S5000x128 .f32) (s : Vec Ideal S5000x1 .f32) (p : Fin 5000) (q : Fin 128) :
    k3_pay1 x s (ix2 p q) = x (ix2 p q) * s (ix2 p (0 : Fin 1)) := by
  unfold k3_pay1
  rw [mulf_apply, broadcastTo_a1_ab_apply]
  simp only [shapeCast_self]

/-- The three index maps over the grid: point t reads and writes block row t, block column 0. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the row scaling of the two arrays as the region finds them. -/
theorem flushed3_eq (V : (c : Dev nD) → (b : Ref sig .tc) → Buf (Elt Ideal) ((c : Thread nD τ).loc b)) (c : Dev nD) (t : Fin cfg3.N) :
    (dat3 (F := Ideal) V c).flushed 2 t = ((cfg3.win 2).blk t).view.read (Elt Ideal)
      (Cert.Spec.scaleRows (V c (Pipeline.arrRef spec3 0)) (V c (Pipeline.arrRef spec3 1))) := by
  show (cfg3.win 2).cut (grid3.coords t) ((dat3 V c).after 2 t) = _
  rw [after3_2]
  unfold out3_2
  rw [View.canon_unit_zero hz_rows]
  simp only [View.ld_unit_zero (S := S5000x128) hz_rows, View.ld_unit_zero (S := S5000x1) hz_rows]
  obtain ⟨e0, e1, e2, e3, e4, e5⟩ := idx3 t
  funext j
  obtain ⟨p, q, rfl⟩ : ∃ (p : Fin 5000) (q : Fin 128), j = ix2 p q := ⟨j 0, j 1, eq_ix2 j⟩
  refine (pay3_apply _ _ p q).trans ?_
  refine scaleRows_at (V c (Pipeline.arrRef spec3 0)) (V c (Pipeline.arrRef spec3 1))
    (((cfg3.win 0).blk t).view.emb (ix2 p q)) (((cfg3.win 2).blk t).view.emb (ix2 p q))
    (((cfg3.win 1).blk t).view.emb (ix2 p (0 : Fin 1))) ?_ ?_
  · funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  · show win3_1.index t (0 : Fin 2) * 5000 + 1 * p.val = win3_2.index t (0 : Fin 2) * 5000 + 1 * p.val; omega

/-- An index of the array is in point t's block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v24).slice (win3_2.rect t)).set ↔ _
  rw [View.set_slice_whole, Rect.mem_set_unit]
  exact Iff.rfl

/-- Row r of the array lies in the block of point r / 5000. -/
theorem cover3 (i : S50000x128.Idx) : ∃ t : Fin cfg3.N, (cfg3.win 2).flush t = true ∧ i ∈ ((cfg3.win 2).blk t).view.set := by
  have h0 : (i 0).val < 50000 := (i 0).isLt
  have h1 : (i 1).val < 128 := (i 1).isLt
  have hN : cfg3.N = 10 := N_3
  have ht : (i 0).val / 5000 < cfg3.N := by rw [hN]; omega
  obtain ⟨-, -, -, -, e4, e5⟩ := idx3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e5]; omega

/-- After region 3, its output array is the row scaling of its two input arrays as the region finds them. -/
theorem final3 (V : (c : Dev nD) → (b : Ref sig .tc) → Buf (Elt Ideal) ((c : Thread nD τ).loc b)) (c : Dev nD) :
    (dat3 (F := Ideal) V c).arrAt 2 cfg3.N = Cert.Spec.scaleRows (V c (Pipeline.arrRef spec3 0)) (V c (Pipeline.arrRef spec3 1)) :=
  (dat3 (F := Ideal) V c).arrAt_eq_of_cover 2 _ (fun t _ => flushed3_eq V c t) cover3

/-! ### Region 6 -/

/-- The body's product at row p, column q of a block: the block's entry times the one entry of row p of the column block. -/
theorem pay6_apply (x : Vec Ideal S5000x128 .f32) (s : Vec Ideal S5000x1 .f32) (p : Fin 5000) (q : Fin 128) :
    k6_pay1 x s (ix2 p q) = x (ix2 p q) * s (ix2 p (0 : Fin 1)) := by
  unfold k6_pay1
  rw [mulf_apply, broadcastTo_a1_ab_apply]
  simp only [shapeCast_self]

/-- The three index maps over the grid: point t reads and writes block row t, block column 0. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point t writes back is block t of the row scaling of the two arrays as the region finds them. -/
theorem flushed6_eq (V : (c : Dev nD) → (b : Ref sig .tc) → Buf (Elt Ideal) ((c : Thread nD τ).loc b)) (c : Dev nD) (t : Fin cfg6.N) :
    (dat6 (F := Ideal) V c).flushed 2 t = ((cfg6.win 2).blk t).view.read (Elt Ideal)
      (Cert.Spec.scaleRows (V c (Pipeline.arrRef spec6 0)) (V c (Pipeline.arrRef spec6 1))) := by
  show (cfg6.win 2).cut (grid6.coords t) ((dat6 V c).after 2 t) = _
  rw [after6_2]
  unfold out6_2
  rw [View.canon_unit_zero hz_rows]
  simp only [View.ld_unit_zero (S := S5000x128) hz_rows, View.ld_unit_zero (S := S5000x1) hz_rows]
  obtain ⟨e0, e1, e2, e3, e4, e5⟩ := idx6 t
  funext j
  obtain ⟨p, q, rfl⟩ : ∃ (p : Fin 5000) (q : Fin 128), j = ix2 p q := ⟨j 0, j 1, eq_ix2 j⟩
  refine (pay6_apply _ _ p q).trans ?_
  refine scaleRows_at (V c (Pipeline.arrRef spec6 0)) (V c (Pipeline.arrRef spec6 1))
    (((cfg6.win 0).blk t).view.emb (ix2 p q)) (((cfg6.win 2).blk t).view.emb (ix2 p q))
    (((cfg6.win 1).blk t).view.emb (ix2 p (0 : Fin 1))) ?_ ?_
  · funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 128 + 1 * q.val = win6_2.index t (1 : Fin 2) * 128 + 1 * q.val; omega
  · show win6_1.index t (0 : Fin 2) * 5000 + 1 * p.val = win6_2.index t (0 : Fin 2) * 5000 + 1 * p.val; omega

/-- An index of the array is in point t's block iff each coordinate is in the block's range on its axis. -/
theorem mem_blk6 (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v37).slice (win6_2.rect t)).set ↔ _
  rw [View.set_slice_whole, Rect.mem_set_unit]
  exact Iff.rfl

/-- Row r of the array lies in the block of point r / 5000. -/
theorem cover6 (i : S50000x128.Idx) : ∃ t : Fin cfg6.N, (cfg6.win 2).flush t = true ∧ i ∈ ((cfg6.win 2).blk t).view.set := by
  have h0 : (i 0).val < 50000 := (i 0).isLt
  have h1 : (i 1).val < 128 := (i 1).isLt
  have hN : cfg6.N = 10 := N_6
  have ht : (i 0).val / 5000 < cfg6.N := by rw [hN]; omega
  obtain ⟨-, -, -, -, e4, e5⟩ := idx6 ⟨(i 0).val / 5000, ht⟩
  refine ⟨⟨(i 0).val / 5000, ht⟩, flush6_2 _, ?_⟩
  rw [mem_blk6]
  intro a
  match a with
  | ⟨0, _⟩ =>
    show win6_2.index ⟨(i 0).val / 5000, ht⟩ (0 : Fin 2) * 5000 ≤ (i 0).val ∧ (i 0).val < win6_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, ht⟩ (1 : Fin 2) * 128 ≤ (i 1).val ∧ (i 1).val < win6_2.index ⟨(i 0).val / 5000, ht⟩ (1 : Fin 2) * 128 + 128
    rw [e5]; omega

/-- After region 6, its output array is the row scaling of its two input arrays as the region finds them. -/
theorem final6 (V : (c : Dev nD) → (b : Ref sig .tc) → Buf (Elt Ideal) ((c : Thread nD τ).loc b)) (c : Dev nD) :
    (dat6 (F := Ideal) V c).arrAt 2 cfg6.N = Cert.Spec.scaleRows (V c (Pipeline.arrRef spec6 0)) (V c (Pipeline.arrRef spec6 1)) :=
  (dat6 (F := Ideal) V c).arrAt_eq_of_cover 2 _ (fun t _ => flushed6_eq V c t) cover6

/-! ### Region 9 -/

/-- The body's product at row p, column q of a block: the block's entry times the one entry of row p of the column block. -/
theorem pay9_apply (x : Vec Ideal S5000x128 .f32) (s : Vec Ideal S5000x1 .f32) (p : Fin 5000) (q : Fin 128) :
    k9_pay1 x s (ix2 p q) = x (ix2 p q) * s (ix2 p (0 : Fin 1)) := by
  unfold k9_pay1
  rw [mulf_apply, broadcastTo_a1_ab_apply]
  simp only [shapeCast_self]

/-- The three index maps over the grid: point t reads and writes block row t, block column 0. -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

/-- What point t writes back is block t of the row scaling of the two arrays as the region finds them. -/
theorem flushed9_eq (V : (c : Dev nD) → (b : Ref sig .tc) → Buf (Elt Ideal) ((c : Thread nD τ).loc b)) (c : Dev nD) (t : Fin cfg9.N) :
    (dat9 (F := Ideal) V c).flushed 2 t = ((cfg9.win 2).blk t).view.read (Elt Ideal)
      (Cert.Spec.scaleRows (V c (Pipeline.arrRef spec9 0)) (V c (Pipeline.arrRef spec9 1))) := by
  show (cfg9.win 2).cut (grid9.coords t) ((dat9 V c).after 2 t) = _
  rw [after9_2]
  unfold out9_2
  rw [View.canon_unit_zero hz_rows]
  simp only [View.ld_unit_zero (S := S5000x128) hz_rows, View.ld_unit_zero (S := S5000x1) hz_rows]
  obtain ⟨e0, e1, e2, e3, e4, e5⟩ := idx9 t
  funext j
  obtain ⟨p, q, rfl⟩ : ∃ (p : Fin 5000) (q : Fin 128), j = ix2 p q := ⟨j 0, j 1, eq_ix2 j⟩
  refine (pay9_apply _ _ p q).trans ?_
  refine scaleRows_at (V c (Pipeline.arrRef spec9 0)) (V c (Pipeline.arrRef spec9 1))
    (((cfg9.win 0).blk t).view.emb (ix2 p q)) (((cfg9.win 2).blk t).view.emb (ix2 p q))
    (((cfg9.win 1).blk t).view.emb (ix2 p (0 : Fin 1))) ?_ ?_
  · funext a; apply Fin.ext
    match a with
    | ⟨0, _⟩ => show win9_0.index t (0 : Fin 2) * 5000 + 1 * p.val = win9_2.index t (0 : Fin 2) * 5000 + 1 * p.val; omega
    | ⟨1, _⟩ => show win9_0.index t (1 : Fin 2) * 128 + 1 * q.val = win9_2.index t (1 : Fin 2) * 128 + 1 * q.val; omega
  · show win9_1.index t (0 : Fin 2) * 5000 + 1 * p.val = win9_2.index t (0 : Fin 2) * 5000 + 1 * p.val; omega

/-- An index of the array is in point t's block iff each coordinate is in the block's range on its axis. -/
theorem mem_blk9 (t : Fin cfg9.N) (i : S50000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v50).slice (win9_2.rect t)).set ↔ _
  rw [View.set_slice_whole, Rect.mem_set_unit]
  exact Iff.rfl

/-- Row r of the array lies in the block of point r / 5000. -/
theorem cover9 (i : S50000x128.Idx) : ∃ t : Fin cfg9.N, (cfg9.win 2).flush t = true ∧ i ∈ ((cfg9.win 2).blk t).view.set := by
  have h0 : (i 0).val < 50000 := (i 0).isLt
  have h1 : (i 1).val < 128 := (i 1).isLt
  have hN : cfg9.N = 10 := N_9
  have ht : (i 0).val / 5000 < cfg9.N := by rw [hN]; omega
  obtain ⟨-, -, -, -, e4, e5⟩ := idx9 ⟨(i 0).val / 5000, ht⟩
  refine ⟨⟨(i 0).val / 5000, ht⟩, flush9_2 _, ?_⟩
  rw [mem_blk9]
  intro a
  match a with
  | ⟨0, _⟩ =>
    show win9_2.index ⟨(i 0).val / 5000, ht⟩ (0 : Fin 2) * 5000 ≤ (i 0).val ∧ (i 0).val < win9_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win9_2.index ⟨(i 0).val / 5000, ht⟩ (1 : Fin 2) * 128 ≤ (i 1).val ∧ (i 1).val < win9_2.index ⟨(i 0).val / 5000, ht⟩ (1 : Fin 2) * 128 + 128
    rw [e5]; omega

/-- After region 9, its output array is the row scaling of its two input arrays as the region finds them. -/
theorem final9 (V : (c : Dev nD) → (b : Ref sig .tc) → Buf (Elt Ideal) ((c : Thread nD τ).loc b)) (c : Dev nD) :
    (dat9 (F := Ideal) V c).arrAt 2 cfg9.N = Cert.Spec.scaleRows (V c (Pipeline.arrRef spec9 0)) (V c (Pipeline.arrRef spec9 1)) :=
  (dat9 (F := Ideal) V c).arrAt_eq_of_cover 2 _ (fun t _ => flushed9_eq V c t) cover9

/-! ### Region 13 -/

/-- The body's product at row p, column q of a block: the block's entry times the one entry of row p of the column block. -/
theorem pay13_apply (x : Vec Ideal S5000x128 .f32) (s : Vec Ideal S5000x1 .f32) (p : Fin 5000) (q : Fin 128) :
    k13_pay1 x s (ix2 p q) = x (ix2 p q) * s (ix2 p (0 : Fin 1)) := by
  unfold k13_pay1
  rw [mulf_apply, broadcastTo_a1_ab_apply]
  simp only [shapeCast_self]

/-- The three index maps over the grid: point t reads and writes block row t, block column 0. -/
theorem idx13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0 :=
  (by decide +kernel : ∀ t : Fin grid13.N, _)

/-- What point t writes back is block t of the row scaling of the two arrays as the region finds them. -/
theorem flushed13_eq (V : (c : Dev nD) → (b : Ref sig .tc) → Buf (Elt Ideal) ((c : Thread nD τ).loc b)) (c : Dev nD) (t : Fin cfg13.N) :
    (dat13 (F := Ideal) V c).flushed 2 t = ((cfg13.win 2).blk t).view.read (Elt Ideal)
      (Cert.Spec.scaleRows (V c (Pipeline.arrRef spec13 0)) (V c (Pipeline.arrRef spec13 1))) := by
  show (cfg13.win 2).cut (grid13.coords t) ((dat13 V c).after 2 t) = _
  rw [after13_2]
  unfold out13_2
  rw [View.canon_unit_zero hz_rows]
  simp only [View.ld_unit_zero (S := S5000x128) hz_rows, View.ld_unit_zero (S := S5000x1) hz_rows]
  obtain ⟨e0, e1, e2, e3, e4, e5⟩ := idx13 t
  funext j
  obtain ⟨p, q, rfl⟩ : ∃ (p : Fin 5000) (q : Fin 128), j = ix2 p q := ⟨j 0, j 1, eq_ix2 j⟩
  refine (pay13_apply _ _ p q).trans ?_
  refine scaleRows_at (V c (Pipeline.arrRef spec13 0)) (V c (Pipeline.arrRef spec13 1))
    (((cfg13.win 0).blk t).view.emb (ix2 p q)) (((cfg13.win 2).blk t).view.emb (ix2 p q))
    (((cfg13.win 1).blk t).view.emb (ix2 p (0 : Fin 1))) ?_ ?_
  · funext a; apply Fin.ext
    match a with
    | ⟨0, _⟩ => show win13_0.index t (0 : Fin 2) * 5000 + 1 * p.val = win13_2.index t (0 : Fin 2) * 5000 + 1 * p.val; omega
    | ⟨1, _⟩ => show win13_0.index t (1 : Fin 2) * 128 + 1 * q.val = win13_2.index t (1 : Fin 2) * 128 + 1 * q.val; omega
  · show win13_1.index t (0 : Fin 2) * 5000 + 1 * p.val = win13_2.index t (0 : Fin 2) * 5000 + 1 * p.val; omega

/-- An index of the array is in point t's block iff each coordinate is in the block's range on its axis. -/
theorem mem_blk13 (t : Fin cfg13.N) (i : S50000x128.Idx) :
    i ∈ ((cfg13.win 2).blk t).view.set ↔ ∀ a : Fin 2, win13_2.index t a * S5000x128.size a ≤ (i a).val ∧ (i a).val < win13_2.index t a * S5000x128.size a + S5000x128.size a := by
  show i ∈ ((View.whole main_v72).slice (win13_2.rect t)).set ↔ _
  rw [View.set_slice_whole, Rect.mem_set_unit]
  exact Iff.rfl

/-- Row r of the array lies in the block of point r / 5000. -/
theorem cover13 (i : S50000x128.Idx) : ∃ t : Fin cfg13.N, (cfg13.win 2).flush t = true ∧ i ∈ ((cfg13.win 2).blk t).view.set := by
  have h0 : (i 0).val < 50000 := (i 0).isLt
  have h1 : (i 1).val < 128 := (i 1).isLt
  have hN : cfg13.N = 10 := N_13
  have ht : (i 0).val / 5000 < cfg13.N := by rw [hN]; omega
  obtain ⟨-, -, -, -, e4, e5⟩ := idx13 ⟨(i 0).val / 5000, ht⟩
  refine ⟨⟨(i 0).val / 5000, ht⟩, flush13_2 _, ?_⟩
  rw [mem_blk13]
  intro a
  match a with
  | ⟨0, _⟩ =>
    show win13_2.index ⟨(i 0).val / 5000, ht⟩ (0 : Fin 2) * 5000 ≤ (i 0).val ∧ (i 0).val < win13_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win13_2.index ⟨(i 0).val / 5000, ht⟩ (1 : Fin 2) * 128 ≤ (i 1).val ∧ (i 1).val < win13_2.index ⟨(i 0).val / 5000, ht⟩ (1 : Fin 2) * 128 + 128
    rw [e5]; omega

/-- After region 13, its output array is the row scaling of its two input arrays as the region finds them. -/
theorem final13 (V : (c : Dev nD) → (b : Ref sig .tc) → Buf (Elt Ideal) ((c : Thread nD τ).loc b)) (c : Dev nD) :
    (dat13 (F := Ideal) V c).arrAt 2 cfg13.N = Cert.Spec.scaleRows (V c (Pipeline.arrRef spec13 0)) (V c (Pipeline.arrRef spec13 1)) :=
  (dat13 (F := Ideal) V c).arrAt_eq_of_cover 2 _ (fun t _ => flushed13_eq V c t) cover13

/-! ### Region 16 -/

/-- The body's product at row p, column q of a block: the block's entry times the one entry of row p of the column block. -/
theorem pay16_apply (x : Vec Ideal S5000x128 .f32) (s : Vec Ideal S5000x1 .f32) (p : Fin 5000) (q : Fin 128) :
    k16_pay1 x s (ix2 p q) = x (ix2 p q) * s (ix2 p (0 : Fin 1)) := by
  unfold k16_pay1
  rw [mulf_apply, broadcastTo_a1_ab_apply]
  simp only [shapeCast_self]

/-- The three index maps over the grid: point t reads and writes block row t, block column 0. -/
theorem idx16 : ∀ t : Fin cfg16.N, win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0 :=
  (by decide +kernel : ∀ t : Fin grid16.N, _)

/-- What point t writes back is block t of the row scaling of the two arrays as the region finds them. -/
theorem flushed16_eq (V : (c : Dev nD) → (b : Ref sig .tc) → Buf (Elt Ideal) ((c : Thread nD τ).loc b)) (c : Dev nD) (t : Fin cfg16.N) :
    (dat16 (F := Ideal) V c).flushed 2 t = ((cfg16.win 2).blk t).view.read (Elt Ideal)
      (Cert.Spec.scaleRows (V c (Pipeline.arrRef spec16 0)) (V c (Pipeline.arrRef spec16 1))) := by
  show (cfg16.win 2).cut (grid16.coords t) ((dat16 V c).after 2 t) = _
  rw [after16_2]
  unfold out16_2
  rw [View.canon_unit_zero hz_rows]
  simp only [View.ld_unit_zero (S := S5000x128) hz_rows, View.ld_unit_zero (S := S5000x1) hz_rows]
  obtain ⟨e0, e1, e2, e3, e4, e5⟩ := idx16 t
  funext j
  obtain ⟨p, q, rfl⟩ : ∃ (p : Fin 5000) (q : Fin 128), j = ix2 p q := ⟨j 0, j 1, eq_ix2 j⟩
  refine (pay16_apply _ _ p q).trans ?_
  refine scaleRows_at (V c (Pipeline.arrRef spec16 0)) (V c (Pipeline.arrRef spec16 1))
    (((cfg16.win 0).blk t).view.emb (ix2 p q)) (((cfg16.win 2).blk t).view.emb (ix2 p q))
    (((cfg16.win 1).blk t).view.emb (ix2 p (0 : Fin 1))) ?_ ?_
  · funext a; apply Fin.ext
    match a with
    | ⟨0, _⟩ => show win16_0.index t (0 : Fin 2) * 5000 + 1 * p.val = win16_2.index t (0 : Fin 2) * 5000 + 1 * p.val; omega
    | ⟨1, _⟩ => show win16_0.index t (1 : Fin 2) * 128 + 1 * q.val = win16_2.index t (1 : Fin 2) * 128 + 1 * q.val; omega
  · show win16_1.index t (0 : Fin 2) * 5000 + 1 * p.val = win16_2.index t (0 : Fin 2) * 5000 + 1 * p.val; omega

/-- An index of the array is in point t's block iff each coordinate is in the block's range on its axis. -/
theorem mem_blk16 (t : Fin cfg16.N) (i : S50000x128.Idx) :
    i ∈ ((cfg16.win 2).blk t).view.set ↔ ∀ a : Fin 2, win16_2.index t a * S5000x128.size a ≤ (i a).val ∧ (i a).val < win16_2.index t a * S5000x128.size a + S5000x128.size a := by
  show i ∈ ((View.whole main_v85).slice (win16_2.rect t)).set ↔ _
  rw [View.set_slice_whole, Rect.mem_set_unit]
  exact Iff.rfl

/-- Row r of the array lies in the block of point r / 5000. -/
theorem cover16 (i : S50000x128.Idx) : ∃ t : Fin cfg16.N, (cfg16.win 2).flush t = true ∧ i ∈ ((cfg16.win 2).blk t).view.set := by
  have h0 : (i 0).val < 50000 := (i 0).isLt
  have h1 : (i 1).val < 128 := (i 1).isLt
  have hN : cfg16.N = 10 := N_16
  have ht : (i 0).val / 5000 < cfg16.N := by rw [hN]; omega
  obtain ⟨-, -, -, -, e4, e5⟩ := idx16 ⟨(i 0).val / 5000, ht⟩
  refine ⟨⟨(i 0).val / 5000, ht⟩, flush16_2 _, ?_⟩
  rw [mem_blk16]
  intro a
  match a with
  | ⟨0, _⟩ =>
    show win16_2.index ⟨(i 0).val / 5000, ht⟩ (0 : Fin 2) * 5000 ≤ (i 0).val ∧ (i 0).val < win16_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win16_2.index ⟨(i 0).val / 5000, ht⟩ (1 : Fin 2) * 128 ≤ (i 1).val ∧ (i 1).val < win16_2.index ⟨(i 0).val / 5000, ht⟩ (1 : Fin 2) * 128 + 128
    rw [e5]; omega

/-- After region 16, its output array is the row scaling of its two input arrays as the region finds them. -/
theorem final16 (V : (c : Dev nD) → (b : Ref sig .tc) → Buf (Elt Ideal) ((c : Thread nD τ).loc b)) (c : Dev nD) :
    (dat16 (F := Ideal) V c).arrAt 2 cfg16.N = Cert.Spec.scaleRows (V c (Pipeline.arrRef spec16 0)) (V c (Pipeline.arrRef spec16 1)) :=
  (dat16 (F := Ideal) V c).arrAt_eq_of_cover 2 _ (fun t _ => flushed16_eq V c t) cover16

/-! ### Region 19 -/

/-- The body's product at row p, column q of a block: the block's entry times the one entry of row p of the column block. -/
theorem pay19_apply (x : Vec Ideal S5000x128 .f32) (s : Vec Ideal S5000x1 .f32) (p : Fin 5000) (q : Fin 128) :
    k19_pay1 x s (ix2 p q) = x (ix2 p q) * s (ix2 p (0 : Fin 1)) := by
  unfold k19_pay1
  rw [mulf_apply, broadcastTo_a1_ab_apply]
  simp only [shapeCast_self]

/-- The three index maps over the grid: point t reads and writes block row t, block column 0. -/
theorem idx19 : ∀ t : Fin cfg19.N, win19_0.index t (0 : Fin 2) = t.val ∧ win19_0.index t (1 : Fin 2) = 0
    ∧ win19_1.index t (0 : Fin 2) = t.val ∧ win19_1.index t (1 : Fin 2) = 0
    ∧ win19_2.index t (0 : Fin 2) = t.val ∧ win19_2.index t (1 : Fin 2) = 0 :=
  (by decide +kernel : ∀ t : Fin grid19.N, _)

/-- What point t writes back is block t of the row scaling of the two arrays as the region finds them. -/
theorem flushed19_eq (V : (c : Dev nD) → (b : Ref sig .tc) → Buf (Elt Ideal) ((c : Thread nD τ).loc b)) (c : Dev nD) (t : Fin cfg19.N) :
    (dat19 (F := Ideal) V c).flushed 2 t = ((cfg19.win 2).blk t).view.read (Elt Ideal)
      (Cert.Spec.scaleRows (V c (Pipeline.arrRef spec19 0)) (V c (Pipeline.arrRef spec19 1))) := by
  show (cfg19.win 2).cut (grid19.coords t) ((dat19 V c).after 2 t) = _
  rw [after19_2]
  unfold out19_2
  rw [View.canon_unit_zero hz_rows]
  simp only [View.ld_unit_zero (S := S5000x128) hz_rows, View.ld_unit_zero (S := S5000x1) hz_rows]
  obtain ⟨e0, e1, e2, e3, e4, e5⟩ := idx19 t
  funext j
  obtain ⟨p, q, rfl⟩ : ∃ (p : Fin 5000) (q : Fin 128), j = ix2 p q := ⟨j 0, j 1, eq_ix2 j⟩
  refine (pay19_apply _ _ p q).trans ?_
  refine scaleRows_at (V c (Pipeline.arrRef spec19 0)) (V c (Pipeline.arrRef spec19 1))
    (((cfg19.win 0).blk t).view.emb (ix2 p q)) (((cfg19.win 2).blk t).view.emb (ix2 p q))
    (((cfg19.win 1).blk t).view.emb (ix2 p (0 : Fin 1))) ?_ ?_
  · funext a; apply Fin.ext
    match a with
    | ⟨0, _⟩ => show win19_0.index t (0 : Fin 2) * 5000 + 1 * p.val = win19_2.index t (0 : Fin 2) * 5000 + 1 * p.val; omega
    | ⟨1, _⟩ => show win19_0.index t (1 : Fin 2) * 128 + 1 * q.val = win19_2.index t (1 : Fin 2) * 128 + 1 * q.val; omega
  · show win19_1.index t (0 : Fin 2) * 5000 + 1 * p.val = win19_2.index t (0 : Fin 2) * 5000 + 1 * p.val; omega

/-- An index of the array is in point t's block iff each coordinate is in the block's range on its axis. -/
theorem mem_blk19 (t : Fin cfg19.N) (i : S50000x128.Idx) :
    i ∈ ((cfg19.win 2).blk t).view.set ↔ ∀ a : Fin 2, win19_2.index t a * S5000x128.size a ≤ (i a).val ∧ (i a).val < win19_2.index t a * S5000x128.size a + S5000x128.size a := by
  show i ∈ ((View.whole main_v98).slice (win19_2.rect t)).set ↔ _
  rw [View.set_slice_whole, Rect.mem_set_unit]
  exact Iff.rfl

/-- Row r of the array lies in the block of point r / 5000. -/
theorem cover19 (i : S50000x128.Idx) : ∃ t : Fin cfg19.N, (cfg19.win 2).flush t = true ∧ i ∈ ((cfg19.win 2).blk t).view.set := by
  have h0 : (i 0).val < 50000 := (i 0).isLt
  have h1 : (i 1).val < 128 := (i 1).isLt
  have hN : cfg19.N = 10 := N_19
  have ht : (i 0).val / 5000 < cfg19.N := by rw [hN]; omega
  obtain ⟨-, -, -, -, e4, e5⟩ := idx19 ⟨(i 0).val / 5000, ht⟩
  refine ⟨⟨(i 0).val / 5000, ht⟩, flush19_2 _, ?_⟩
  rw [mem_blk19]
  intro a
  match a with
  | ⟨0, _⟩ =>
    show win19_2.index ⟨(i 0).val / 5000, ht⟩ (0 : Fin 2) * 5000 ≤ (i 0).val ∧ (i 0).val < win19_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win19_2.index ⟨(i 0).val / 5000, ht⟩ (1 : Fin 2) * 128 ≤ (i 1).val ∧ (i 1).val < win19_2.index ⟨(i 0).val / 5000, ht⟩ (1 : Fin 2) * 128 + 128
    rw [e5]; omega

/-- After region 19, its output array is the row scaling of its two input arrays as the region finds them. -/
theorem final19 (V : (c : Dev nD) → (b : Ref sig .tc) → Buf (Elt Ideal) ((c : Thread nD τ).loc b)) (c : Dev nD) :
    (dat19 (F := Ideal) V c).arrAt 2 cfg19.N = Cert.Spec.scaleRows (V c (Pipeline.arrRef spec19 0)) (V c (Pipeline.arrRef spec19 1)) :=
  (dat19 (F := Ideal) V c).arrAt_eq_of_cover 2 _ (fun t _ => flushed19_eq V c t) cover19

/-! ### Region 22 -/

/-- The body's product at row p, column q of a block: the block's entry times the one entry of row p of the column block. -/
theorem pay22_apply (x : Vec Ideal S5000x128 .f32) (s : Vec Ideal S5000x1 .f32) (p : Fin 5000) (q : Fin 128) :
    k22_pay1 x s (ix2 p q) = x (ix2 p q) * s (ix2 p (0 : Fin 1)) := by
  unfold k22_pay1
  rw [mulf_apply, broadcastTo_a1_ab_apply]
  simp only [shapeCast_self]

/-- The three index maps over the grid: point t reads and writes block row t, block column 0. -/
theorem idx22 : ∀ t : Fin cfg22.N, win22_0.index t (0 : Fin 2) = t.val ∧ win22_0.index t (1 : Fin 2) = 0
    ∧ win22_1.index t (0 : Fin 2) = t.val ∧ win22_1.index t (1 : Fin 2) = 0
    ∧ win22_2.index t (0 : Fin 2) = t.val ∧ win22_2.index t (1 : Fin 2) = 0 :=
  (by decide +kernel : ∀ t : Fin grid22.N, _)

/-- What point t writes back is block t of the row scaling of the two arrays as the region finds them. -/
theorem flushed22_eq (V : (c : Dev nD) → (b : Ref sig .tc) → Buf (Elt Ideal) ((c : Thread nD τ).loc b)) (c : Dev nD) (t : Fin cfg22.N) :
    (dat22 (F := Ideal) V c).flushed 2 t = ((cfg22.win 2).blk t).view.read (Elt Ideal)
      (Cert.Spec.scaleRows (V c (Pipeline.arrRef spec22 0)) (V c (Pipeline.arrRef spec22 1))) := by
  show (cfg22.win 2).cut (grid22.coords t) ((dat22 V c).after 2 t) = _
  rw [after22_2]
  unfold out22_2
  rw [View.canon_unit_zero hz_rows]
  simp only [View.ld_unit_zero (S := S5000x128) hz_rows, View.ld_unit_zero (S := S5000x1) hz_rows]
  obtain ⟨e0, e1, e2, e3, e4, e5⟩ := idx22 t
  funext j
  obtain ⟨p, q, rfl⟩ : ∃ (p : Fin 5000) (q : Fin 128), j = ix2 p q := ⟨j 0, j 1, eq_ix2 j⟩
  refine (pay22_apply _ _ p q).trans ?_
  refine scaleRows_at (V c (Pipeline.arrRef spec22 0)) (V c (Pipeline.arrRef spec22 1))
    (((cfg22.win 0).blk t).view.emb (ix2 p q)) (((cfg22.win 2).blk t).view.emb (ix2 p q))
    (((cfg22.win 1).blk t).view.emb (ix2 p (0 : Fin 1))) ?_ ?_
  · funext a; apply Fin.ext
    match a with
    | ⟨0, _⟩ => show win22_0.index t (0 : Fin 2) * 5000 + 1 * p.val = win22_2.index t (0 : Fin 2) * 5000 + 1 * p.val; omega
    | ⟨1, _⟩ => show win22_0.index t (1 : Fin 2) * 128 + 1 * q.val = win22_2.index t (1 : Fin 2) * 128 + 1 * q.val; omega
  · show win22_1.index t (0 : Fin 2) * 5000 + 1 * p.val = win22_2.index t (0 : Fin 2) * 5000 + 1 * p.val; omega

/-- An index of the array is in point t's block iff each coordinate is in the block's range on its axis. -/
theorem mem_blk22 (t : Fin cfg22.N) (i : S50000x128.Idx) :
    i ∈ ((cfg22.win 2).blk t).view.set ↔ ∀ a : Fin 2, win22_2.index t a * S5000x128.size a ≤ (i a).val ∧ (i a).val < win22_2.index t a * S5000x128.size a + S5000x128.size a := by
  show i ∈ ((View.whole main_v111).slice (win22_2.rect t)).set ↔ _
  rw [View.set_slice_whole, Rect.mem_set_unit]
  exact Iff.rfl

/-- Row r of the array lies in the block of point r / 5000. -/
theorem cover22 (i : S50000x128.Idx) : ∃ t : Fin cfg22.N, (cfg22.win 2).flush t = true ∧ i ∈ ((cfg22.win 2).blk t).view.set := by
  have h0 : (i 0).val < 50000 := (i 0).isLt
  have h1 : (i 1).val < 128 := (i 1).isLt
  have hN : cfg22.N = 10 := N_22
  have ht : (i 0).val / 5000 < cfg22.N := by rw [hN]; omega
  obtain ⟨-, -, -, -, e4, e5⟩ := idx22 ⟨(i 0).val / 5000, ht⟩
  refine ⟨⟨(i 0).val / 5000, ht⟩, flush22_2 _, ?_⟩
  rw [mem_blk22]
  intro a
  match a with
  | ⟨0, _⟩ =>
    show win22_2.index ⟨(i 0).val / 5000, ht⟩ (0 : Fin 2) * 5000 ≤ (i 0).val ∧ (i 0).val < win22_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win22_2.index ⟨(i 0).val / 5000, ht⟩ (1 : Fin 2) * 128 ≤ (i 1).val ∧ (i 1).val < win22_2.index ⟨(i 0).val / 5000, ht⟩ (1 : Fin 2) * 128 + 128
    rw [e5]; omega

/-- After region 22, its output array is the row scaling of its two input arrays as the region finds them. -/
theorem final22 (V : (c : Dev nD) → (b : Ref sig .tc) → Buf (Elt Ideal) ((c : Thread nD τ).loc b)) (c : Dev nD) :
    (dat22 (F := Ideal) V c).arrAt 2 cfg22.N = Cert.Spec.scaleRows (V c (Pipeline.arrRef spec22 0)) (V c (Pipeline.arrRef spec22 1)) :=
  (dat22 (F := Ideal) V c).arrAt_eq_of_cover 2 _ (fun t _ => flushed22_eq V c t) cover22

end Cert.KernelIdeal.RegionValue

end
-- ==== Proof.RegionScaleE.lean ====
/- Eight regions each multiply every row of an 800000 × 128 array by the one entry of the same row of an
  800000 × 1 column, 125 blocks of 6400 rows at a time.
  Each region's output array after the region is shown to be ONE whole-array function of its two input arrays as
  the region finds them. Per region: the body's arithmetic read at an entry of a block; the index maps over the grid
  (point t reads and writes block row t); what point t writes back is block t of the whole-array function (an entry
  of block t sits at row t · rows-per-block + its row inside the block, same column); every row r of the array lies
  in the block of point r / rows-per-block; so the blocks cover the array and the array ends holding the function.
-/
import proofs.«172771_j21320217657536_1_alg».proof.Proof.Gen.KernelIdeal.Frame
import proofs.«172771_j21320217657536_1_alg».proof.Proof.Spec
import proofs.«172771_j21320217657536_1_alg».proof.Proof.LibKeepdims
import proofs.«172771_j21320217657536_1_alg».proof.Proof.LibBroadcastInDim
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable [Cert.ReferenceIdeal.Facts]

/-! ## Every row of an array times its own scale -/

theorem hz_edges : (![0, 0] : Fin 2 → Nat) = fun _ => 0 := funext fun a => by fin_cases a <;> rfl

/-- The row scaling of the whole array at row r, column q: the entry times the one entry of row r of the column. -/
theorem scaleEdges_apply (X : FVec Ideal S800000x128 .f32) (S : FVec Ideal S800000x1 .f32) (r : Fin 800000) (q : Fin 128) :
    Cert.Spec.scaleEdges X S (ix2 r q) = X (ix2 r q) * S (ix2 r (0 : Fin 1)) := by
  unfold Cert.Spec.scaleEdges
  rw [mulf_apply, broadcastInDim_a1_ab_apply]

/-- An entry of the array times the column's entry of the same row is the row scaling at that entry. -/
theorem scaleEdges_at (X : FVec Ideal S800000x128 .f32) (S : FVec Ideal S800000x1 .f32) (i0 i2 : S800000x128.Idx) (i1 : S800000x1.Idx)
    (h0 : i0 = i2) (h1 : (i1 0).val = (i2 0).val) : X i0 * S i1 = Cert.Spec.scaleEdges X S i2 := by
  subst h0
  obtain ⟨r, q, rfl⟩ : ∃ (r : Fin 800000) (q : Fin 128), i0 = ix2 r q := ⟨i0 0, i0 1, eq_ix2 i0⟩
  obtain ⟨r', u, rfl⟩ : ∃ (r' : Fin 800000) (u : Fin 1), i1 = ix2 r' u := ⟨i1 0, i1 1, eq_ix2 i1⟩
  obtain rfl : r' = r := Fin.ext h1
  obtain rfl : u = 0 := Subsingleton.elim _ _
  rw [scaleEdges_apply]

/-! ### Region 1 -/

/-- The body's product at row p, column q of a block: the block's entry times the one entry of row p of the column block. -/
theorem pay1_apply (x : Vec Ideal S6400x128 .f32) (s : Vec Ideal S6400x1 .f32) (p : Fin 6400) (q : Fin 128) :
    k1_pay1 x s (ix2 p q) = x (ix2 p q) * s (ix2 p (0 : Fin 1)) := by
  unfold k1_pay1
  rw [mulf_apply, broadcastTo_a1_ab_apply]
  simp only [shapeCast_self]

/-- The three index maps over the grid: point t reads and writes block row t, block column 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the row scaling of the two arrays as the region finds them. -/
theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal)
      (Cert.Spec.scaleEdges (V c (Pipeline.arrRef spec1 0)) (V c (Pipeline.arrRef spec1 1))) := by
  show (cfg1.win 2).cut (grid1.coords t) ((dat1 V c).after 2 t) = _
  rw [after1_2]
  unfold out1_2
  rw [View.canon_unit_zero hz_edges]
  simp only [View.ld_unit_zero (S := S6400x128) hz_edges, View.ld_unit_zero (S := S6400x1) hz_edges]
  obtain ⟨e0, e1, e2, e3, e4, e5⟩ := idx1 t
  funext j
  obtain ⟨p, q, rfl⟩ : ∃ (p : Fin 6400) (q : Fin 128), j = ix2 p q := ⟨j 0, j 1, eq_ix2 j⟩
  refine (pay1_apply _ _ p q).trans ?_
  refine scaleEdges_at (V c (Pipeline.arrRef spec1 0)) (V c (Pipeline.arrRef spec1 1))
    (((cfg1.win 0).blk t).view.emb (ix2 p q)) (((cfg1.win 2).blk t).view.emb (ix2 p q))
    (((cfg1.win 1).blk t).view.emb (ix2 p (0 : Fin 1))) ?_ ?_
  · funext a; apply Fin.ext
    match a with
    | ⟨0, _⟩ => show win1_0.index t (0 : Fin 2) * 6400 + 1 * p.val = win1_2.index t (0 : Fin 2) * 6400 + 1 * p.val; omega
    | ⟨1, _⟩ => show win1_0.index t (1 : Fin 2) * 128 + 1 * q.val = win1_2.index t (1 : Fin 2) * 128 + 1 * q.val; omega
  · show win1_1.index t (0 : Fin 2) * 6400 + 1 * p.val = win1_2.index t (0 : Fin 2) * 6400 + 1 * p.val; omega

/-- An index of the array is in point t's block iff each coordinate is in the block's range on its axis. -/
theorem mem_blk1 (t : Fin cfg1.N) (i : S800000x128.Idx) :
    i ∈ ((cfg1.win 2).blk t).view.set ↔ ∀ a : Fin 2, win1_2.index t a * S6400x128.size a ≤ (i a).val ∧ (i a).val < win1_2.index t a * S6400x128.size a + S6400x128.size a := by
  show i ∈ ((View.whole main_v19).slice (win1_2.rect t)).set ↔ _
  rw [View.set_slice_whole, Rect.mem_set_unit]
  exact Iff.rfl

/-- Row r of the array lies in the block of point r / 6400. -/
theorem cover1 (i : S800000x128.Idx) : ∃ t : Fin cfg1.N, (cfg1.win 2).flush t = true ∧ i ∈ ((cfg1.win 2).blk t).view.set := by
  have h0 : (i 0).val < 800000 := (i 0).isLt
  have h1 : (i 1).val < 128 := (i 1).isLt
  have hN : cfg1.N = 125 := N_1
  have ht : (i 0).val / 6400 < cfg1.N := by rw [hN]; omega
  obtain ⟨-, -, -, -, e4, e5⟩ := idx1 ⟨(i 0).val / 6400, ht⟩
  refine ⟨⟨(i 0).val / 6400, ht⟩, flush1_2 _, ?_⟩
  rw [mem_blk1]
  intro a
  match a with
  | ⟨0, _⟩ =>
    show win1_2.index ⟨(i 0).val / 6400, ht⟩ (0 : Fin 2) * 6400 ≤ (i 0).val ∧ (i 0).val < win1_2.index ⟨(i 0).val / 6400, ht⟩ (0 : Fin 2) * 6400 + 6400
    rw [e4]; show (i 0).val / 6400 * 6400 ≤ (i 0).val ∧ (i 0).val < (i 0).val / 6400 * 6400 + 6400; omega
  | ⟨1, _⟩ =>
    show win1_2.index ⟨(i 0).val / 6400, ht⟩ (1 : Fin 2) * 128 ≤ (i 1).val ∧ (i 1).val < win1_2.index ⟨(i 0).val / 6400, ht⟩ (1 : Fin 2) * 128 + 128
    rw [e5]; omega

/-- After region 1, its output array is the row scaling of its two input arrays as the region finds them. -/
theorem final1 (V : (c : Dev nD) → (b : Ref sig .tc) → Buf (Elt Ideal) ((c : Thread nD τ).loc b)) (c : Dev nD) :
    (dat1 (F := Ideal) V c).arrAt 2 cfg1.N = Cert.Spec.scaleEdges (V c (Pipeline.arrRef spec1 0)) (V c (Pipeline.arrRef spec1 1)) :=
  (dat1 (F := Ideal) V c).arrAt_eq_of_cover 2 _ (fun t _ => flushed1_eq V c t) cover1

/-! ### Region 4 -/

/-- The body's product at row p, column q of a block: the block's entry times the one entry of row p of the column block. -/
theorem pay4_apply (x : Vec Ideal S6400x128 .f32) (s : Vec Ideal S6400x1 .f32) (p : Fin 6400) (q : Fin 128) :
    k4_pay1 x s (ix2 p q) = x (ix2 p q) * s (ix2 p (0 : Fin 1)) := by
  unfold k4_pay1
  rw [mulf_apply, broadcastTo_a1_ab_apply]
  simp only [shapeCast_self]

/-- The three index maps over the grid: point t reads and writes block row t, block column 0. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the row scaling of the two arrays as the region finds them. -/
theorem flushed4_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal)
      (Cert.Spec.scaleEdges (V c (Pipeline.arrRef spec4 0)) (V c (Pipeline.arrRef spec4 1))) := by
  show (cfg4.win 2).cut (grid4.coords t) ((dat4 V c).after 2 t) = _
  rw [after4_2]
  unfold out4_2
  rw [View.canon_unit_zero hz_edges]
  simp only [View.ld_unit_zero (S := S6400x128) hz_edges, View.ld_unit_zero (S := S6400x1) hz_edges]
  obtain ⟨e0, e1, e2, e3, e4, e5⟩ := idx4 t
  funext j
  obtain ⟨p, q, rfl⟩ : ∃ (p : Fin 6400) (q : Fin 128), j = ix2 p q := ⟨j 0, j 1, eq_ix2 j⟩
  refine (pay4_apply _ _ p q).trans ?_
  refine scaleEdges_at (V c (Pipeline.arrRef spec4 0)) (V c (Pipeline.arrRef spec4 1))
    (((cfg4.win 0).blk t).view.emb (ix2 p q)) (((cfg4.win 2).blk t).view.emb (ix2 p q))
    (((cfg4.win 1).blk t).view.emb (ix2 p (0 : Fin 1))) ?_ ?_
  · funext a; apply Fin.ext
    match a with
    | ⟨0, _⟩ => show win4_0.index t (0 : Fin 2) * 6400 + 1 * p.val = win4_2.index t (0 : Fin 2) * 6400 + 1 * p.val; omega
    | ⟨1, _⟩ => show win4_0.index t (1 : Fin 2) * 128 + 1 * q.val = win4_2.index t (1 : Fin 2) * 128 + 1 * q.val; omega
  · show win4_1.index t (0 : Fin 2) * 6400 + 1 * p.val = win4_2.index t (0 : Fin 2) * 6400 + 1 * p.val; omega

/-- An index of the array is in point t's block iff each coordinate is in the block's range on its axis. -/
theorem mem_blk4 (t : Fin cfg4.N) (i : S800000x128.Idx) :
    i ∈ ((cfg4.win 2).blk t).view.set ↔ ∀ a : Fin 2, win4_2.index t a * S6400x128.size a ≤ (i a).val ∧ (i a).val < win4_2.index t a * S6400x128.size a + S6400x128.size a := by
  show i ∈ ((View.whole main_v32).slice (win4_2.rect t)).set ↔ _
  rw [View.set_slice_whole, Rect.mem_set_unit]
  exact Iff.rfl

/-- Row r of the array lies in the block of point r / 6400. -/
theorem cover4 (i : S800000x128.Idx) : ∃ t : Fin cfg4.N, (cfg4.win 2).flush t = true ∧ i ∈ ((cfg4.win 2).blk t).view.set := by
  have h0 : (i 0).val < 800000 := (i 0).isLt
  have h1 : (i 1).val < 128 := (i 1).isLt
  have hN : cfg4.N = 125 := N_4
  have ht : (i 0).val / 6400 < cfg4.N := by rw [hN]; omega
  obtain ⟨-, -, -, -, e4, e5⟩ := idx4 ⟨(i 0).val / 6400, ht⟩
  refine ⟨⟨(i 0).val / 6400, ht⟩, flush4_2 _, ?_⟩
  rw [mem_blk4]
  intro a
  match a with
  | ⟨0, _⟩ =>
    show win4_2.index ⟨(i 0).val / 6400, ht⟩ (0 : Fin 2) * 6400 ≤ (i 0).val ∧ (i 0).val < win4_2.index ⟨(i 0).val / 6400, ht⟩ (0 : Fin 2) * 6400 + 6400
    rw [e4]; show (i 0).val / 6400 * 6400 ≤ (i 0).val ∧ (i 0).val < (i 0).val / 6400 * 6400 + 6400; omega
  | ⟨1, _⟩ =>
    show win4_2.index ⟨(i 0).val / 6400, ht⟩ (1 : Fin 2) * 128 ≤ (i 1).val ∧ (i 1).val < win4_2.index ⟨(i 0).val / 6400, ht⟩ (1 : Fin 2) * 128 + 128
    rw [e5]; omega

/-- After region 4, its output array is the row scaling of its two input arrays as the region finds them. -/
theorem final4 (V : (c : Dev nD) → (b : Ref sig .tc) → Buf (Elt Ideal) ((c : Thread nD τ).loc b)) (c : Dev nD) :
    (dat4 (F := Ideal) V c).arrAt 2 cfg4.N = Cert.Spec.scaleEdges (V c (Pipeline.arrRef spec4 0)) (V c (Pipeline.arrRef spec4 1)) :=
  (dat4 (F := Ideal) V c).arrAt_eq_of_cover 2 _ (fun t _ => flushed4_eq V c t) cover4

/-! ### Region 7 -/

/-- The body's product at row p, column q of a block: the block's entry times the one entry of row p of the column block. -/
theorem pay7_apply (x : Vec Ideal S6400x128 .f32) (s : Vec Ideal S6400x1 .f32) (p : Fin 6400) (q : Fin 128) :
    k7_pay1 x s (ix2 p q) = x (ix2 p q) * s (ix2 p (0 : Fin 1)) := by
  unfold k7_pay1
  rw [mulf_apply, broadcastTo_a1_ab_apply]
  simp only [shapeCast_self]

/-- The three index maps over the grid: point t reads and writes block row t, block column 0. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point t writes back is block t of the row scaling of the two arrays as the region finds them. -/
theorem flushed7_eq (V : (c : Dev nD) → (b : Ref sig .tc) → Buf (Elt Ideal) ((c : Thread nD τ).loc b)) (c : Dev nD) (t : Fin cfg7.N) :
    (dat7 (F := Ideal) V c).flushed 2 t = ((cfg7.win 2).blk t).view.read (Elt Ideal)
      (Cert.Spec.scaleEdges (V c (Pipeline.arrRef spec7 0)) (V c (Pipeline.arrRef spec7 1))) := by
  show (cfg7.win 2).cut (grid7.coords t) ((dat7 V c).after 2 t) = _
  rw [after7_2]
  unfold out7_2
  rw [View.canon_unit_zero hz_edges]
  simp only [View.ld_unit_zero (S := S6400x128) hz_edges, View.ld_unit_zero (S := S6400x1) hz_edges]
  obtain ⟨e0, e1, e2, e3, e4, e5⟩ := idx7 t
  funext j
  obtain ⟨p, q, rfl⟩ : ∃ (p : Fin 6400) (q : Fin 128), j = ix2 p q := ⟨j 0, j 1, eq_ix2 j⟩
  refine (pay7_apply _ _ p q).trans ?_
  refine scaleEdges_at (V c (Pipeline.arrRef spec7 0)) (V c (Pipeline.arrRef spec7 1))
    (((cfg7.win 0).blk t).view.emb (ix2 p q)) (((cfg7.win 2).blk t).view.emb (ix2 p q))
    (((cfg7.win 1).blk t).view.emb (ix2 p (0 : Fin 1))) ?_ ?_
  · funext a; apply Fin.ext
    match a with
    | ⟨0, _⟩ => show win7_0.index t (0 : Fin 2) * 6400 + 1 * p.val = win7_2.index t (0 : Fin 2) * 6400 + 1 * p.val; omega
    | ⟨1, _⟩ => show win7_0.index t (1 : Fin 2) * 128 + 1 * q.val = win7_2.index t (1 : Fin 2) * 128 + 1 * q.val; omega
  · show win7_1.index t (0 : Fin 2) * 6400 + 1 * p.val = win7_2.index t (0 : Fin 2) * 6400 + 1 * p.val; omega

/-- An index of the array is in point t's block iff each coordinate is in the block's range on its axis. -/
theorem mem_blk7 (t : Fin cfg7.N) (i : S800000x128.Idx) :
    i ∈ ((cfg7.win 2).blk t).view.set ↔ ∀ a : Fin 2, win7_2.index t a * S6400x128.size a ≤ (i a).val ∧ (i a).val < win7_2.index t a * S6400x128.size a + S6400x128.size a := by
  show i ∈ ((View.whole main_v45).slice (win7_2.rect t)).set ↔ _
  rw [View.set_slice_whole, Rect.mem_set_unit]
  exact Iff.rfl

/-- Row r of the array lies in the block of point r / 6400. -/
theorem cover7 (i : S800000x128.Idx) : ∃ t : Fin cfg7.N, (cfg7.win 2).flush t = true ∧ i ∈ ((cfg7.win 2).blk t).view.set := by
  have h0 : (i 0).val < 800000 := (i 0).isLt
  have h1 : (i 1).val < 128 := (i 1).isLt
  have hN : cfg7.N = 125 := N_7
  have ht : (i 0).val / 6400 < cfg7.N := by rw [hN]; omega
  obtain ⟨-, -, -, -, e4, e5⟩ := idx7 ⟨(i 0).val / 6400, ht⟩
  refine ⟨⟨(i 0).val / 6400, ht⟩, flush7_2 _, ?_⟩
  rw [mem_blk7]
  intro a
  match a with
  | ⟨0, _⟩ =>
    show win7_2.index ⟨(i 0).val / 6400, ht⟩ (0 : Fin 2) * 6400 ≤ (i 0).val ∧ (i 0).val < win7_2.index ⟨(i 0).val / 6400, ht⟩ (0 : Fin 2) * 6400 + 6400
    rw [e4]; show (i 0).val / 6400 * 6400 ≤ (i 0).val ∧ (i 0).val < (i 0).val / 6400 * 6400 + 6400; omega
  | ⟨1, _⟩ =>
    show win7_2.index ⟨(i 0).val / 6400, ht⟩ (1 : Fin 2) * 128 ≤ (i 1).val ∧ (i 1).val < win7_2.index ⟨(i 0).val / 6400, ht⟩ (1 : Fin 2) * 128 + 128
    rw [e5]; omega

/-- After region 7, its output array is the row scaling of its two input arrays as the region finds them. -/
theorem final7 (V : (c : Dev nD) → (b : Ref sig .tc) → Buf (Elt Ideal) ((c : Thread nD τ).loc b)) (c : Dev nD) :
    (dat7 (F := Ideal) V c).arrAt 2 cfg7.N = Cert.Spec.scaleEdges (V c (Pipeline.arrRef spec7 0)) (V c (Pipeline.arrRef spec7 1)) :=
  (dat7 (F := Ideal) V c).arrAt_eq_of_cover 2 _ (fun t _ => flushed7_eq V c t) cover7

/-! ### Region 10 -/

/-- The body's product at row p, column q of a block: the block's entry times the one entry of row p of the column block. -/
theorem pay10_apply (x : Vec Ideal S6400x128 .f32) (s : Vec Ideal S6400x1 .f32) (p : Fin 6400) (q : Fin 128) :
    k10_pay1 x s (ix2 p q) = x (ix2 p q) * s (ix2 p (0 : Fin 1)) := by
  unfold k10_pay1
  rw [mulf_apply, broadcastTo_a1_ab_apply]
  simp only [shapeCast_self]

/-- The three index maps over the grid: point t reads and writes block row t, block column 0. -/
theorem idx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

/-- What point t writes back is block t of the row scaling of the two arrays as the region finds them. -/
theorem flushed10_eq (V : (c : Dev nD) → (b : Ref sig .tc) → Buf (Elt Ideal) ((c : Thread nD τ).loc b)) (c : Dev nD) (t : Fin cfg10.N) :
    (dat10 (F := Ideal) V c).flushed 2 t = ((cfg10.win 2).blk t).view.read (Elt Ideal)
      (Cert.Spec.scaleEdges (V c (Pipeline.arrRef spec10 0)) (V c (Pipeline.arrRef spec10 1))) := by
  show (cfg10.win 2).cut (grid10.coords t) ((dat10 V c).after 2 t) = _
  rw [after10_2]
  unfold out10_2
  rw [View.canon_unit_zero hz_edges]
  simp only [View.ld_unit_zero (S := S6400x128) hz_edges, View.ld_unit_zero (S := S6400x1) hz_edges]
  obtain ⟨e0, e1, e2, e3, e4, e5⟩ := idx10 t
  funext j
  obtain ⟨p, q, rfl⟩ : ∃ (p : Fin 6400) (q : Fin 128), j = ix2 p q := ⟨j 0, j 1, eq_ix2 j⟩
  refine (pay10_apply _ _ p q).trans ?_
  refine scaleEdges_at (V c (Pipeline.arrRef spec10 0)) (V c (Pipeline.arrRef spec10 1))
    (((cfg10.win 0).blk t).view.emb (ix2 p q)) (((cfg10.win 2).blk t).view.emb (ix2 p q))
    (((cfg10.win 1).blk t).view.emb (ix2 p (0 : Fin 1))) ?_ ?_
  · funext a; apply Fin.ext
    match a with
    | ⟨0, _⟩ => show win10_0.index t (0 : Fin 2) * 6400 + 1 * p.val = win10_2.index t (0 : Fin 2) * 6400 + 1 * p.val; omega
    | ⟨1, _⟩ => show win10_0.index t (1 : Fin 2) * 128 + 1 * q.val = win10_2.index t (1 : Fin 2) * 128 + 1 * q.val; omega
  · show win10_1.index t (0 : Fin 2) * 6400 + 1 * p.val = win10_2.index t (0 : Fin 2) * 6400 + 1 * p.val; omega

/-- An index of the array is in point t's block iff each coordinate is in the block's range on its axis. -/
theorem mem_blk10 (t : Fin cfg10.N) (i : S800000x128.Idx) :
    i ∈ ((cfg10.win 2).blk t).view.set ↔ ∀ a : Fin 2, win10_2.index t a * S6400x128.size a ≤ (i a).val ∧ (i a).val < win10_2.index t a * S6400x128.size a + S6400x128.size a := by
  show i ∈ ((View.whole main_v58).slice (win10_2.rect t)).set ↔ _
  rw [View.set_slice_whole, Rect.mem_set_unit]
  exact Iff.rfl

/-- Row r of the array lies in the block of point r / 6400. -/
theorem cover10 (i : S800000x128.Idx) : ∃ t : Fin cfg10.N, (cfg10.win 2).flush t = true ∧ i ∈ ((cfg10.win 2).blk t).view.set := by
  have h0 : (i 0).val < 800000 := (i 0).isLt
  have h1 : (i 1).val < 128 := (i 1).isLt
  have hN : cfg10.N = 125 := N_10
  have ht : (i 0).val / 6400 < cfg10.N := by rw [hN]; omega
  obtain ⟨-, -, -, -, e4, e5⟩ := idx10 ⟨(i 0).val / 6400, ht⟩
  refine ⟨⟨(i 0).val / 6400, ht⟩, flush10_2 _, ?_⟩
  rw [mem_blk10]
  intro a
  match a with
  | ⟨0, _⟩ =>
    show win10_2.index ⟨(i 0).val / 6400, ht⟩ (0 : Fin 2) * 6400 ≤ (i 0).val ∧ (i 0).val < win10_2.index ⟨(i 0).val / 6400, ht⟩ (0 : Fin 2) * 6400 + 6400
    rw [e4]; show (i 0).val / 6400 * 6400 ≤ (i 0).val ∧ (i 0).val < (i 0).val / 6400 * 6400 + 6400; omega
  | ⟨1, _⟩ =>
    show win10_2.index ⟨(i 0).val / 6400, ht⟩ (1 : Fin 2) * 128 ≤ (i 1).val ∧ (i 1).val < win10_2.index ⟨(i 0).val / 6400, ht⟩ (1 : Fin 2) * 128 + 128
    rw [e5]; omega

/-- After region 10, its output array is the row scaling of its two input arrays as the region finds them. -/
theorem final10 (V : (c : Dev nD) → (b : Ref sig .tc) → Buf (Elt Ideal) ((c : Thread nD τ).loc b)) (c : Dev nD) :
    (dat10 (F := Ideal) V c).arrAt 2 cfg10.N = Cert.Spec.scaleEdges (V c (Pipeline.arrRef spec10 0)) (V c (Pipeline.arrRef spec10 1)) :=
  (dat10 (F := Ideal) V c).arrAt_eq_of_cover 2 _ (fun t _ => flushed10_eq V c t) cover10

/-! ### Region 14 -/

/-- The body's product at row p, column q of a block: the block's entry times the one entry of row p of the column block. -/
theorem pay14_apply (x : Vec Ideal S6400x128 .f32) (s : Vec Ideal S6400x1 .f32) (p : Fin 6400) (q : Fin 128) :
    k14_pay1 x s (ix2 p q) = x (ix2 p q) * s (ix2 p (0 : Fin 1)) := by
  unfold k14_pay1
  rw [mulf_apply, broadcastTo_a1_ab_apply]
  simp only [shapeCast_self]

/-- The three index maps over the grid: point t reads and writes block row t, block column 0. -/
theorem idx14 : ∀ t : Fin cfg14.N, win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0 :=
  (by decide +kernel : ∀ t : Fin grid14.N, _)

/-- What point t writes back is block t of the row scaling of the two arrays as the region finds them. -/
theorem flushed14_eq (V : (c : Dev nD) → (b : Ref sig .tc) → Buf (Elt Ideal) ((c : Thread nD τ).loc b)) (c : Dev nD) (t : Fin cfg14.N) :
    (dat14 (F := Ideal) V c).flushed 2 t = ((cfg14.win 2).blk t).view.read (Elt Ideal)
      (Cert.Spec.scaleEdges (V c (Pipeline.arrRef spec14 0)) (V c (Pipeline.arrRef spec14 1))) := by
  show (cfg14.win 2).cut (grid14.coords t) ((dat14 V c).after 2 t) = _
  rw [after14_2]
  unfold out14_2
  rw [View.canon_unit_zero hz_edges]
  simp only [View.ld_unit_zero (S := S6400x128) hz_edges, View.ld_unit_zero (S := S6400x1) hz_edges]
  obtain ⟨e0, e1, e2, e3, e4, e5⟩ := idx14 t
  funext j
  obtain ⟨p, q, rfl⟩ : ∃ (p : Fin 6400) (q : Fin 128), j = ix2 p q := ⟨j 0, j 1, eq_ix2 j⟩
  refine (pay14_apply _ _ p q).trans ?_
  refine scaleEdges_at (V c (Pipeline.arrRef spec14 0)) (V c (Pipeline.arrRef spec14 1))
    (((cfg14.win 0).blk t).view.emb (ix2 p q)) (((cfg14.win 2).blk t).view.emb (ix2 p q))
    (((cfg14.win 1).blk t).view.emb (ix2 p (0 : Fin 1))) ?_ ?_
  · funext a; apply Fin.ext
    match a with
    | ⟨0, _⟩ => show win14_0.index t (0 : Fin 2) * 6400 + 1 * p.val = win14_2.index t (0 : Fin 2) * 6400 + 1 * p.val; omega
    | ⟨1, _⟩ => show win14_0.index t (1 : Fin 2) * 128 + 1 * q.val = win14_2.index t (1 : Fin 2) * 128 + 1 * q.val; omega
  · show win14_1.index t (0 : Fin 2) * 6400 + 1 * p.val = win14_2.index t (0 : Fin 2) * 6400 + 1 * p.val; omega

/-- An index of the array is in point t's block iff each coordinate is in the block's range on its axis. -/
theorem mem_blk14 (t : Fin cfg14.N) (i : S800000x128.Idx) :
    i ∈ ((cfg14.win 2).blk t).view.set ↔ ∀ a : Fin 2, win14_2.index t a * S6400x128.size a ≤ (i a).val ∧ (i a).val < win14_2.index t a * S6400x128.size a + S6400x128.size a := by
  show i ∈ ((View.whole main_v80).slice (win14_2.rect t)).set ↔ _
  rw [View.set_slice_whole, Rect.mem_set_unit]
  exact Iff.rfl

/-- Row r of the array lies in the block of point r / 6400. -/
theorem cover14 (i : S800000x128.Idx) : ∃ t : Fin cfg14.N, (cfg14.win 2).flush t = true ∧ i ∈ ((cfg14.win 2).blk t).view.set := by
  have h0 : (i 0).val < 800000 := (i 0).isLt
  have h1 : (i 1).val < 128 := (i 1).isLt
  have hN : cfg14.N = 125 := N_14
  have ht : (i 0).val / 6400 < cfg14.N := by rw [hN]; omega
  obtain ⟨-, -, -, -, e4, e5⟩ := idx14 ⟨(i 0).val / 6400, ht⟩
  refine ⟨⟨(i 0).val / 6400, ht⟩, flush14_2 _, ?_⟩
  rw [mem_blk14]
  intro a
  match a with
  | ⟨0, _⟩ =>
    show win14_2.index ⟨(i 0).val / 6400, ht⟩ (0 : Fin 2) * 6400 ≤ (i 0).val ∧ (i 0).val < win14_2.index ⟨(i 0).val / 6400, ht⟩ (0 : Fin 2) * 6400 + 6400
    rw [e4]; show (i 0).val / 6400 * 6400 ≤ (i 0).val ∧ (i 0).val < (i 0).val / 6400 * 6400 + 6400; omega
  | ⟨1, _⟩ =>
    show win14_2.index ⟨(i 0).val / 6400, ht⟩ (1 : Fin 2) * 128 ≤ (i 1).val ∧ (i 1).val < win14_2.index ⟨(i 0).val / 6400, ht⟩ (1 : Fin 2) * 128 + 128
    rw [e5]; omega

/-- After region 14, its output array is the row scaling of its two input arrays as the region finds them. -/
theorem final14 (V : (c : Dev nD) → (b : Ref sig .tc) → Buf (Elt Ideal) ((c : Thread nD τ).loc b)) (c : Dev nD) :
    (dat14 (F := Ideal) V c).arrAt 2 cfg14.N = Cert.Spec.scaleEdges (V c (Pipeline.arrRef spec14 0)) (V c (Pipeline.arrRef spec14 1)) :=
  (dat14 (F := Ideal) V c).arrAt_eq_of_cover 2 _ (fun t _ => flushed14_eq V c t) cover14

/-! ### Region 17 -/

/-- The body's product at row p, column q of a block: the block's entry times the one entry of row p of the column block. -/
theorem pay17_apply (x : Vec Ideal S6400x128 .f32) (s : Vec Ideal S6400x1 .f32) (p : Fin 6400) (q : Fin 128) :
    k17_pay1 x s (ix2 p q) = x (ix2 p q) * s (ix2 p (0 : Fin 1)) := by
  unfold k17_pay1
  rw [mulf_apply, broadcastTo_a1_ab_apply]
  simp only [shapeCast_self]

/-- The three index maps over the grid: point t reads and writes block row t, block column 0. -/
theorem idx17 : ∀ t : Fin cfg17.N, win17_0.index t (0 : Fin 2) = t.val ∧ win17_0.index t (1 : Fin 2) = 0
    ∧ win17_1.index t (0 : Fin 2) = t.val ∧ win17_1.index t (1 : Fin 2) = 0
    ∧ win17_2.index t (0 : Fin 2) = t.val ∧ win17_2.index t (1 : Fin 2) = 0 :=
  (by decide +kernel : ∀ t : Fin grid17.N, _)

/-- What point t writes back is block t of the row scaling of the two arrays as the region finds them. -/
theorem flushed17_eq (V : (c : Dev nD) → (b : Ref sig .tc) → Buf (Elt Ideal) ((c : Thread nD τ).loc b)) (c : Dev nD) (t : Fin cfg17.N) :
    (dat17 (F := Ideal) V c).flushed 2 t = ((cfg17.win 2).blk t).view.read (Elt Ideal)
      (Cert.Spec.scaleEdges (V c (Pipeline.arrRef spec17 0)) (V c (Pipeline.arrRef spec17 1))) := by
  show (cfg17.win 2).cut (grid17.coords t) ((dat17 V c).after 2 t) = _
  rw [after17_2]
  unfold out17_2
  rw [View.canon_unit_zero hz_edges]
  simp only [View.ld_unit_zero (S := S6400x128) hz_edges, View.ld_unit_zero (S := S6400x1) hz_edges]
  obtain ⟨e0, e1, e2, e3, e4, e5⟩ := idx17 t
  funext j
  obtain ⟨p, q, rfl⟩ : ∃ (p : Fin 6400) (q : Fin 128), j = ix2 p q := ⟨j 0, j 1, eq_ix2 j⟩
  refine (pay17_apply _ _ p q).trans ?_
  refine scaleEdges_at (V c (Pipeline.arrRef spec17 0)) (V c (Pipeline.arrRef spec17 1))
    (((cfg17.win 0).blk t).view.emb (ix2 p q)) (((cfg17.win 2).blk t).view.emb (ix2 p q))
    (((cfg17.win 1).blk t).view.emb (ix2 p (0 : Fin 1))) ?_ ?_
  · funext a; apply Fin.ext
    match a with
    | ⟨0, _⟩ => show win17_0.index t (0 : Fin 2) * 6400 + 1 * p.val = win17_2.index t (0 : Fin 2) * 6400 + 1 * p.val; omega
    | ⟨1, _⟩ => show win17_0.index t (1 : Fin 2) * 128 + 1 * q.val = win17_2.index t (1 : Fin 2) * 128 + 1 * q.val; omega
  · show win17_1.index t (0 : Fin 2) * 6400 + 1 * p.val = win17_2.index t (0 : Fin 2) * 6400 + 1 * p.val; omega

/-- An index of the array is in point t's block iff each coordinate is in the block's range on its axis. -/
theorem mem_blk17 (t : Fin cfg17.N) (i : S800000x128.Idx) :
    i ∈ ((cfg17.win 2).blk t).view.set ↔ ∀ a : Fin 2, win17_2.index t a * S6400x128.size a ≤ (i a).val ∧ (i a).val < win17_2.index t a * S6400x128.size a + S6400x128.size a := by
  show i ∈ ((View.whole main_v93).slice (win17_2.rect t)).set ↔ _
  rw [View.set_slice_whole, Rect.mem_set_unit]
  exact Iff.rfl

/-- Row r of the array lies in the block of point r / 6400. -/
theorem cover17 (i : S800000x128.Idx) : ∃ t : Fin cfg17.N, (cfg17.win 2).flush t = true ∧ i ∈ ((cfg17.win 2).blk t).view.set := by
  have h0 : (i 0).val < 800000 := (i 0).isLt
  have h1 : (i 1).val < 128 := (i 1).isLt
  have hN : cfg17.N = 125 := N_17
  have ht : (i 0).val / 6400 < cfg17.N := by rw [hN]; omega
  obtain ⟨-, -, -, -, e4, e5⟩ := idx17 ⟨(i 0).val / 6400, ht⟩
  refine ⟨⟨(i 0).val / 6400, ht⟩, flush17_2 _, ?_⟩
  rw [mem_blk17]
  intro a
  match a with
  | ⟨0, _⟩ =>
    show win17_2.index ⟨(i 0).val / 6400, ht⟩ (0 : Fin 2) * 6400 ≤ (i 0).val ∧ (i 0).val < win17_2.index ⟨(i 0).val / 6400, ht⟩ (0 : Fin 2) * 6400 + 6400
    rw [e4]; show (i 0).val / 6400 * 6400 ≤ (i 0).val ∧ (i 0).val < (i 0).val / 6400 * 6400 + 6400; omega
  | ⟨1, _⟩ =>
    show win17_2.index ⟨(i 0).val / 6400, ht⟩ (1 : Fin 2) * 128 ≤ (i 1).val ∧ (i 1).val < win17_2.index ⟨(i 0).val / 6400, ht⟩ (1 : Fin 2) * 128 + 128
    rw [e5]; omega

/-- After region 17, its output array is the row scaling of its two input arrays as the region finds them. -/
theorem final17 (V : (c : Dev nD) → (b : Ref sig .tc) → Buf (Elt Ideal) ((c : Thread nD τ).loc b)) (c : Dev nD) :
    (dat17 (F := Ideal) V c).arrAt 2 cfg17.N = Cert.Spec.scaleEdges (V c (Pipeline.arrRef spec17 0)) (V c (Pipeline.arrRef spec17 1)) :=
  (dat17 (F := Ideal) V c).arrAt_eq_of_cover 2 _ (fun t _ => flushed17_eq V c t) cover17

/-! ### Region 20 -/

/-- The body's product at row p, column q of a block: the block's entry times the one entry of row p of the column block. -/
theorem pay20_apply (x : Vec Ideal S6400x128 .f32) (s : Vec Ideal S6400x1 .f32) (p : Fin 6400) (q : Fin 128) :
    k20_pay1 x s (ix2 p q) = x (ix2 p q) * s (ix2 p (0 : Fin 1)) := by
  unfold k20_pay1
  rw [mulf_apply, broadcastTo_a1_ab_apply]
  simp only [shapeCast_self]

/-- The three index maps over the grid: point t reads and writes block row t, block column 0. -/
theorem idx20 : ∀ t : Fin cfg20.N, win20_0.index t (0 : Fin 2) = t.val ∧ win20_0.index t (1 : Fin 2) = 0
    ∧ win20_1.index t (0 : Fin 2) = t.val ∧ win20_1.index t (1 : Fin 2) = 0
    ∧ win20_2.index t (0 : Fin 2) = t.val ∧ win20_2.index t (1 : Fin 2) = 0 :=
  (by decide +kernel : ∀ t : Fin grid20.N, _)

/-- What point t writes back is block t of the row scaling of the two arrays as the region finds them. -/
theorem flushed20_eq (V : (c : Dev nD) → (b : Ref sig .tc) → Buf (Elt Ideal) ((c : Thread nD τ).loc b)) (c : Dev nD) (t : Fin cfg20.N) :
    (dat20 (F := Ideal) V c).flushed 2 t = ((cfg20.win 2).blk t).view.read (Elt Ideal)
      (Cert.Spec.scaleEdges (V c (Pipeline.arrRef spec20 0)) (V c (Pipeline.arrRef spec20 1))) := by
  show (cfg20.win 2).cut (grid20.coords t) ((dat20 V c).after 2 t) = _
  rw [after20_2]
  unfold out20_2
  rw [View.canon_unit_zero hz_edges]
  simp only [View.ld_unit_zero (S := S6400x128) hz_edges, View.ld_unit_zero (S := S6400x1) hz_edges]
  obtain ⟨e0, e1, e2, e3, e4, e5⟩ := idx20 t
  funext j
  obtain ⟨p, q, rfl⟩ : ∃ (p : Fin 6400) (q : Fin 128), j = ix2 p q := ⟨j 0, j 1, eq_ix2 j⟩
  refine (pay20_apply _ _ p q).trans ?_
  refine scaleEdges_at (V c (Pipeline.arrRef spec20 0)) (V c (Pipeline.arrRef spec20 1))
    (((cfg20.win 0).blk t).view.emb (ix2 p q)) (((cfg20.win 2).blk t).view.emb (ix2 p q))
    (((cfg20.win 1).blk t).view.emb (ix2 p (0 : Fin 1))) ?_ ?_
  · funext a; apply Fin.ext
    match a with
    | ⟨0, _⟩ => show win20_0.index t (0 : Fin 2) * 6400 + 1 * p.val = win20_2.index t (0 : Fin 2) * 6400 + 1 * p.val; omega
    | ⟨1, _⟩ => show win20_0.index t (1 : Fin 2) * 128 + 1 * q.val = win20_2.index t (1 : Fin 2) * 128 + 1 * q.val; omega
  · show win20_1.index t (0 : Fin 2) * 6400 + 1 * p.val = win20_2.index t (0 : Fin 2) * 6400 + 1 * p.val; omega

/-- An index of the array is in point t's block iff each coordinate is in the block's range on its axis. -/
theorem mem_blk20 (t : Fin cfg20.N) (i : S800000x128.Idx) :
    i ∈ ((cfg20.win 2).blk t).view.set ↔ ∀ a : Fin 2, win20_2.index t a * S6400x128.size a ≤ (i a).val ∧ (i a).val < win20_2.index t a * S6400x128.size a + S6400x128.size a := by
  show i ∈ ((View.whole main_v106).slice (win20_2.rect t)).set ↔ _
  rw [View.set_slice_whole, Rect.mem_set_unit]
  exact Iff.rfl

/-- Row r of the array lies in the block of point r / 6400. -/
theorem cover20 (i : S800000x128.Idx) : ∃ t : Fin cfg20.N, (cfg20.win 2).flush t = true ∧ i ∈ ((cfg20.win 2).blk t).view.set := by
  have h0 : (i 0).val < 800000 := (i 0).isLt
  have h1 : (i 1).val < 128 := (i 1).isLt
  have hN : cfg20.N = 125 := N_20
  have ht : (i 0).val / 6400 < cfg20.N := by rw [hN]; omega
  obtain ⟨-, -, -, -, e4, e5⟩ := idx20 ⟨(i 0).val / 6400, ht⟩
  refine ⟨⟨(i 0).val / 6400, ht⟩, flush20_2 _, ?_⟩
  rw [mem_blk20]
  intro a
  match a with
  | ⟨0, _⟩ =>
    show win20_2.index ⟨(i 0).val / 6400, ht⟩ (0 : Fin 2) * 6400 ≤ (i 0).val ∧ (i 0).val < win20_2.index ⟨(i 0).val / 6400, ht⟩ (0 : Fin 2) * 6400 + 6400
    rw [e4]; show (i 0).val / 6400 * 6400 ≤ (i 0).val ∧ (i 0).val < (i 0).val / 6400 * 6400 + 6400; omega
  | ⟨1, _⟩ =>
    show win20_2.index ⟨(i 0).val / 6400, ht⟩ (1 : Fin 2) * 128 ≤ (i 1).val ∧ (i 1).val < win20_2.index ⟨(i 0).val / 6400, ht⟩ (1 : Fin 2) * 128 + 128
    rw [e5]; omega

/-- After region 20, its output array is the row scaling of its two input arrays as the region finds them. -/
theorem final20 (V : (c : Dev nD) → (b : Ref sig .tc) → Buf (Elt Ideal) ((c : Thread nD τ).loc b)) (c : Dev nD) :
    (dat20 (F := Ideal) V c).arrAt 2 cfg20.N = Cert.Spec.scaleEdges (V c (Pipeline.arrRef spec20 0)) (V c (Pipeline.arrRef spec20 1)) :=
  (dat20 (F := Ideal) V c).arrAt_eq_of_cover 2 _ (fun t _ => flushed20_eq V c t) cover20

/-! ### Region 23 -/

/-- The body's product at row p, column q of a block: the block's entry times the one entry of row p of the column block. -/
theorem pay23_apply (x : Vec Ideal S6400x128 .f32) (s : Vec Ideal S6400x1 .f32) (p : Fin 6400) (q : Fin 128) :
    k23_pay1 x s (ix2 p q) = x (ix2 p q) * s (ix2 p (0 : Fin 1)) := by
  unfold k23_pay1
  rw [mulf_apply, broadcastTo_a1_ab_apply]
  simp only [shapeCast_self]

/-- The three index maps over the grid: point t reads and writes block row t, block column 0. -/
theorem idx23 : ∀ t : Fin cfg23.N, win23_0.index t (0 : Fin 2) = t.val ∧ win23_0.index t (1 : Fin 2) = 0
    ∧ win23_1.index t (0 : Fin 2) = t.val ∧ win23_1.index t (1 : Fin 2) = 0
    ∧ win23_2.index t (0 : Fin 2) = t.val ∧ win23_2.index t (1 : Fin 2) = 0 :=
  (by decide +kernel : ∀ t : Fin grid23.N, _)

/-- What point t writes back is block t of the row scaling of the two arrays as the region finds them. -/
theorem flushed23_eq (V : (c : Dev nD) → (b : Ref sig .tc) → Buf (Elt Ideal) ((c : Thread nD τ).loc b)) (c : Dev nD) (t : Fin cfg23.N) :
    (dat23 (F := Ideal) V c).flushed 2 t = ((cfg23.win 2).blk t).view.read (Elt Ideal)
      (Cert.Spec.scaleEdges (V c (Pipeline.arrRef spec23 0)) (V c (Pipeline.arrRef spec23 1))) := by
  show (cfg23.win 2).cut (grid23.coords t) ((dat23 V c).after 2 t) = _
  rw [after23_2]
  unfold out23_2
  rw [View.canon_unit_zero hz_edges]
  simp only [View.ld_unit_zero (S := S6400x128) hz_edges, View.ld_unit_zero (S := S6400x1) hz_edges]
  obtain ⟨e0, e1, e2, e3, e4, e5⟩ := idx23 t
  funext j
  obtain ⟨p, q, rfl⟩ : ∃ (p : Fin 6400) (q : Fin 128), j = ix2 p q := ⟨j 0, j 1, eq_ix2 j⟩
  refine (pay23_apply _ _ p q).trans ?_
  refine scaleEdges_at (V c (Pipeline.arrRef spec23 0)) (V c (Pipeline.arrRef spec23 1))
    (((cfg23.win 0).blk t).view.emb (ix2 p q)) (((cfg23.win 2).blk t).view.emb (ix2 p q))
    (((cfg23.win 1).blk t).view.emb (ix2 p (0 : Fin 1))) ?_ ?_
  · funext a; apply Fin.ext
    match a with
    | ⟨0, _⟩ => show win23_0.index t (0 : Fin 2) * 6400 + 1 * p.val = win23_2.index t (0 : Fin 2) * 6400 + 1 * p.val; omega
    | ⟨1, _⟩ => show win23_0.index t (1 : Fin 2) * 128 + 1 * q.val = win23_2.index t (1 : Fin 2) * 128 + 1 * q.val; omega
  · show win23_1.index t (0 : Fin 2) * 6400 + 1 * p.val = win23_2.index t (0 : Fin 2) * 6400 + 1 * p.val; omega

/-- An index of the array is in point t's block iff each coordinate is in the block's range on its axis. -/
theorem mem_blk23 (t : Fin cfg23.N) (i : S800000x128.Idx) :
    i ∈ ((cfg23.win 2).blk t).view.set ↔ ∀ a : Fin 2, win23_2.index t a * S6400x128.size a ≤ (i a).val ∧ (i a).val < win23_2.index t a * S6400x128.size a + S6400x128.size a := by
  show i ∈ ((View.whole main_v119).slice (win23_2.rect t)).set ↔ _
  rw [View.set_slice_whole, Rect.mem_set_unit]
  exact Iff.rfl

/-- Row r of the array lies in the block of point r / 6400. -/
theorem cover23 (i : S800000x128.Idx) : ∃ t : Fin cfg23.N, (cfg23.win 2).flush t = true ∧ i ∈ ((cfg23.win 2).blk t).view.set := by
  have h0 : (i 0).val < 800000 := (i 0).isLt
  have h1 : (i 1).val < 128 := (i 1).isLt
  have hN : cfg23.N = 125 := N_23
  have ht : (i 0).val / 6400 < cfg23.N := by rw [hN]; omega
  obtain ⟨-, -, -, -, e4, e5⟩ := idx23 ⟨(i 0).val / 6400, ht⟩
  refine ⟨⟨(i 0).val / 6400, ht⟩, flush23_2 _, ?_⟩
  rw [mem_blk23]
  intro a
  match a with
  | ⟨0, _⟩ =>
    show win23_2.index ⟨(i 0).val / 6400, ht⟩ (0 : Fin 2) * 6400 ≤ (i 0).val ∧ (i 0).val < win23_2.index ⟨(i 0).val / 6400, ht⟩ (0 : Fin 2) * 6400 + 6400
    rw [e4]; show (i 0).val / 6400 * 6400 ≤ (i 0).val ∧ (i 0).val < (i 0).val / 6400 * 6400 + 6400; omega
  | ⟨1, _⟩ =>
    show win23_2.index ⟨(i 0).val / 6400, ht⟩ (1 : Fin 2) * 128 ≤ (i 1).val ∧ (i 1).val < win23_2.index ⟨(i 0).val / 6400, ht⟩ (1 : Fin 2) * 128 + 128
    rw [e5]; omega

/-- After region 23, its output array is the row scaling of its two input arrays as the region finds them. -/
theorem final23 (V : (c : Dev nD) → (b : Ref sig .tc) → Buf (Elt Ideal) ((c : Thread nD τ).loc b)) (c : Dev nD) :
    (dat23 (F := Ideal) V c).arrAt 2 cfg23.N = Cert.Spec.scaleEdges (V c (Pipeline.arrRef spec23 0)) (V c (Pipeline.arrRef spec23 1)) :=
  (dat23 (F := Ideal) V c).arrAt_eq_of_cover 2 _ (fun t _ => flushed23_eq V c t) cover23

end Cert.KernelIdeal.RegionValue

end
-- ==== Proof.RegionMix.lean ====
/- Eight regions each form 0.9 · a + 0.1 · b of two 50000 × 128 arrays (the coefficients the single-precision
  numbers nearest 0.9 and 0.1), ten blocks of 5000 rows at a time.
  Each region's output array after the region is shown to be ONE whole-array function of its two input arrays as
  the region finds them. Per region: the body's arithmetic read at an entry of a block; the index maps over the grid
  (point t reads and writes block row t); what point t writes back is block t of the whole-array function (an entry
  of block t sits at row t · rows-per-block + its row inside the block, same column); every row r of the array lies
  in the block of point r / rows-per-block; so the blocks cover the array and the array ends holding the function.
-/
import proofs.«172771_j21320217657536_1_alg».proof.Proof.Gen.KernelIdeal.Frame
import proofs.«172771_j21320217657536_1_alg».proof.Proof.Spec
import proofs.«172771_j21320217657536_1_alg».proof.Proof.LibKeepdims
import proofs.«172771_j21320217657536_1_alg».proof.Proof.LibBroadcastInDim
import Idealize.ShloMosaic.Lib.Pipeline.Value
import Idealize.ShloMosaic.Lib.ValueIdx
import Idealize.ShloMosaic.Lib.IdealHost

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable [Cert.ReferenceIdeal.Facts]

/-! ## Nine tenths of one array plus one tenth of another -/

theorem hz_mix : (![0, 0] : Fin 2 → Nat) = fun _ => 0 := funext fun a => by fin_cases a <;> rfl

/-- The combination of the whole arrays at an index: the two entries times the two coefficients, added. -/
theorem mix_apply (A H : FVec Ideal S50000x128 .f32) (i : S50000x128.Idx) :
    Cert.Spec.mix A H i = A i * Ideal.ofBits .f32 0x3F666666#32 + H i * Ideal.ofBits .f32 0x3DCCCCCD#32 := by
  unfold Cert.Spec.mix
  rw [addf_apply, mulf_apply, mulf_apply, broadcastInDim_scalar_apply, broadcastInDim_scalar_apply, constant_apply, constant_apply]

/-- Entries of the two arrays at one index, combined, are the combination at that index. -/
theorem mix_at (A H : FVec Ideal S50000x128 .f32) (i0 i1 i2 : S50000x128.Idx) (h0 : i0 = i2) (h1 : i1 = i2) :
    A i0 * Ideal.ofBits .f32 0x3F666666#32 + H i1 * Ideal.ofBits .f32 0x3DCCCCCD#32 = Cert.Spec.mix A H i2 := by
  subst h0 h1
  rw [mix_apply]

/-! ### Region 2 -/

/-- The body's combination at an index of a block: the two blocks' entries times the two coefficients, added. -/
theorem pay2_apply (x y : Vec Ideal S5000x128 .f32) (j : S5000x128.Idx) :
    k2_pay1 x y j = x j * Ideal.ofBits .f32 0x3F666666#32 + y j * Ideal.ofBits .f32 0x3DCCCCCD#32 := by
  unfold k2_pay1
  rw [addf_apply, mulf_apply, mulf_apply, broadcast_apply, broadcast_apply]
  simp only [shapeCast_self]
  rfl

/-- The three index maps over the grid: point t reads and writes block row t, block column 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the combination of the two arrays as the region finds them. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal)
      (Cert.Spec.mix (V c (Pipeline.arrRef spec2 0)) (V c (Pipeline.arrRef spec2 1))) := by
  show (cfg2.win 2).cut (grid2.coords t) ((dat2 V c).after 2 t) = _
  rw [after2_2]
  unfold out2_2
  rw [View.canon_unit_zero hz_mix]
  simp only [View.ld_unit_zero (S := S5000x128) hz_mix]
  obtain ⟨e0, e1, e2, e3, e4, e5⟩ := idx2 t
  funext j
  refine (pay2_apply _ _ j).trans ?_
  refine mix_at (V c (Pipeline.arrRef spec2 0)) (V c (Pipeline.arrRef spec2 1))
    (((cfg2.win 0).blk t).view.emb j) (((cfg2.win 1).blk t).view.emb j) (((cfg2.win 2).blk t).view.emb j) ?_ ?_
  · funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  · funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega

/-- An index of the array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v23).slice (win2_2.rect t)).set ↔ _
  rw [View.set_slice_whole, Rect.mem_set_unit]
  exact Iff.rfl

/-- Row r of the array lies in the block of point r / 5000. -/
theorem cover2 (i : S50000x128.Idx) : ∃ t : Fin cfg2.N, (cfg2.win 2).flush t = true ∧ i ∈ ((cfg2.win 2).blk t).view.set := by
  have h0 : (i 0).val < 50000 := (i 0).isLt
  have h1 : (i 1).val < 128 := (i 1).isLt
  have hN : cfg2.N = 10 := N_2
  have ht : (i 0).val / 5000 < cfg2.N := by rw [hN]; omega
  obtain ⟨-, -, -, -, e4, e5⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]; omega

/-- After region 2, its output array is the combination of its two input arrays as the region finds them. -/
theorem final2 (V : (c : Dev nD) → (b : Ref sig .tc) → Buf (Elt Ideal) ((c : Thread nD τ).loc b)) (c : Dev nD) :
    (dat2 (F := Ideal) V c).arrAt 2 cfg2.N = Cert.Spec.mix (V c (Pipeline.arrRef spec2 0)) (V c (Pipeline.arrRef spec2 1)) :=
  (dat2 (F := Ideal) V c).arrAt_eq_of_cover 2 _ (fun t _ => flushed2_eq V c t) cover2

/-! ### Region 5 -/

/-- The body's combination at an index of a block: the two blocks' entries times the two coefficients, added. -/
theorem pay5_apply (x y : Vec Ideal S5000x128 .f32) (j : S5000x128.Idx) :
    k5_pay1 x y j = x j * Ideal.ofBits .f32 0x3F666666#32 + y j * Ideal.ofBits .f32 0x3DCCCCCD#32 := by
  unfold k5_pay1
  rw [addf_apply, mulf_apply, mulf_apply, broadcast_apply, broadcast_apply]
  simp only [shapeCast_self]
  rfl

/-- The three index maps over the grid: point t reads and writes block row t, block column 0. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point t writes back is block t of the combination of the two arrays as the region finds them. -/
theorem flushed5_eq (V : (c : Dev nD) → (b : Ref sig .tc) → Buf (Elt Ideal) ((c : Thread nD τ).loc b)) (c : Dev nD) (t : Fin cfg5.N) :
    (dat5 (F := Ideal) V c).flushed 2 t = ((cfg5.win 2).blk t).view.read (Elt Ideal)
      (Cert.Spec.mix (V c (Pipeline.arrRef spec5 0)) (V c (Pipeline.arrRef spec5 1))) := by
  show (cfg5.win 2).cut (grid5.coords t) ((dat5 V c).after 2 t) = _
  rw [after5_2]
  unfold out5_2
  rw [View.canon_unit_zero hz_mix]
  simp only [View.ld_unit_zero (S := S5000x128) hz_mix]
  obtain ⟨e0, e1, e2, e3, e4, e5⟩ := idx5 t
  funext j
  refine (pay5_apply _ _ j).trans ?_
  refine mix_at (V c (Pipeline.arrRef spec5 0)) (V c (Pipeline.arrRef spec5 1))
    (((cfg5.win 0).blk t).view.emb j) (((cfg5.win 1).blk t).view.emb j) (((cfg5.win 2).blk t).view.emb j) ?_ ?_
  · funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  · funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 128 + 1 * (j 1).val = win5_2.index t (1 : Fin 2) * 128 + 1 * (j 1).val; omega

/-- An index of the array is in point t's block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v36).slice (win5_2.rect t)).set ↔ _
  rw [View.set_slice_whole, Rect.mem_set_unit]
  exact Iff.rfl

/-- Row r of the array lies in the block of point r / 5000. -/
theorem cover5 (i : S50000x128.Idx) : ∃ t : Fin cfg5.N, (cfg5.win 2).flush t = true ∧ i ∈ ((cfg5.win 2).blk t).view.set := by
  have h0 : (i 0).val < 50000 := (i 0).isLt
  have h1 : (i 1).val < 128 := (i 1).isLt
  have hN : cfg5.N = 10 := N_5
  have ht : (i 0).val / 5000 < cfg5.N := by rw [hN]; omega
  obtain ⟨-, -, -, -, e4, e5⟩ := idx5 ⟨(i 0).val / 5000, ht⟩
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 128 ≤ (i 1).val ∧ (i 1).val < win5_2.index ⟨(i 0).val / 5000, ht⟩ (1 : Fin 2) * 128 + 128
    rw [e5]; omega

/-- After region 5, its output array is the combination of its two input arrays as the region finds them. -/
theorem final5 (V : (c : Dev nD) → (b : Ref sig .tc) → Buf (Elt Ideal) ((c : Thread nD τ).loc b)) (c : Dev nD) :
    (dat5 (F := Ideal) V c).arrAt 2 cfg5.N = Cert.Spec.mix (V c (Pipeline.arrRef spec5 0)) (V c (Pipeline.arrRef spec5 1)) :=
  (dat5 (F := Ideal) V c).arrAt_eq_of_cover 2 _ (fun t _ => flushed5_eq V c t) cover5

/-! ### Region 8 -/

/-- The body's combination at an index of a block: the two blocks' entries times the two coefficients, added. -/
theorem pay8_apply (x y : Vec Ideal S5000x128 .f32) (j : S5000x128.Idx) :
    k8_pay1 x y j = x j * Ideal.ofBits .f32 0x3F666666#32 + y j * Ideal.ofBits .f32 0x3DCCCCCD#32 := by
  unfold k8_pay1
  rw [addf_apply, mulf_apply, mulf_apply, broadcast_apply, broadcast_apply]
  simp only [shapeCast_self]
  rfl

/-- The three index maps over the grid: point t reads and writes block row t, block column 0. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- What point t writes back is block t of the combination of the two arrays as the region finds them. -/
theorem flushed8_eq (V : (c : Dev nD) → (b : Ref sig .tc) → Buf (Elt Ideal) ((c : Thread nD τ).loc b)) (c : Dev nD) (t : Fin cfg8.N) :
    (dat8 (F := Ideal) V c).flushed 2 t = ((cfg8.win 2).blk t).view.read (Elt Ideal)
      (Cert.Spec.mix (V c (Pipeline.arrRef spec8 0)) (V c (Pipeline.arrRef spec8 1))) := by
  show (cfg8.win 2).cut (grid8.coords t) ((dat8 V c).after 2 t) = _
  rw [after8_2]
  unfold out8_2
  rw [View.canon_unit_zero hz_mix]
  simp only [View.ld_unit_zero (S := S5000x128) hz_mix]
  obtain ⟨e0, e1, e2, e3, e4, e5⟩ := idx8 t
  funext j
  refine (pay8_apply _ _ j).trans ?_
  refine mix_at (V c (Pipeline.arrRef spec8 0)) (V c (Pipeline.arrRef spec8 1))
    (((cfg8.win 0).blk t).view.emb j) (((cfg8.win 1).blk t).view.emb j) (((cfg8.win 2).blk t).view.emb j) ?_ ?_
  · funext a; apply Fin.ext
    match a with
    | ⟨0, _⟩ => show win8_0.index t (0 : Fin 2) * 5000 + 1 * (j 0).val = win8_2.index t (0 : Fin 2) * 5000 + 1 * (j 0).val; omega
    | ⟨1, _⟩ => show win8_0.index t (1 : Fin 2) * 128 + 1 * (j 1).val = win8_2.index t (1 : Fin 2) * 128 + 1 * (j 1).val; omega
  · funext a; apply Fin.ext
    match a with
    | ⟨0, _⟩ => show win8_1.index t (0 : Fin 2) * 5000 + 1 * (j 0).val = win8_2.index t (0 : Fin 2) * 5000 + 1 * (j 0).val; omega
    | ⟨1, _⟩ => show win8_1.index t (1 : Fin 2) * 128 + 1 * (j 1).val = win8_2.index t (1 : Fin 2) * 128 + 1 * (j 1).val; omega

/-- An index of the array is in point t's block iff each coordinate is in the block's range on its axis. -/
theorem mem_blk8 (t : Fin cfg8.N) (i : S50000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v49).slice (win8_2.rect t)).set ↔ _
  rw [View.set_slice_whole, Rect.mem_set_unit]
  exact Iff.rfl

/-- Row r of the array lies in the block of point r / 5000. -/
theorem cover8 (i : S50000x128.Idx) : ∃ t : Fin cfg8.N, (cfg8.win 2).flush t = true ∧ i ∈ ((cfg8.win 2).blk t).view.set := by
  have h0 : (i 0).val < 50000 := (i 0).isLt
  have h1 : (i 1).val < 128 := (i 1).isLt
  have hN : cfg8.N = 10 := N_8
  have ht : (i 0).val / 5000 < cfg8.N := by rw [hN]; omega
  obtain ⟨-, -, -, -, e4, e5⟩ := idx8 ⟨(i 0).val / 5000, ht⟩
  refine ⟨⟨(i 0).val / 5000, ht⟩, flush8_2 _, ?_⟩
  rw [mem_blk8]
  intro a
  match a with
  | ⟨0, _⟩ =>
    show win8_2.index ⟨(i 0).val / 5000, ht⟩ (0 : Fin 2) * 5000 ≤ (i 0).val ∧ (i 0).val < win8_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win8_2.index ⟨(i 0).val / 5000, ht⟩ (1 : Fin 2) * 128 ≤ (i 1).val ∧ (i 1).val < win8_2.index ⟨(i 0).val / 5000, ht⟩ (1 : Fin 2) * 128 + 128
    rw [e5]; omega

/-- After region 8, its output array is the combination of its two input arrays as the region finds them. -/
theorem final8 (V : (c : Dev nD) → (b : Ref sig .tc) → Buf (Elt Ideal) ((c : Thread nD τ).loc b)) (c : Dev nD) :
    (dat8 (F := Ideal) V c).arrAt 2 cfg8.N = Cert.Spec.mix (V c (Pipeline.arrRef spec8 0)) (V c (Pipeline.arrRef spec8 1)) :=
  (dat8 (F := Ideal) V c).arrAt_eq_of_cover 2 _ (fun t _ => flushed8_eq V c t) cover8

/-! ### Region 11 -/

/-- The body's combination at an index of a block: the two blocks' entries times the two coefficients, added. -/
theorem pay11_apply (x y : Vec Ideal S5000x128 .f32) (j : S5000x128.Idx) :
    k11_pay1 x y j = x j * Ideal.ofBits .f32 0x3F666666#32 + y j * Ideal.ofBits .f32 0x3DCCCCCD#32 := by
  unfold k11_pay1
  rw [addf_apply, mulf_apply, mulf_apply, broadcast_apply, broadcast_apply]
  simp only [shapeCast_self]
  rfl

/-- The three index maps over the grid: point t reads and writes block row t, block column 0. -/
theorem idx11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0 :=
  (by decide +kernel : ∀ t : Fin grid11.N, _)

/-- What point t writes back is block t of the combination of the two arrays as the region finds them. -/
theorem flushed11_eq (V : (c : Dev nD) → (b : Ref sig .tc) → Buf (Elt Ideal) ((c : Thread nD τ).loc b)) (c : Dev nD) (t : Fin cfg11.N) :
    (dat11 (F := Ideal) V c).flushed 2 t = ((cfg11.win 2).blk t).view.read (Elt Ideal)
      (Cert.Spec.mix (V c (Pipeline.arrRef spec11 0)) (V c (Pipeline.arrRef spec11 1))) := by
  show (cfg11.win 2).cut (grid11.coords t) ((dat11 V c).after 2 t) = _
  rw [after11_2]
  unfold out11_2
  rw [View.canon_unit_zero hz_mix]
  simp only [View.ld_unit_zero (S := S5000x128) hz_mix]
  obtain ⟨e0, e1, e2, e3, e4, e5⟩ := idx11 t
  funext j
  refine (pay11_apply _ _ j).trans ?_
  refine mix_at (V c (Pipeline.arrRef spec11 0)) (V c (Pipeline.arrRef spec11 1))
    (((cfg11.win 0).blk t).view.emb j) (((cfg11.win 1).blk t).view.emb j) (((cfg11.win 2).blk t).view.emb j) ?_ ?_
  · funext a; apply Fin.ext
    match a with
    | ⟨0, _⟩ => show win11_0.index t (0 : Fin 2) * 5000 + 1 * (j 0).val = win11_2.index t (0 : Fin 2) * 5000 + 1 * (j 0).val; omega
    | ⟨1, _⟩ => show win11_0.index t (1 : Fin 2) * 128 + 1 * (j 1).val = win11_2.index t (1 : Fin 2) * 128 + 1 * (j 1).val; omega
  · funext a; apply Fin.ext
    match a with
    | ⟨0, _⟩ => show win11_1.index t (0 : Fin 2) * 5000 + 1 * (j 0).val = win11_2.index t (0 : Fin 2) * 5000 + 1 * (j 0).val; omega
    | ⟨1, _⟩ => show win11_1.index t (1 : Fin 2) * 128 + 1 * (j 1).val = win11_2.index t (1 : Fin 2) * 128 + 1 * (j 1).val; omega

/-- An index of the array is in point t's block iff each coordinate is in the block's range on its axis. -/
theorem mem_blk11 (t : Fin cfg11.N) (i : S50000x128.Idx) :
    i ∈ ((cfg11.win 2).blk t).view.set ↔ ∀ a : Fin 2, win11_2.index t a * S5000x128.size a ≤ (i a).val ∧ (i a).val < win11_2.index t a * S5000x128.size a + S5000x128.size a := by
  show i ∈ ((View.whole main_v62).slice (win11_2.rect t)).set ↔ _
  rw [View.set_slice_whole, Rect.mem_set_unit]
  exact Iff.rfl

/-- Row r of the array lies in the block of point r / 5000. -/
theorem cover11 (i : S50000x128.Idx) : ∃ t : Fin cfg11.N, (cfg11.win 2).flush t = true ∧ i ∈ ((cfg11.win 2).blk t).view.set := by
  have h0 : (i 0).val < 50000 := (i 0).isLt
  have h1 : (i 1).val < 128 := (i 1).isLt
  have hN : cfg11.N = 10 := N_11
  have ht : (i 0).val / 5000 < cfg11.N := by rw [hN]; omega
  obtain ⟨-, -, -, -, e4, e5⟩ := idx11 ⟨(i 0).val / 5000, ht⟩
  refine ⟨⟨(i 0).val / 5000, ht⟩, flush11_2 _, ?_⟩
  rw [mem_blk11]
  intro a
  match a with
  | ⟨0, _⟩ =>
    show win11_2.index ⟨(i 0).val / 5000, ht⟩ (0 : Fin 2) * 5000 ≤ (i 0).val ∧ (i 0).val < win11_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win11_2.index ⟨(i 0).val / 5000, ht⟩ (1 : Fin 2) * 128 ≤ (i 1).val ∧ (i 1).val < win11_2.index ⟨(i 0).val / 5000, ht⟩ (1 : Fin 2) * 128 + 128
    rw [e5]; omega

/-- After region 11, its output array is the combination of its two input arrays as the region finds them. -/
theorem final11 (V : (c : Dev nD) → (b : Ref sig .tc) → Buf (Elt Ideal) ((c : Thread nD τ).loc b)) (c : Dev nD) :
    (dat11 (F := Ideal) V c).arrAt 2 cfg11.N = Cert.Spec.mix (V c (Pipeline.arrRef spec11 0)) (V c (Pipeline.arrRef spec11 1)) :=
  (dat11 (F := Ideal) V c).arrAt_eq_of_cover 2 _ (fun t _ => flushed11_eq V c t) cover11

/-! ### Region 15 -/

/-- The body's combination at an index of a block: the two blocks' entries times the two coefficients, added. -/
theorem pay15_apply (x y : Vec Ideal S5000x128 .f32) (j : S5000x128.Idx) :
    k15_pay1 x y j = x j * Ideal.ofBits .f32 0x3F666666#32 + y j * Ideal.ofBits .f32 0x3DCCCCCD#32 := by
  unfold k15_pay1
  rw [addf_apply, mulf_apply, mulf_apply, broadcast_apply, broadcast_apply]
  simp only [shapeCast_self]
  rfl

/-- The three index maps over the grid: point t reads and writes block row t, block column 0. -/
theorem idx15 : ∀ t : Fin cfg15.N, win15_0.index t (0 : Fin 2) = t.val ∧ win15_0.index t (1 : Fin 2) = 0
    ∧ win15_1.index t (0 : Fin 2) = t.val ∧ win15_1.index t (1 : Fin 2) = 0
    ∧ win15_2.index t (0 : Fin 2) = t.val ∧ win15_2.index t (1 : Fin 2) = 0 :=
  (by decide +kernel : ∀ t : Fin grid15.N, _)

/-- What point t writes back is block t of the combination of the two arrays as the region finds them. -/
theorem flushed15_eq (V : (c : Dev nD) → (b : Ref sig .tc) → Buf (Elt Ideal) ((c : Thread nD τ).loc b)) (c : Dev nD) (t : Fin cfg15.N) :
    (dat15 (F := Ideal) V c).flushed 2 t = ((cfg15.win 2).blk t).view.read (Elt Ideal)
      (Cert.Spec.mix (V c (Pipeline.arrRef spec15 0)) (V c (Pipeline.arrRef spec15 1))) := by
  show (cfg15.win 2).cut (grid15.coords t) ((dat15 V c).after 2 t) = _
  rw [after15_2]
  unfold out15_2
  rw [View.canon_unit_zero hz_mix]
  simp only [View.ld_unit_zero (S := S5000x128) hz_mix]
  obtain ⟨e0, e1, e2, e3, e4, e5⟩ := idx15 t
  funext j
  refine (pay15_apply _ _ j).trans ?_
  refine mix_at (V c (Pipeline.arrRef spec15 0)) (V c (Pipeline.arrRef spec15 1))
    (((cfg15.win 0).blk t).view.emb j) (((cfg15.win 1).blk t).view.emb j) (((cfg15.win 2).blk t).view.emb j) ?_ ?_
  · funext a; apply Fin.ext
    match a with
    | ⟨0, _⟩ => show win15_0.index t (0 : Fin 2) * 5000 + 1 * (j 0).val = win15_2.index t (0 : Fin 2) * 5000 + 1 * (j 0).val; omega
    | ⟨1, _⟩ => show win15_0.index t (1 : Fin 2) * 128 + 1 * (j 1).val = win15_2.index t (1 : Fin 2) * 128 + 1 * (j 1).val; omega
  · funext a; apply Fin.ext
    match a with
    | ⟨0, _⟩ => show win15_1.index t (0 : Fin 2) * 5000 + 1 * (j 0).val = win15_2.index t (0 : Fin 2) * 5000 + 1 * (j 0).val; omega
    | ⟨1, _⟩ => show win15_1.index t (1 : Fin 2) * 128 + 1 * (j 1).val = win15_2.index t (1 : Fin 2) * 128 + 1 * (j 1).val; omega

/-- An index of the array is in point t's block iff each coordinate is in the block's range on its axis. -/
theorem mem_blk15 (t : Fin cfg15.N) (i : S50000x128.Idx) :
    i ∈ ((cfg15.win 2).blk t).view.set ↔ ∀ a : Fin 2, win15_2.index t a * S5000x128.size a ≤ (i a).val ∧ (i a).val < win15_2.index t a * S5000x128.size a + S5000x128.size a := by
  show i ∈ ((View.whole main_v84).slice (win15_2.rect t)).set ↔ _
  rw [View.set_slice_whole, Rect.mem_set_unit]
  exact Iff.rfl

/-- Row r of the array lies in the block of point r / 5000. -/
theorem cover15 (i : S50000x128.Idx) : ∃ t : Fin cfg15.N, (cfg15.win 2).flush t = true ∧ i ∈ ((cfg15.win 2).blk t).view.set := by
  have h0 : (i 0).val < 50000 := (i 0).isLt
  have h1 : (i 1).val < 128 := (i 1).isLt
  have hN : cfg15.N = 10 := N_15
  have ht : (i 0).val / 5000 < cfg15.N := by rw [hN]; omega
  obtain ⟨-, -, -, -, e4, e5⟩ := idx15 ⟨(i 0).val / 5000, ht⟩
  refine ⟨⟨(i 0).val / 5000, ht⟩, flush15_2 _, ?_⟩
  rw [mem_blk15]
  intro a
  match a with
  | ⟨0, _⟩ =>
    show win15_2.index ⟨(i 0).val / 5000, ht⟩ (0 : Fin 2) * 5000 ≤ (i 0).val ∧ (i 0).val < win15_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win15_2.index ⟨(i 0).val / 5000, ht⟩ (1 : Fin 2) * 128 ≤ (i 1).val ∧ (i 1).val < win15_2.index ⟨(i 0).val / 5000, ht⟩ (1 : Fin 2) * 128 + 128
    rw [e5]; omega

/-- After region 15, its output array is the combination of its two input arrays as the region finds them. -/
theorem final15 (V : (c : Dev nD) → (b : Ref sig .tc) → Buf (Elt Ideal) ((c : Thread nD τ).loc b)) (c : Dev nD) :
    (dat15 (F := Ideal) V c).arrAt 2 cfg15.N = Cert.Spec.mix (V c (Pipeline.arrRef spec15 0)) (V c (Pipeline.arrRef spec15 1)) :=
  (dat15 (F := Ideal) V c).arrAt_eq_of_cover 2 _ (fun t _ => flushed15_eq V c t) cover15

/-! ### Region 18 -/

/-- The body's combination at an index of a block: the two blocks' entries times the two coefficients, added. -/
theorem pay18_apply (x y : Vec Ideal S5000x128 .f32) (j : S5000x128.Idx) :
    k18_pay1 x y j = x j * Ideal.ofBits .f32 0x3F666666#32 + y j * Ideal.ofBits .f32 0x3DCCCCCD#32 := by
  unfold k18_pay1
  rw [addf_apply, mulf_apply, mulf_apply, broadcast_apply, broadcast_apply]
  simp only [shapeCast_self]
  rfl

/-- The three index maps over the grid: point t reads and writes block row t, block column 0. -/
theorem idx18 : ∀ t : Fin cfg18.N, win18_0.index t (0 : Fin 2) = t.val ∧ win18_0.index t (1 : Fin 2) = 0
    ∧ win18_1.index t (0 : Fin 2) = t.val ∧ win18_1.index t (1 : Fin 2) = 0
    ∧ win18_2.index t (0 : Fin 2) = t.val ∧ win18_2.index t (1 : Fin 2) = 0 :=
  (by decide +kernel : ∀ t : Fin grid18.N, _)

/-- What point t writes back is block t of the combination of the two arrays as the region finds them. -/
theorem flushed18_eq (V : (c : Dev nD) → (b : Ref sig .tc) → Buf (Elt Ideal) ((c : Thread nD τ).loc b)) (c : Dev nD) (t : Fin cfg18.N) :
    (dat18 (F := Ideal) V c).flushed 2 t = ((cfg18.win 2).blk t).view.read (Elt Ideal)
      (Cert.Spec.mix (V c (Pipeline.arrRef spec18 0)) (V c (Pipeline.arrRef spec18 1))) := by
  show (cfg18.win 2).cut (grid18.coords t) ((dat18 V c).after 2 t) = _
  rw [after18_2]
  unfold out18_2
  rw [View.canon_unit_zero hz_mix]
  simp only [View.ld_unit_zero (S := S5000x128) hz_mix]
  obtain ⟨e0, e1, e2, e3, e4, e5⟩ := idx18 t
  funext j
  refine (pay18_apply _ _ j).trans ?_
  refine mix_at (V c (Pipeline.arrRef spec18 0)) (V c (Pipeline.arrRef spec18 1))
    (((cfg18.win 0).blk t).view.emb j) (((cfg18.win 1).blk t).view.emb j) (((cfg18.win 2).blk t).view.emb j) ?_ ?_
  · funext a; apply Fin.ext
    match a with
    | ⟨0, _⟩ => show win18_0.index t (0 : Fin 2) * 5000 + 1 * (j 0).val = win18_2.index t (0 : Fin 2) * 5000 + 1 * (j 0).val; omega
    | ⟨1, _⟩ => show win18_0.index t (1 : Fin 2) * 128 + 1 * (j 1).val = win18_2.index t (1 : Fin 2) * 128 + 1 * (j 1).val; omega
  · funext a; apply Fin.ext
    match a with
    | ⟨0, _⟩ => show win18_1.index t (0 : Fin 2) * 5000 + 1 * (j 0).val = win18_2.index t (0 : Fin 2) * 5000 + 1 * (j 0).val; omega
    | ⟨1, _⟩ => show win18_1.index t (1 : Fin 2) * 128 + 1 * (j 1).val = win18_2.index t (1 : Fin 2) * 128 + 1 * (j 1).val; omega

/-- An index of the array is in point t's block iff each coordinate is in the block's range on its axis. -/
theorem mem_blk18 (t : Fin cfg18.N) (i : S50000x128.Idx) :
    i ∈ ((cfg18.win 2).blk t).view.set ↔ ∀ a : Fin 2, win18_2.index t a * S5000x128.size a ≤ (i a).val ∧ (i a).val < win18_2.index t a * S5000x128.size a + S5000x128.size a := by
  show i ∈ ((View.whole main_v97).slice (win18_2.rect t)).set ↔ _
  rw [View.set_slice_whole, Rect.mem_set_unit]
  exact Iff.rfl

/-- Row r of the array lies in the block of point r / 5000. -/
theorem cover18 (i : S50000x128.Idx) : ∃ t : Fin cfg18.N, (cfg18.win 2).flush t = true ∧ i ∈ ((cfg18.win 2).blk t).view.set := by
  have h0 : (i 0).val < 50000 := (i 0).isLt
  have h1 : (i 1).val < 128 := (i 1).isLt
  have hN : cfg18.N = 10 := N_18
  have ht : (i 0).val / 5000 < cfg18.N := by rw [hN]; omega
  obtain ⟨-, -, -, -, e4, e5⟩ := idx18 ⟨(i 0).val / 5000, ht⟩
  refine ⟨⟨(i 0).val / 5000, ht⟩, flush18_2 _, ?_⟩
  rw [mem_blk18]
  intro a
  match a with
  | ⟨0, _⟩ =>
    show win18_2.index ⟨(i 0).val / 5000, ht⟩ (0 : Fin 2) * 5000 ≤ (i 0).val ∧ (i 0).val < win18_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win18_2.index ⟨(i 0).val / 5000, ht⟩ (1 : Fin 2) * 128 ≤ (i 1).val ∧ (i 1).val < win18_2.index ⟨(i 0).val / 5000, ht⟩ (1 : Fin 2) * 128 + 128
    rw [e5]; omega

/-- After region 18, its output array is the combination of its two input arrays as the region finds them. -/
theorem final18 (V : (c : Dev nD) → (b : Ref sig .tc) → Buf (Elt Ideal) ((c : Thread nD τ).loc b)) (c : Dev nD) :
    (dat18 (F := Ideal) V c).arrAt 2 cfg18.N = Cert.Spec.mix (V c (Pipeline.arrRef spec18 0)) (V c (Pipeline.arrRef spec18 1)) :=
  (dat18 (F := Ideal) V c).arrAt_eq_of_cover 2 _ (fun t _ => flushed18_eq V c t) cover18

/-! ### Region 21 -/

/-- The body's combination at an index of a block: the two blocks' entries times the two coefficients, added. -/
theorem pay21_apply (x y : Vec Ideal S5000x128 .f32) (j : S5000x128.Idx) :
    k21_pay1 x y j = x j * Ideal.ofBits .f32 0x3F666666#32 + y j * Ideal.ofBits .f32 0x3DCCCCCD#32 := by
  unfold k21_pay1
  rw [addf_apply, mulf_apply, mulf_apply, broadcast_apply, broadcast_apply]
  simp only [shapeCast_self]
  rfl

/-- The three index maps over the grid: point t reads and writes block row t, block column 0. -/
theorem idx21 : ∀ t : Fin cfg21.N, win21_0.index t (0 : Fin 2) = t.val ∧ win21_0.index t (1 : Fin 2) = 0
    ∧ win21_1.index t (0 : Fin 2) = t.val ∧ win21_1.index t (1 : Fin 2) = 0
    ∧ win21_2.index t (0 : Fin 2) = t.val ∧ win21_2.index t (1 : Fin 2) = 0 :=
  (by decide +kernel : ∀ t : Fin grid21.N, _)

/-- What point t writes back is block t of the combination of the two arrays as the region finds them. -/
theorem flushed21_eq (V : (c : Dev nD) → (b : Ref sig .tc) → Buf (Elt Ideal) ((c : Thread nD τ).loc b)) (c : Dev nD) (t : Fin cfg21.N) :
    (dat21 (F := Ideal) V c).flushed 2 t = ((cfg21.win 2).blk t).view.read (Elt Ideal)
      (Cert.Spec.mix (V c (Pipeline.arrRef spec21 0)) (V c (Pipeline.arrRef spec21 1))) := by
  show (cfg21.win 2).cut (grid21.coords t) ((dat21 V c).after 2 t) = _
  rw [after21_2]
  unfold out21_2
  rw [View.canon_unit_zero hz_mix]
  simp only [View.ld_unit_zero (S := S5000x128) hz_mix]
  obtain ⟨e0, e1, e2, e3, e4, e5⟩ := idx21 t
  funext j
  refine (pay21_apply _ _ j).trans ?_
  refine mix_at (V c (Pipeline.arrRef spec21 0)) (V c (Pipeline.arrRef spec21 1))
    (((cfg21.win 0).blk t).view.emb j) (((cfg21.win 1).blk t).view.emb j) (((cfg21.win 2).blk t).view.emb j) ?_ ?_
  · funext a; apply Fin.ext
    match a with
    | ⟨0, _⟩ => show win21_0.index t (0 : Fin 2) * 5000 + 1 * (j 0).val = win21_2.index t (0 : Fin 2) * 5000 + 1 * (j 0).val; omega
    | ⟨1, _⟩ => show win21_0.index t (1 : Fin 2) * 128 + 1 * (j 1).val = win21_2.index t (1 : Fin 2) * 128 + 1 * (j 1).val; omega
  · funext a; apply Fin.ext
    match a with
    | ⟨0, _⟩ => show win21_1.index t (0 : Fin 2) * 5000 + 1 * (j 0).val = win21_2.index t (0 : Fin 2) * 5000 + 1 * (j 0).val; omega
    | ⟨1, _⟩ => show win21_1.index t (1 : Fin 2) * 128 + 1 * (j 1).val = win21_2.index t (1 : Fin 2) * 128 + 1 * (j 1).val; omega

/-- An index of the array is in point t's block iff each coordinate is in the block's range on its axis. -/
theorem mem_blk21 (t : Fin cfg21.N) (i : S50000x128.Idx) :
    i ∈ ((cfg21.win 2).blk t).view.set ↔ ∀ a : Fin 2, win21_2.index t a * S5000x128.size a ≤ (i a).val ∧ (i a).val < win21_2.index t a * S5000x128.size a + S5000x128.size a := by
  show i ∈ ((View.whole main_v110).slice (win21_2.rect t)).set ↔ _
  rw [View.set_slice_whole, Rect.mem_set_unit]
  exact Iff.rfl

/-- Row r of the array lies in the block of point r / 5000. -/
theorem cover21 (i : S50000x128.Idx) : ∃ t : Fin cfg21.N, (cfg21.win 2).flush t = true ∧ i ∈ ((cfg21.win 2).blk t).view.set := by
  have h0 : (i 0).val < 50000 := (i 0).isLt
  have h1 : (i 1).val < 128 := (i 1).isLt
  have hN : cfg21.N = 10 := N_21
  have ht : (i 0).val / 5000 < cfg21.N := by rw [hN]; omega
  obtain ⟨-, -, -, -, e4, e5⟩ := idx21 ⟨(i 0).val / 5000, ht⟩
  refine ⟨⟨(i 0).val / 5000, ht⟩, flush21_2 _, ?_⟩
  rw [mem_blk21]
  intro a
  match a with
  | ⟨0, _⟩ =>
    show win21_2.index ⟨(i 0).val / 5000, ht⟩ (0 : Fin 2) * 5000 ≤ (i 0).val ∧ (i 0).val < win21_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win21_2.index ⟨(i 0).val / 5000, ht⟩ (1 : Fin 2) * 128 ≤ (i 1).val ∧ (i 1).val < win21_2.index ⟨(i 0).val / 5000, ht⟩ (1 : Fin 2) * 128 + 128
    rw [e5]; omega

/-- After region 21, its output array is the combination of its two input arrays as the region finds them. -/
theorem final21 (V : (c : Dev nD) → (b : Ref sig .tc) → Buf (Elt Ideal) ((c : Thread nD τ).loc b)) (c : Dev nD) :
    (dat21 (F := Ideal) V c).arrAt 2 cfg21.N = Cert.Spec.mix (V c (Pipeline.arrRef spec21 0)) (V c (Pipeline.arrRef spec21 1)) :=
  (dat21 (F := Ideal) V c).arrAt_eq_of_cover 2 _ (fun t _ => flushed21_eq V c t) cover21

/-! ### Region 24 -/

/-- The body's combination at an index of a block: the two blocks' entries times the two coefficients, added. -/
theorem pay24_apply (x y : Vec Ideal S5000x128 .f32) (j : S5000x128.Idx) :
    k24_pay1 x y j = x j * Ideal.ofBits .f32 0x3F666666#32 + y j * Ideal.ofBits .f32 0x3DCCCCCD#32 := by
  unfold k24_pay1
  rw [addf_apply, mulf_apply, mulf_apply, broadcast_apply, broadcast_apply]
  simp only [shapeCast_self]
  rfl

/-- The three index maps over the grid: point t reads and writes block row t, block column 0. -/
theorem idx24 : ∀ t : Fin cfg24.N, win24_0.index t (0 : Fin 2) = t.val ∧ win24_0.index t (1 : Fin 2) = 0
    ∧ win24_1.index t (0 : Fin 2) = t.val ∧ win24_1.index t (1 : Fin 2) = 0
    ∧ win24_2.index t (0 : Fin 2) = t.val ∧ win24_2.index t (1 : Fin 2) = 0 :=
  (by decide +kernel : ∀ t : Fin grid24.N, _)

/-- What point t writes back is block t of the combination of the two arrays as the region finds them. -/
theorem flushed24_eq (V : (c : Dev nD) → (b : Ref sig .tc) → Buf (Elt Ideal) ((c : Thread nD τ).loc b)) (c : Dev nD) (t : Fin cfg24.N) :
    (dat24 (F := Ideal) V c).flushed 2 t = ((cfg24.win 2).blk t).view.read (Elt Ideal)
      (Cert.Spec.mix (V c (Pipeline.arrRef spec24 0)) (V c (Pipeline.arrRef spec24 1))) := by
  show (cfg24.win 2).cut (grid24.coords t) ((dat24 V c).after 2 t) = _
  rw [after24_2]
  unfold out24_2
  rw [View.canon_unit_zero hz_mix]
  simp only [View.ld_unit_zero (S := S5000x128) hz_mix]
  obtain ⟨e0, e1, e2, e3, e4, e5⟩ := idx24 t
  funext j
  refine (pay24_apply _ _ j).trans ?_
  refine mix_at (V c (Pipeline.arrRef spec24 0)) (V c (Pipeline.arrRef spec24 1))
    (((cfg24.win 0).blk t).view.emb j) (((cfg24.win 1).blk t).view.emb j) (((cfg24.win 2).blk t).view.emb j) ?_ ?_
  · funext a; apply Fin.ext
    match a with
    | ⟨0, _⟩ => show win24_0.index t (0 : Fin 2) * 5000 + 1 * (j 0).val = win24_2.index t (0 : Fin 2) * 5000 + 1 * (j 0).val; omega
    | ⟨1, _⟩ => show win24_0.index t (1 : Fin 2) * 128 + 1 * (j 1).val = win24_2.index t (1 : Fin 2) * 128 + 1 * (j 1).val; omega
  · funext a; apply Fin.ext
    match a with
    | ⟨0, _⟩ => show win24_1.index t (0 : Fin 2) * 5000 + 1 * (j 0).val = win24_2.index t (0 : Fin 2) * 5000 + 1 * (j 0).val; omega
    | ⟨1, _⟩ => show win24_1.index t (1 : Fin 2) * 128 + 1 * (j 1).val = win24_2.index t (1 : Fin 2) * 128 + 1 * (j 1).val; omega

/-- An index of the array is in point t's block iff each coordinate is in the block's range on its axis. -/
theorem mem_blk24 (t : Fin cfg24.N) (i : S50000x128.Idx) :
    i ∈ ((cfg24.win 2).blk t).view.set ↔ ∀ a : Fin 2, win24_2.index t a * S5000x128.size a ≤ (i a).val ∧ (i a).val < win24_2.index t a * S5000x128.size a + S5000x128.size a := by
  show i ∈ ((View.whole main_v123).slice (win24_2.rect t)).set ↔ _
  rw [View.set_slice_whole, Rect.mem_set_unit]
  exact Iff.rfl

/-- Row r of the array lies in the block of point r / 5000. -/
theorem cover24 (i : S50000x128.Idx) : ∃ t : Fin cfg24.N, (cfg24.win 2).flush t = true ∧ i ∈ ((cfg24.win 2).blk t).view.set := by
  have h0 : (i 0).val < 50000 := (i 0).isLt
  have h1 : (i 1).val < 128 := (i 1).isLt
  have hN : cfg24.N = 10 := N_24
  have ht : (i 0).val / 5000 < cfg24.N := by rw [hN]; omega
  obtain ⟨-, -, -, -, e4, e5⟩ := idx24 ⟨(i 0).val / 5000, ht⟩
  refine ⟨⟨(i 0).val / 5000, ht⟩, flush24_2 _, ?_⟩
  rw [mem_blk24]
  intro a
  match a with
  | ⟨0, _⟩ =>
    show win24_2.index ⟨(i 0).val / 5000, ht⟩ (0 : Fin 2) * 5000 ≤ (i 0).val ∧ (i 0).val < win24_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win24_2.index ⟨(i 0).val / 5000, ht⟩ (1 : Fin 2) * 128 ≤ (i 1).val ∧ (i 1).val < win24_2.index ⟨(i 0).val / 5000, ht⟩ (1 : Fin 2) * 128 + 128
    rw [e5]; omega

/-- After region 24, its output array is the combination of its two input arrays as the region finds them. -/
theorem final24 (V : (c : Dev nD) → (b : Ref sig .tc) → Buf (Elt Ideal) ((c : Thread nD τ).loc b)) (c : Dev nD) :
    (dat24 (F := Ideal) V c).arrAt 2 cfg24.N = Cert.Spec.mix (V c (Pipeline.arrRef spec24 0)) (V c (Pipeline.arrRef spec24 1)) :=
  (dat24 (F := Ideal) V c).arrAt_eq_of_cover 2 _ (fun t _ => flushed24_eq V c t) cover24

end Cert.KernelIdeal.RegionValue

end
-- ==== Proof.ChainHops0.lean ====
/- Graph 0's four hops, each read off the segment boundaries: a region's output array is that region's whole-array function of its input arrays
   as the region finds them, a host stretch's result is its operations applied to what the stretch finds, and the long-lived operands (the
   arguments, the degree normalisation, the graph's edge weights) are what they were where they were made. The five values compose to one hop.
-/
import proofs.«172771_j21320217657536_1_alg».proof.Proof.Gen.KernelIdeal.Frame
import proofs.«172771_j21320217657536_1_alg».proof.Proof.Spec
import proofs.«172771_j21320217657536_1_alg».proof.Proof.ChainArgsA
import proofs.«172771_j21320217657536_1_alg».proof.Proof.ChainKept
import proofs.«172771_j21320217657536_1_alg».proof.Proof.RegionScaleN
import proofs.«172771_j21320217657536_1_alg».proof.Proof.RegionScaleE
import proofs.«172771_j21320217657536_1_alg».proof.Proof.RegionMix

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat Cfg Window)

variable [Cert.ReferenceIdeal.Facts]
variable (m : (ℓ : Loc nD τ sig) → Buf (Elt Ideal) ℓ) (ρ : Dev nD → PrngReg)

/-- The hop entered at boundary 3 with the features `H` in `main_arg0`: region 0 scales the node rows, the host gathers the source rows, region 1
    scales the edge rows, the host sums them into the destination rows, region 2 mixes with the input features; the result is in `main_v23`. -/
theorem hop_3 (c : Dev nD) (H : Cert.Spec.FA Cert.ReferenceIdeal.S50000x128) (hH : W3 m ρ c (Proc.devRef .tc main_arg0) = H) :
    W8 m ρ c (Proc.devRef .tc main_v23) = Cert.Spec.hop (m ((c : Thread nD τ).loc main_arg0)) (W3 m ρ c (Proc.devRef .tc main_v7)) (W3 m ρ c (Proc.devRef .tc main_v10)) (m ((c : Thread nD τ).loc main_arg1)) (m ((c : Thread nD τ).loc main_arg2)) H :=
  Cert.Spec.hop_compose
    (((W4_arr m ρ c 2).trans (RegionValue.final0 (V3 m ρ) c)).trans (congrArg₂ Cert.Spec.scaleRows hH (nrm_3 m ρ c)))
    ((by show StableHlo.after hostOps1 (W4 m ρ c) (Proc.devRef .tc main_v18) = _; simp only [hostOps1]; after_results; rfl :
        W5 m ρ c (Proc.devRef .tc main_v18) = Cert.Spec.gatherRows (W4 m ρ c (Proc.devRef .tc main_v11)) (W4 m ρ c (Proc.devRef .tc main_arg1))).trans
      (congrArg (Cert.Spec.gatherRows _) (arg1_4 m ρ c)))
    (((W6_arr m ρ c 2).trans (RegionValue.final1 (V5 m ρ) c)).trans (congrArg (Cert.Spec.scaleEdges _) (ew0_5 m ρ c)))
    ((by show StableHlo.after hostOps2 (W6 m ρ c) (Proc.devRef .tc main_v22) = _; simp only [hostOps2]; after_results; rfl :
        W7 m ρ c (Proc.devRef .tc main_v22) = Cert.Spec.segSum (W6 m ρ c (Proc.devRef .tc main_v19)) (W6 m ρ c (Proc.devRef .tc main_arg2))).trans
      (congrArg (Cert.Spec.segSum _) (arg2_6 m ρ c)))
    (((W8_arr m ρ c 2).trans (RegionValue.final2 (V7 m ρ) c)).trans (congrArg (Cert.Spec.mix _) (arg0_7 m ρ c)))

/-- The hop entered at boundary 8 with the features `H` in `main_v23`: region 3 scales the node rows, the host gathers the source rows, region 4
    scales the edge rows, the host sums them into the destination rows, region 5 mixes with the input features; the result is in `main_v36`. -/
theorem hop_8 (c : Dev nD) (H : Cert.Spec.FA Cert.ReferenceIdeal.S50000x128) (hH : W8 m ρ c (Proc.devRef .tc main_v23) = H) :
    W13 m ρ c (Proc.devRef .tc main_v36) = Cert.Spec.hop (m ((c : Thread nD τ).loc main_arg0)) (W3 m ρ c (Proc.devRef .tc main_v7)) (W3 m ρ c (Proc.devRef .tc main_v10)) (m ((c : Thread nD τ).loc main_arg1)) (m ((c : Thread nD τ).loc main_arg2)) H :=
  Cert.Spec.hop_compose
    (((W9_arr m ρ c 2).trans (RegionValue.final3 (V8 m ρ) c)).trans (congrArg₂ Cert.Spec.scaleRows hH (nrm_8 m ρ c)))
    ((by show StableHlo.after hostOps4 (W9 m ρ c) (Proc.devRef .tc main_v31) = _; simp only [hostOps4]; after_results; rfl :
        W10 m ρ c (Proc.devRef .tc main_v31) = Cert.Spec.gatherRows (W9 m ρ c (Proc.devRef .tc main_v24)) (W9 m ρ c (Proc.devRef .tc main_arg1))).trans
      (congrArg (Cert.Spec.gatherRows _) (arg1_9 m ρ c)))
    (((W11_arr m ρ c 2).trans (RegionValue.final4 (V10 m ρ) c)).trans (congrArg (Cert.Spec.scaleEdges _) (ew0_10 m ρ c)))
    ((by show StableHlo.after hostOps5 (W11 m ρ c) (Proc.devRef .tc main_v35) = _; simp only [hostOps5]; after_results; rfl :
        W12 m ρ c (Proc.devRef .tc main_v35) = Cert.Spec.segSum (W11 m ρ c (Proc.devRef .tc main_v32)) (W11 m ρ c (Proc.devRef .tc main_arg2))).trans
      (congrArg (Cert.Spec.segSum _) (arg2_11 m ρ c)))
    (((W13_arr m ρ c 2).trans (RegionValue.final5 (V12 m ρ) c)).trans (congrArg (Cert.Spec.mix _) (arg0_12 m ρ c)))

/-- The hop entered at boundary 13 with the features `H` in `main_v36`: region 6 scales the node rows, the host gathers the source rows, region 7
    scales the edge rows, the host sums them into the destination rows, region 8 mixes with the input features; the result is in `main_v49`. -/
theorem hop_13 (c : Dev nD) (H : Cert.Spec.FA Cert.ReferenceIdeal.S50000x128) (hH : W13 m ρ c (Proc.devRef .tc main_v36) = H) :
    W18 m ρ c (Proc.devRef .tc main_v49) = Cert.Spec.hop (m ((c : Thread nD τ).loc main_arg0)) (W3 m ρ c (Proc.devRef .tc main_v7)) (W3 m ρ c (Proc.devRef .tc main_v10)) (m ((c : Thread nD τ).loc main_arg1)) (m ((c : Thread nD τ).loc main_arg2)) H :=
  Cert.Spec.hop_compose
    (((W14_arr m ρ c 2).trans (RegionValue.final6 (V13 m ρ) c)).trans (congrArg₂ Cert.Spec.scaleRows hH (nrm_13 m ρ c)))
    ((by show StableHlo.after hostOps7 (W14 m ρ c) (Proc.devRef .tc main_v44) = _; simp only [hostOps7]; after_results; rfl :
        W15 m ρ c (Proc.devRef .tc main_v44) = Cert.Spec.gatherRows (W14 m ρ c (Proc.devRef .tc main_v37)) (W14 m ρ c (Proc.devRef .tc main_arg1))).trans
      (congrArg (Cert.Spec.gatherRows _) (arg1_14 m ρ c)))
    (((W16_arr m ρ c 2).trans (RegionValue.final7 (V15 m ρ) c)).trans (congrArg (Cert.Spec.scaleEdges _) (ew0_15 m ρ c)))
    ((by show StableHlo.after hostOps8 (W16 m ρ c) (Proc.devRef .tc main_v48) = _; simp only [hostOps8]; after_results; rfl :
        W17 m ρ c (Proc.devRef .tc main_v48) = Cert.Spec.segSum (W16 m ρ c (Proc.devRef .tc main_v45)) (W16 m ρ c (Proc.devRef .tc main_arg2))).trans
      (congrArg (Cert.Spec.segSum _) (arg2_16 m ρ c)))
    (((W18_arr m ρ c 2).trans (RegionValue.final8 (V17 m ρ) c)).trans (congrArg (Cert.Spec.mix _) (arg0_17 m ρ c)))

/-- The hop entered at boundary 18 with the features `H` in `main_v49`: region 9 scales the node rows, the host gathers the source rows, region 10
    scales the edge rows, the host sums them into the destination rows, region 11 mixes with the input features; the result is in `main_v62`. -/
theorem hop_18 (c : Dev nD) (H : Cert.Spec.FA Cert.ReferenceIdeal.S50000x128) (hH : W18 m ρ c (Proc.devRef .tc main_v49) = H) :
    W23 m ρ c (Proc.devRef .tc main_v62) = Cert.Spec.hop (m ((c : Thread nD τ).loc main_arg0)) (W3 m ρ c (Proc.devRef .tc main_v7)) (W3 m ρ c (Proc.devRef .tc main_v10)) (m ((c : Thread nD τ).loc main_arg1)) (m ((c : Thread nD τ).loc main_arg2)) H :=
  Cert.Spec.hop_compose
    (((W19_arr m ρ c 2).trans (RegionValue.final9 (V18 m ρ) c)).trans (congrArg₂ Cert.Spec.scaleRows hH (nrm_18 m ρ c)))
    ((by show StableHlo.after hostOps10 (W19 m ρ c) (Proc.devRef .tc main_v57) = _; simp only [hostOps10]; after_results; rfl :
        W20 m ρ c (Proc.devRef .tc main_v57) = Cert.Spec.gatherRows (W19 m ρ c (Proc.devRef .tc main_v50)) (W19 m ρ c (Proc.devRef .tc main_arg1))).trans
      (congrArg (Cert.Spec.gatherRows _) (arg1_19 m ρ c)))
    (((W21_arr m ρ c 2).trans (RegionValue.final10 (V20 m ρ) c)).trans (congrArg (Cert.Spec.scaleEdges _) (ew0_20 m ρ c)))
    ((by show StableHlo.after hostOps11 (W21 m ρ c) (Proc.devRef .tc main_v61) = _; simp only [hostOps11]; after_results; rfl :
        W22 m ρ c (Proc.devRef .tc main_v61) = Cert.Spec.segSum (W21 m ρ c (Proc.devRef .tc main_v58)) (W21 m ρ c (Proc.devRef .tc main_arg2))).trans
      (congrArg (Cert.Spec.segSum _) (arg2_21 m ρ c)))
    (((W23_arr m ρ c 2).trans (RegionValue.final11 (V22 m ρ) c)).trans (congrArg (Cert.Spec.mix _) (arg0_22 m ρ c)))

end Cert.KernelIdeal.Chain

end
-- ==== Proof.ChainHops1.lean ====
/- Graph 1's four hops, each read off the segment boundaries: a region's output array is that region's whole-array function of its input arrays
   as the region finds them, a host stretch's result is its operations applied to what the stretch finds, and the long-lived operands (the
   arguments, the degree normalisation, the graph's edge weights) are what they were where they were made. The five values compose to one hop.
-/
import proofs.«172771_j21320217657536_1_alg».proof.Proof.Gen.KernelIdeal.Frame
import proofs.«172771_j21320217657536_1_alg».proof.Proof.Spec
import proofs.«172771_j21320217657536_1_alg».proof.Proof.ChainArgsA
import proofs.«172771_j21320217657536_1_alg».proof.Proof.ChainKept
import proofs.«172771_j21320217657536_1_alg».proof.Proof.RegionScaleN
import proofs.«172771_j21320217657536_1_alg».proof.Proof.RegionScaleE
import proofs.«172771_j21320217657536_1_alg».proof.Proof.RegionMix

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat Cfg Window)

variable [Cert.ReferenceIdeal.Facts]
variable (m : (ℓ : Loc nD τ sig) → Buf (Elt Ideal) ℓ) (ρ : Dev nD → PrngReg)

/-- The hop entered at boundary 26 with the features `H` in `main_arg0`: region 13 scales the node rows, the host gathers the source rows, region 14
    scales the edge rows, the host sums them into the destination rows, region 15 mixes with the input features; the result is in `main_v84`. -/
theorem hop_26 (c : Dev nD) (H : Cert.Spec.FA Cert.ReferenceIdeal.S50000x128) (hH : W26 m ρ c (Proc.devRef .tc main_arg0) = H) :
    W31 m ρ c (Proc.devRef .tc main_v84) = Cert.Spec.hop (m ((c : Thread nD τ).loc main_arg0)) (W3 m ρ c (Proc.devRef .tc main_v7)) (W26 m ρ c (Proc.devRef .tc main_v71)) (m ((c : Thread nD τ).loc main_arg1)) (m ((c : Thread nD τ).loc main_arg2)) H :=
  Cert.Spec.hop_compose
    (((W27_arr m ρ c 2).trans (RegionValue.final13 (V26 m ρ) c)).trans (congrArg₂ Cert.Spec.scaleRows hH (nrm_26 m ρ c)))
    ((by show StableHlo.after hostOps14 (W27 m ρ c) (Proc.devRef .tc main_v79) = _; simp only [hostOps14]; after_results; rfl :
        W28 m ρ c (Proc.devRef .tc main_v79) = Cert.Spec.gatherRows (W27 m ρ c (Proc.devRef .tc main_v72)) (W27 m ρ c (Proc.devRef .tc main_arg1))).trans
      (congrArg (Cert.Spec.gatherRows _) (arg1_27 m ρ c)))
    (((W29_arr m ρ c 2).trans (RegionValue.final14 (V28 m ρ) c)).trans (congrArg (Cert.Spec.scaleEdges _) (ew1_28 m ρ c)))
    ((by show StableHlo.after hostOps15 (W29 m ρ c) (Proc.devRef .tc main_v83) = _; simp only [hostOps15]; after_results; rfl :
        W30 m ρ c (Proc.devRef .tc main_v83) = Cert.Spec.segSum (W29 m ρ c (Proc.devRef .tc main_v80)) (W29 m ρ c (Proc.devRef .tc main_arg2))).trans
      (congrArg (Cert.Spec.segSum _) (arg2_29 m ρ c)))
    (((W31_arr m ρ c 2).trans (RegionValue.final15 (V30 m ρ) c)).trans (congrArg (Cert.Spec.mix _) (arg0_30 m ρ c)))

/-- The hop entered at boundary 31 with the features `H` in `main_v84`: region 16 scales the node rows, the host gathers the source rows, region 17
    scales the edge rows, the host sums them into the destination rows, region 18 mixes with the input features; the result is in `main_v97`. -/
theorem hop_31 (c : Dev nD) (H : Cert.Spec.FA Cert.ReferenceIdeal.S50000x128) (hH : W31 m ρ c (Proc.devRef .tc main_v84) = H) :
    W36 m ρ c (Proc.devRef .tc main_v97) = Cert.Spec.hop (m ((c : Thread nD τ).loc main_arg0)) (W3 m ρ c (Proc.devRef .tc main_v7)) (W26 m ρ c (Proc.devRef .tc main_v71)) (m ((c : Thread nD τ).loc main_arg1)) (m ((c : Thread nD τ).loc main_arg2)) H :=
  Cert.Spec.hop_compose
    (((W32_arr m ρ c 2).trans (RegionValue.final16 (V31 m ρ) c)).trans (congrArg₂ Cert.Spec.scaleRows hH (nrm_31 m ρ c)))
    ((by show StableHlo.after hostOps17 (W32 m ρ c) (Proc.devRef .tc main_v92) = _; simp only [hostOps17]; after_results; rfl :
        W33 m ρ c (Proc.devRef .tc main_v92) = Cert.Spec.gatherRows (W32 m ρ c (Proc.devRef .tc main_v85)) (W32 m ρ c (Proc.devRef .tc main_arg1))).trans
      (congrArg (Cert.Spec.gatherRows _) (arg1_32 m ρ c)))
    (((W34_arr m ρ c 2).trans (RegionValue.final17 (V33 m ρ) c)).trans (congrArg (Cert.Spec.scaleEdges _) (ew1_33 m ρ c)))
    ((by show StableHlo.after hostOps18 (W34 m ρ c) (Proc.devRef .tc main_v96) = _; simp only [hostOps18]; after_results; rfl :
        W35 m ρ c (Proc.devRef .tc main_v96) = Cert.Spec.segSum (W34 m ρ c (Proc.devRef .tc main_v93)) (W34 m ρ c (Proc.devRef .tc main_arg2))).trans
      (congrArg (Cert.Spec.segSum _) (arg2_34 m ρ c)))
    (((W36_arr m ρ c 2).trans (RegionValue.final18 (V35 m ρ) c)).trans (congrArg (Cert.Spec.mix _) (arg0_35 m ρ c)))

/-- The hop entered at boundary 36 with the features `H` in `main_v97`: region 19 scales the node rows, the host gathers the source rows, region 20
    scales the edge rows, the host sums them into the destination rows, region 21 mixes with the input features; the result is in `main_v110`. -/
theorem hop_36 (c : Dev nD) (H : Cert.Spec.FA Cert.ReferenceIdeal.S50000x128) (hH : W36 m ρ c (Proc.devRef .tc main_v97) = H) :
    W41 m ρ c (Proc.devRef .tc main_v110) = Cert.Spec.hop (m ((c : Thread nD τ).loc main_arg0)) (W3 m ρ c (Proc.devRef .tc main_v7)) (W26 m ρ c (Proc.devRef .tc main_v71)) (m ((c : Thread nD τ).loc main_arg1)) (m ((c : Thread nD τ).loc main_arg2)) H :=
  Cert.Spec.hop_compose
    (((W37_arr m ρ c 2).trans (RegionValue.final19 (V36 m ρ) c)).trans (congrArg₂ Cert.Spec.scaleRows hH (nrm_36 m ρ c)))
    ((by show StableHlo.after hostOps20 (W37 m ρ c) (Proc.devRef .tc main_v105) = _; simp only [hostOps20]; after_results; rfl :
        W38 m ρ c (Proc.devRef .tc main_v105) = Cert.Spec.gatherRows (W37 m ρ c (Proc.devRef .tc main_v98)) (W37 m ρ c (Proc.devRef .tc main_arg1))).trans
      (congrArg (Cert.Spec.gatherRows _) (arg1_37 m ρ c)))
    (((W39_arr m ρ c 2).trans (RegionValue.final20 (V38 m ρ) c)).trans (congrArg (Cert.Spec.scaleEdges _) (ew1_38 m ρ c)))
    ((by show StableHlo.after hostOps21 (W39 m ρ c) (Proc.devRef .tc main_v109) = _; simp only [hostOps21]; after_results; rfl :
        W40 m ρ c (Proc.devRef .tc main_v109) = Cert.Spec.segSum (W39 m ρ c (Proc.devRef .tc main_v106)) (W39 m ρ c (Proc.devRef .tc main_arg2))).trans
      (congrArg (Cert.Spec.segSum _) (arg2_39 m ρ c)))
    (((W41_arr m ρ c 2).trans (RegionValue.final21 (V40 m ρ) c)).trans (congrArg (Cert.Spec.mix _) (arg0_40 m ρ c)))

/-- The hop entered at boundary 41 with the features `H` in `main_v110`: region 22 scales the node rows, the host gathers the source rows, region 23
    scales the edge rows, the host sums them into the destination rows, region 24 mixes with the input features; the result is in `main_v123`. -/
theorem hop_41 (c : Dev nD) (H : Cert.Spec.FA Cert.ReferenceIdeal.S50000x128) (hH : W41 m ρ c (Proc.devRef .tc main_v110) = H) :
    W46 m ρ c (Proc.devRef .tc main_v123) = Cert.Spec.hop (m ((c : Thread nD τ).loc main_arg0)) (W3 m ρ c (Proc.devRef .tc main_v7)) (W26 m ρ c (Proc.devRef .tc main_v71)) (m ((c : Thread nD τ).loc main_arg1)) (m ((c : Thread nD τ).loc main_arg2)) H :=
  Cert.Spec.hop_compose
    (((W42_arr m ρ c 2).trans (RegionValue.final22 (V41 m ρ) c)).trans (congrArg₂ Cert.Spec.scaleRows hH (nrm_41 m ρ c)))
    ((by show StableHlo.after hostOps23 (W42 m ρ c) (Proc.devRef .tc main_v118) = _; simp only [hostOps23]; after_results; rfl :
        W43 m ρ c (Proc.devRef .tc main_v118) = Cert.Spec.gatherRows (W42 m ρ c (Proc.devRef .tc main_v111)) (W42 m ρ c (Proc.devRef .tc main_arg1))).trans
      (congrArg (Cert.Spec.gatherRows _) (arg1_42 m ρ c)))
    (((W44_arr m ρ c 2).trans (RegionValue.final23 (V43 m ρ) c)).trans (congrArg (Cert.Spec.scaleEdges _) (ew1_43 m ρ c)))
    ((by show StableHlo.after hostOps24 (W44 m ρ c) (Proc.devRef .tc main_v122) = _; simp only [hostOps24]; after_results; rfl :
        W45 m ρ c (Proc.devRef .tc main_v122) = Cert.Spec.segSum (W44 m ρ c (Proc.devRef .tc main_v119)) (W44 m ρ c (Proc.devRef .tc main_arg2))).trans
      (congrArg (Cert.Spec.segSum _) (arg2_44 m ρ c)))
    (((W46_arr m ρ c 2).trans (RegionValue.final24 (V45 m ρ) c)).trans (congrArg (Cert.Spec.mix _) (arg0_45 m ρ c)))

end Cert.KernelIdeal.Chain

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«172771_j21320217657536_1_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.RegionDense.lean ====
/-
  The dense layer  relu (h · W + b)  as the tiled program computes it.  The features' 50000 rows are cut into ten blocks of
  5000 rows; grid point t holds rows 5000 t … 5000 t + 4999 together with the whole weight matrix and the whole bias row, and
  writes, into rows 5000 t … 5000 t + 4999 of the result, entry (p, q) = max (∑ k < 128, x (p, k) · W (k, q) + b (0, q), 0),
  x the block.  Entry (r, q) of the whole-array dense layer is the same expression with row r of the features; and row
  r = 5000 (r / 5000) + r mod 5000 lies in block r / 5000.  So the ten blocks written back make up the whole-array result.
-/
import proofs.«172771_j21320217657536_1_alg».proof.Proof.Gen.KernelIdeal.Frame
import proofs.«172771_j21320217657536_1_alg».proof.Proof.Spec
import proofs.«172771_j21320217657536_1_alg».proof.Proof.LibMatmulSum
import proofs.«172771_j21320217657536_1_alg».proof.Proof.LibHostDotSum
import proofs.«172771_j21320217657536_1_alg».proof.Proof.LibBroadcastInDim
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx
  Idealize.SL.Sem
open Idealize.ShloMosaic.Pipeline (Dat)

variable [Cert.ReferenceIdeal.Facts]

/-- The zero offsets of a whole-buffer load or store, as a constant function. -/
theorem hz : (![0, 0] : Fin 2 → Nat) = fun _ => 0 := funext fun a => by fin_cases a <;> rfl

/-! ## The two matrix products, and the dense layer, at an entry -/

/-- The tiled product's dimension numbers are those of a plain 5000 × 128 by 128 × 128 product. -/
theorem plainK : Cert.LibMatmulSum.Plain dot_S5000x128_S128x128_S5000x128_1_0_0_1_n_n where
  rank := rfl
  size := rfl
  l0 := fun i q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  l1 := fun i q => dot_S5000x128_S128x128_S5000x128_1_0_0_1_n_n.lhsIdx_val_of_single rfl i q
  r0 := fun i q => dot_S5000x128_S128x128_S5000x128_1_0_0_1_n_n.rhsIdx_val_of_single rfl i q
  r1 := fun i q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The whole-array product's dimension numbers are those of a plain 50000 × 128 by 128 × 128 product. -/
theorem plainR : Cert.LibMatmulSum.Plain Cert.ReferenceIdeal.dot_S50000x128_S128x128_S50000x128_1_0_0_1_n_n where
  rank := rfl
  size := rfl
  l0 := fun i q => by
    unfold DotDims.lhsIdx
    rw [dif_neg (show ¬(0 : Fin Cert.ReferenceIdeal.S50000x128.rank) ∈ Cert.ReferenceIdeal.dot_S50000x128_S128x128_S50000x128_1_0_0_1_n_n.lhsBatch from List.not_mem_nil),
      dif_pos (show (0 : Fin Cert.ReferenceIdeal.S50000x128.rank) ∈ Cert.ReferenceIdeal.dot_S50000x128_S128x128_S50000x128_1_0_0_1_n_n.lhsNonContracting from List.mem_singleton.mpr rfl)]
    rfl
  l1 := fun i q => Cert.ReferenceIdeal.dot_S50000x128_S128x128_S50000x128_1_0_0_1_n_n.lhsIdx_val_of_single rfl i q
  r0 := fun i q => Cert.ReferenceIdeal.dot_S50000x128_S128x128_S50000x128_1_0_0_1_n_n.rhsIdx_val_of_single rfl i q
  r1 := fun i q => by
    unfold DotDims.rhsIdx
    rw [dif_neg (show ¬(1 : Fin Cert.ReferenceIdeal.S128x128.rank) ∈ Cert.ReferenceIdeal.dot_S50000x128_S128x128_S50000x128_1_0_0_1_n_n.rhsBatch from List.not_mem_nil),
      dif_pos (show (1 : Fin Cert.ReferenceIdeal.S128x128.rank) ∈ Cert.ReferenceIdeal.dot_S50000x128_S128x128_S50000x128_1_0_0_1_n_n.rhsNonContracting from List.mem_singleton.mpr rfl)]
    rfl

/-- The dense layer at entry (r, q): row r of the features times column q of the weights, plus the bias at q, floored at 0. -/
theorem dense_at (H : Cert.Spec.FA Cert.ReferenceIdeal.S50000x128) (W : Cert.Spec.FA Cert.ReferenceIdeal.S128x128)
    (B : Cert.Spec.FA Cert.ReferenceIdeal.S1x128) (r : Fin 50000) (q : Fin 128) :
    Cert.Spec.dense H W B (ix2 r q)
      = max ((∑ k : Fin 128, H (ix2 r k) * W (ix2 k q)) + B (ix2 (0 : Fin 1) q)) 0 := by
  unfold Cert.Spec.dense Cert.Spec.zeroND
  rw [maximumf_apply, addf_apply]
  refine congrArg₂ max (congrArg₂ (· + ·) ?_ ?_) ?_
  · exact Cert.LibMatmulSum.hostDot_at plainR none H W r q
  · exact broadcastInDim_1b_ab_apply B _ r q
  · exact (broadcastInDim_apply _ _ _ (ix2 r q) ix0 (fun a => a.elim0)).trans
      ((constant_apply _ _).trans Ideal.ofBits_zero_f32)

/-- A block's entry (p, q) is the whole-array dense layer's entry (r, q) when row p of the block is row r of the features,
    column q of the block's weights is column q of the weight matrix, and the block's bias at q is the bias row's. -/
theorem point_eq (x : Vec Ideal S5000x128 .f32) (W : Vec Ideal S128x128 .f32) (b : Vec Ideal S1x128 .f32)
    (H : Cert.Spec.FA Cert.ReferenceIdeal.S50000x128) (W' : Cert.Spec.FA Cert.ReferenceIdeal.S128x128)
    (b' : Cert.Spec.FA Cert.ReferenceIdeal.S1x128) (p : Fin 5000) (q : Fin 128) (r : Fin 50000)
    (hx : ∀ k : Fin 128, x (ix2 p k) = H (ix2 r k)) (hW : ∀ k : Fin 128, W (ix2 k q) = W' (ix2 k q))
    (hb : b (ix2 (0 : Fin 1) q) = b' (ix2 (0 : Fin 1) q)) :
    max ((∑ k : Fin 128, x (ix2 p k) * W (ix2 k q)) + b (ix2 (0 : Fin 1) q)) 0 = Cert.Spec.dense H W' b' (ix2 r q) := by
  rw [dense_at]
  simp only [hx, hW, hb]

/-! ## Region 12 -/

/-- One block's payload at entry (p, q): row p of the block times column q of the weights, plus the bias at q, floored at 0.
    (Rounding an operand to the narrower format does nothing to an extended real, and the product starts from a zero
    accumulator.) -/
theorem pay12_at (x : Vec Ideal S5000x128 .f32) (W : Vec Ideal S128x128 .f32) (b : Vec Ideal S1x128 .f32)
    (p : Fin 5000) (q : Fin 128) :
    k12_pay1 (F := Ideal) x W b (ix2 p q)
      = max ((∑ k : Fin 128, x (ix2 p k) * W (ix2 k q)) + b (ix2 (0 : Fin 1) q)) 0 := by
  unfold k12_pay1
  rw [maximumf_apply, addf_apply, broadcast_apply]
  refine congrArg₂ max (congrArg₂ (· + ·) ?_ ?_) ?_
  · exact (Cert.LibMatmulSum.matmul_zero_at plainK none _ _ p q).trans (by simp only [shapeCast_self, truncf_apply])
  · exact (broadcastTo_1b_ab_apply _ _ p q).trans (by rw [shapeCast_self])
  · exact Ideal.ofBits_zero_f32

/-- The block index maps over the grid: at point t the feature block and the result block are block row t, and the weights
    and the bias are their arrays' one block. -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

section
variable (V : (c : Dev nD) → (b : Ref sig .tc) → Buf (Elt Ideal) ((c : Thread nD τ).loc b))

/-- The feature block at point t is rows 5000 t … 5000 t + 4999 of the features: its entry (p, k) is their entry (5000 t + p, k). -/
theorem blk12_0_at (c : Dev nD) (t : Fin cfg12.N) (p : Fin 5000) (k : Fin 128) (hr : t.val * 5000 + p.val < 50000) :
    (iblk12 (F := Ideal) V c 0 t : Vec Ideal S5000x128 .f32) (ix2 p k)
      = (V c (Pipeline.arrRef spec12 0) : Cert.Spec.FA Cert.ReferenceIdeal.S50000x128) (ix2 (⟨t.val * 5000 + p.val, hr⟩ : Fin 50000) k) := by
  obtain ⟨e00, e01, -⟩ := idx12 t
  show V c (Pipeline.arrRef spec12 0) (((cfg12.win 0).blk t).view.emb (ix2 p k)) = _
  refine congrArg _ (funext fun a => Fin.ext ?_)
  match a with
  | ⟨0, _⟩ => show win12_0.index t (0 : Fin 2) * 5000 + 1 * p.val = t.val * 5000 + p.val; rw [e00]; omega
  | ⟨1, _⟩ => show win12_0.index t (1 : Fin 2) * 128 + 1 * k.val = k.val; rw [e01]; omega

/-- The weights' block at every point is the whole weight matrix. -/
theorem blk12_1_at (c : Dev nD) (t : Fin cfg12.N) (k q : Fin 128) :
    (iblk12 (F := Ideal) V c 1 t : Vec Ideal S128x128 .f32) (ix2 k q)
      = (V c (Pipeline.arrRef spec12 1) : Cert.Spec.FA Cert.ReferenceIdeal.S128x128) (ix2 k q) := by
  obtain ⟨-, -, e10, e11, -⟩ := idx12 t
  show V c (Pipeline.arrRef spec12 1) (((cfg12.win 1).blk t).view.emb (ix2 k q)) = _
  refine congrArg _ (funext fun a => Fin.ext ?_)
  match a with
  | ⟨0, _⟩ => show win12_1.index t (0 : Fin 2) * 128 + 1 * k.val = k.val; rw [e10]; omega
  | ⟨1, _⟩ => show win12_1.index t (1 : Fin 2) * 128 + 1 * q.val = q.val; rw [e11]; omega

/-- The bias's block at every point is the whole bias row. -/
theorem blk12_2_at (c : Dev nD) (t : Fin cfg12.N) (q : Fin 128) :
    (iblk12 (F := Ideal) V c 2 t : Vec Ideal S1x128 .f32) (ix2 (0 : Fin 1) q)
      = (V c (Pipeline.arrRef spec12 2) : Cert.Spec.FA Cert.ReferenceIdeal.S1x128) (ix2 (0 : Fin 1) q) := by
  obtain ⟨-, -, -, -, e20, e21, -⟩ := idx12 t
  show V c (Pipeline.arrRef spec12 2) (((cfg12.win 2).blk t).view.emb (ix2 (0 : Fin 1) q)) = _
  refine congrArg _ (funext fun a => Fin.ext ?_)
  match a with
  | ⟨0, _⟩ => show win12_2.index t (0 : Fin 2) * 1 + 1 * (0 : Fin 1).val = (0 : Fin 1).val; rw [e20]; rfl
  | ⟨1, _⟩ => show win12_2.index t (1 : Fin 2) * 128 + 1 * q.val = q.val; rw [e21]; omega

/-- Entry (p, q) of the result's block at point t sits at entry (5000 t + p, q) of the result. -/
theorem emb12_3 (t : Fin cfg12.N) (p : Fin 5000) (q : Fin 128) (hr : t.val * 5000 + p.val < 50000) :
    ((cfg12.win 3).blk t).view.emb (ix2 p q) = (ix2 (⟨t.val * 5000 + p.val, hr⟩ : Fin 50000) q : S50000x128.Idx) := by
  obtain ⟨-, -, -, -, -, -, e30, e31⟩ := idx12 t
  funext a; apply Fin.ext
  match a with
  | ⟨0, _⟩ => show win12_3.index t (0 : Fin 2) * 5000 + 1 * p.val = t.val * 5000 + p.val; rw [e30]; omega
  | ⟨1, _⟩ => show win12_3.index t (1 : Fin 2) * 128 + 1 * q.val = q.val; rw [e31]; omega

/-- What point t writes back is block row t of the whole-array dense layer of the three arrays as the region finds them:
    entry (p, q) of the block is the payload of rows 5000 t … 5000 t + 4999 of the features, which is entry (5000 t + p, q). -/
theorem flushed12_eq (c : Dev nD) (t : Fin cfg12.N) :
    (dat12 (F := Ideal) V c).flushed 3 t = ((cfg12.win 3).blk t).view.read (Elt Ideal)
      (Cert.Spec.dense (V c (Pipeline.arrRef spec12 0)) (V c (Pipeline.arrRef spec12 1)) (V c (Pipeline.arrRef spec12 2))) := by
  show (cfg12.win 3).cut (grid12.coords t) ((dat12 V c).after 3 t) = _
  rw [after12_3]
  unfold out12_3
  rw [View.canon_unit_zero hz]
  simp only [View.ld_unit_zero (S := S5000x128) hz, View.ld_unit_zero (S := S128x128) hz, View.ld_unit_zero (S := S1x128) hz]
  have hN : cfg12.N = 10 := N_12
  have ht : t.val < 10 := by have := t.isLt; omega
  funext j
  obtain ⟨p, q, rfl⟩ : ∃ (p : Fin 5000) (q : Fin 128), j = ix2 p q := ⟨j 0, j 1, eq_ix2 j⟩
  have hr : t.val * 5000 + p.val < 50000 := by have := p.isLt; omega
  rw [View.read_apply, emb12_3 t p q hr]
  exact (pay12_at _ _ _ p q).trans
    (point_eq _ _ _ _ _ _ p q ⟨t.val * 5000 + p.val, hr⟩ (fun k => blk12_0_at V c t p k hr) (fun k => blk12_1_at V c t k q)
      (blk12_2_at V c t q))

/-- An index of the result is in point t's block iff its row is among rows 5000 t … 5000 t + 4999 (and its column below 128). -/
theorem mem_blk12 (t : Fin cfg12.N) (i : S50000x128.Idx) :
    i ∈ ((cfg12.win 3).blk t).view.set ↔ ∀ a : Fin 2, win12_3.index t a * S5000x128.size a ≤ (i a).val
      ∧ (i a).val < win12_3.index t a * S5000x128.size a + S5000x128.size a := by
  show i ∈ ((View.whole main_v68).slice (win12_3.rect t)).set ↔ _
  rw [View.set_slice_whole, Rect.mem_set_unit]
  exact Iff.rfl

/-- Every entry of the result is in some point's block: row r is in block row r / 5000. -/
theorem cover12 (i : S50000x128.Idx) :
    ∃ t : Fin cfg12.N, (cfg12.win 3).flush t = true ∧ i ∈ ((cfg12.win 3).blk t).view.set := by
  have hN : cfg12.N = 10 := N_12
  have hi0 : (i 0).val < 50000 := (i 0).isLt
  have hi1 : (i 1).val < 128 := (i 1).isLt
  obtain ⟨t, ht⟩ : ∃ t : Fin cfg12.N, t.val = (i 0).val / 5000 := ⟨⟨(i 0).val / 5000, by omega⟩, rfl⟩
  obtain ⟨-, -, -, -, -, -, e30, e31⟩ := idx12 t
  refine ⟨t, flush12_3 t, ?_⟩
  rw [mem_blk12]
  intro a
  match a with
  | ⟨0, _⟩ =>
    show win12_3.index t (0 : Fin 2) * 5000 ≤ (i 0).val ∧ (i 0).val < win12_3.index t (0 : Fin 2) * 5000 + 5000
    rw [e30]; omega
  | ⟨1, _⟩ =>
    show win12_3.index t (1 : Fin 2) * 128 ≤ (i 1).val ∧ (i 1).val < win12_3.index t (1 : Fin 2) * 128 + 128
    rw [e31]; omega

/-- After the region the result array holds the whole-array dense layer of the features, the weights and the bias row as
    the region finds them. -/
theorem final12 (c : Dev nD) :
    (dat12 (F := Ideal) V c).arrAt 3 cfg12.N
      = Cert.Spec.dense (V c (Pipeline.arrRef spec12 0)) (V c (Pipeline.arrRef spec12 1)) (V c (Pipeline.arrRef spec12 2)) :=
  (dat12 V c).arrAt_eq_of_cover 3 _ (fun t _ => flushed12_eq V c t) cover12

end

/-! ## Region 25 -/

/-- One block's payload at entry (p, q): row p of the block times column q of the weights, plus the bias at q, floored at 0.
    (Rounding an operand to the narrower format does nothing to an extended real, and the product starts from a zero
    accumulator.) -/
theorem pay25_at (x : Vec Ideal S5000x128 .f32) (W : Vec Ideal S128x128 .f32) (b : Vec Ideal S1x128 .f32)
    (p : Fin 5000) (q : Fin 128) :
    k25_pay1 (F := Ideal) x W b (ix2 p q)
      = max ((∑ k : Fin 128, x (ix2 p k) * W (ix2 k q)) + b (ix2 (0 : Fin 1) q)) 0 := by
  unfold k25_pay1
  rw [maximumf_apply, addf_apply, broadcast_apply]
  refine congrArg₂ max (congrArg₂ (· + ·) ?_ ?_) ?_
  · exact (Cert.LibMatmulSum.matmul_zero_at plainK none _ _ p q).trans (by simp only [shapeCast_self, truncf_apply])
  · exact (broadcastTo_1b_ab_apply _ _ p q).trans (by rw [shapeCast_self])
  · exact Ideal.ofBits_zero_f32

/-- The block index maps over the grid: at point t the feature block and the result block are block row t, and the weights
    and the bias are their arrays' one block. -/
theorem idx25 : ∀ t : Fin cfg25.N, win25_0.index t (0 : Fin 2) = t.val ∧ win25_0.index t (1 : Fin 2) = 0
    ∧ win25_1.index t (0 : Fin 2) = 0 ∧ win25_1.index t (1 : Fin 2) = 0
    ∧ win25_2.index t (0 : Fin 2) = 0 ∧ win25_2.index t (1 : Fin 2) = 0
    ∧ win25_3.index t (0 : Fin 2) = t.val ∧ win25_3.index t (1 : Fin 2) = 0 :=
  (by decide +kernel : ∀ t : Fin grid25.N, _)

section
variable (V : (c : Dev nD) → (b : Ref sig .tc) → Buf (Elt Ideal) ((c : Thread nD τ).loc b))

/-- The feature block at point t is rows 5000 t … 5000 t + 4999 of the features: its entry (p, k) is their entry (5000 t + p, k). -/
theorem blk25_0_at (c : Dev nD) (t : Fin cfg25.N) (p : Fin 5000) (k : Fin 128) (hr : t.val * 5000 + p.val < 50000) :
    (iblk25 (F := Ideal) V c 0 t : Vec Ideal S5000x128 .f32) (ix2 p k)
      = (V c (Pipeline.arrRef spec25 0) : Cert.Spec.FA Cert.ReferenceIdeal.S50000x128) (ix2 (⟨t.val * 5000 + p.val, hr⟩ : Fin 50000) k) := by
  obtain ⟨e00, e01, -⟩ := idx25 t
  show V c (Pipeline.arrRef spec25 0) (((cfg25.win 0).blk t).view.emb (ix2 p k)) = _
  refine congrArg _ (funext fun a => Fin.ext ?_)
  match a with
  | ⟨0, _⟩ => show win25_0.index t (0 : Fin 2) * 5000 + 1 * p.val = t.val * 5000 + p.val; rw [e00]; omega
  | ⟨1, _⟩ => show win25_0.index t (1 : Fin 2) * 128 + 1 * k.val = k.val; rw [e01]; omega

/-- The weights' block at every point is the whole weight matrix. -/
theorem blk25_1_at (c : Dev nD) (t : Fin cfg25.N) (k q : Fin 128) :
    (iblk25 (F := Ideal) V c 1 t : Vec Ideal S128x128 .f32) (ix2 k q)
      = (V c (Pipeline.arrRef spec25 1) : Cert.Spec.FA Cert.ReferenceIdeal.S128x128) (ix2 k q) := by
  obtain ⟨-, -, e10, e11, -⟩ := idx25 t
  show V c (Pipeline.arrRef spec25 1) (((cfg25.win 1).blk t).view.emb (ix2 k q)) = _
  refine congrArg _ (funext fun a => Fin.ext ?_)
  match a with
  | ⟨0, _⟩ => show win25_1.index t (0 : Fin 2) * 128 + 1 * k.val = k.val; rw [e10]; omega
  | ⟨1, _⟩ => show win25_1.index t (1 : Fin 2) * 128 + 1 * q.val = q.val; rw [e11]; omega

/-- The bias's block at every point is the whole bias row. -/
theorem blk25_2_at (c : Dev nD) (t : Fin cfg25.N) (q : Fin 128) :
    (iblk25 (F := Ideal) V c 2 t : Vec Ideal S1x128 .f32) (ix2 (0 : Fin 1) q)
      = (V c (Pipeline.arrRef spec25 2) : Cert.Spec.FA Cert.ReferenceIdeal.S1x128) (ix2 (0 : Fin 1) q) := by
  obtain ⟨-, -, -, -, e20, e21, -⟩ := idx25 t
  show V c (Pipeline.arrRef spec25 2) (((cfg25.win 2).blk t).view.emb (ix2 (0 : Fin 1) q)) = _
  refine congrArg _ (funext fun a => Fin.ext ?_)
  match a with
  | ⟨0, _⟩ => show win25_2.index t (0 : Fin 2) * 1 + 1 * (0 : Fin 1).val = (0 : Fin 1).val; rw [e20]; rfl
  | ⟨1, _⟩ => show win25_2.index t (1 : Fin 2) * 128 + 1 * q.val = q.val; rw [e21]; omega

/-- Entry (p, q) of the result's block at point t sits at entry (5000 t + p, q) of the result. -/
theorem emb25_3 (t : Fin cfg25.N) (p : Fin 5000) (q : Fin 128) (hr : t.val * 5000 + p.val < 50000) :
    ((cfg25.win 3).blk t).view.emb (ix2 p q) = (ix2 (⟨t.val * 5000 + p.val, hr⟩ : Fin 50000) q : S50000x128.Idx) := by
  obtain ⟨-, -, -, -, -, -, e30, e31⟩ := idx25 t
  funext a; apply Fin.ext
  match a with
  | ⟨0, _⟩ => show win25_3.index t (0 : Fin 2) * 5000 + 1 * p.val = t.val * 5000 + p.val; rw [e30]; omega
  | ⟨1, _⟩ => show win25_3.index t (1 : Fin 2) * 128 + 1 * q.val = q.val; rw [e31]; omega

/-- What point t writes back is block row t of the whole-array dense layer of the three arrays as the region finds them:
    entry (p, q) of the block is the payload of rows 5000 t … 5000 t + 4999 of the features, which is entry (5000 t + p, q). -/
theorem flushed25_eq (c : Dev nD) (t : Fin cfg25.N) :
    (dat25 (F := Ideal) V c).flushed 3 t = ((cfg25.win 3).blk t).view.read (Elt Ideal)
      (Cert.Spec.dense (V c (Pipeline.arrRef spec25 0)) (V c (Pipeline.arrRef spec25 1)) (V c (Pipeline.arrRef spec25 2))) := by
  show (cfg25.win 3).cut (grid25.coords t) ((dat25 V c).after 3 t) = _
  rw [after25_3]
  unfold out25_3
  rw [View.canon_unit_zero hz]
  simp only [View.ld_unit_zero (S := S5000x128) hz, View.ld_unit_zero (S := S128x128) hz, View.ld_unit_zero (S := S1x128) hz]
  have hN : cfg25.N = 10 := N_25
  have ht : t.val < 10 := by have := t.isLt; omega
  funext j
  obtain ⟨p, q, rfl⟩ : ∃ (p : Fin 5000) (q : Fin 128), j = ix2 p q := ⟨j 0, j 1, eq_ix2 j⟩
  have hr : t.val * 5000 + p.val < 50000 := by have := p.isLt; omega
  rw [View.read_apply, emb25_3 t p q hr]
  exact (pay25_at _ _ _ p q).trans
    (point_eq _ _ _ _ _ _ p q ⟨t.val * 5000 + p.val, hr⟩ (fun k => blk25_0_at V c t p k hr) (fun k => blk25_1_at V c t k q)
      (blk25_2_at V c t q))

/-- An index of the result is in point t's block iff its row is among rows 5000 t … 5000 t + 4999 (and its column below 128). -/
theorem mem_blk25 (t : Fin cfg25.N) (i : S50000x128.Idx) :
    i ∈ ((cfg25.win 3).blk t).view.set ↔ ∀ a : Fin 2, win25_3.index t a * S5000x128.size a ≤ (i a).val
      ∧ (i a).val < win25_3.index t a * S5000x128.size a + S5000x128.size a := by
  show i ∈ ((View.whole main_v129).slice (win25_3.rect t)).set ↔ _
  rw [View.set_slice_whole, Rect.mem_set_unit]
  exact Iff.rfl

/-- Every entry of the result is in some point's block: row r is in block row r / 5000. -/
theorem cover25 (i : S50000x128.Idx) :
    ∃ t : Fin cfg25.N, (cfg25.win 3).flush t = true ∧ i ∈ ((cfg25.win 3).blk t).view.set := by
  have hN : cfg25.N = 10 := N_25
  have hi0 : (i 0).val < 50000 := (i 0).isLt
  have hi1 : (i 1).val < 128 := (i 1).isLt
  obtain ⟨t, ht⟩ : ∃ t : Fin cfg25.N, t.val = (i 0).val / 5000 := ⟨⟨(i 0).val / 5000, by omega⟩, rfl⟩
  obtain ⟨-, -, -, -, -, -, e30, e31⟩ := idx25 t
  refine ⟨t, flush25_3 t, ?_⟩
  rw [mem_blk25]
  intro a
  match a with
  | ⟨0, _⟩ =>
    show win25_3.index t (0 : Fin 2) * 5000 ≤ (i 0).val ∧ (i 0).val < win25_3.index t (0 : Fin 2) * 5000 + 5000
    rw [e30]; omega
  | ⟨1, _⟩ =>
    show win25_3.index t (1 : Fin 2) * 128 ≤ (i 1).val ∧ (i 1).val < win25_3.index t (1 : Fin 2) * 128 + 128
    rw [e31]; omega

/-- After the region the result array holds the whole-array dense layer of the features, the weights and the bias row as
    the region finds them. -/
theorem final25 (c : Dev nD) :
    (dat25 (F := Ideal) V c).arrAt 3 cfg25.N
      = Cert.Spec.dense (V c (Pipeline.arrRef spec25 0)) (V c (Pipeline.arrRef spec25 1)) (V c (Pipeline.arrRef spec25 2)) :=
  (dat25 V c).arrAt_eq_of_cover 3 _ (fun t _ => flushed25_eq V c t) cover25

end

end Cert.KernelIdeal.RegionValue

end
-- ==== Proof.ChainResult.lean ====
/-
  The tiled program's result array as ONE function of the argument arrays.  Per graph: the input features go through the four
  hops (each hop's input is the previous hop's output array), then through the dense layer; the first graph's output outlives the second
  graph's regions untouched; the last host operation joins the two outputs along the feature axis.
-/
import proofs.«172771_j21320217657536_1_alg».proof.Proof.Gen.KernelIdeal.Frame
import proofs.«172771_j21320217657536_1_alg».proof.Proof.Spec
import proofs.«172771_j21320217657536_1_alg».proof.Proof.ChainArgsA
import proofs.«172771_j21320217657536_1_alg».proof.Proof.ChainArgsB
import proofs.«172771_j21320217657536_1_alg».proof.Proof.ChainKept
import proofs.«172771_j21320217657536_1_alg».proof.Proof.ChainVals
import proofs.«172771_j21320217657536_1_alg».proof.Proof.ChainHops0
import proofs.«172771_j21320217657536_1_alg».proof.Proof.ChainHops1
import proofs.«172771_j21320217657536_1_alg».proof.Proof.RegionDense

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat Cfg Window)

variable [Cert.ReferenceIdeal.Facts]
variable (m : (ℓ : Loc nD τ sig) → Buf (Elt Ideal) ℓ) (ρ : Dev nD → PrngReg)

/-- Graph 0's dense layer: the host slices the graph's weight matrix and bias out of the arguments (the bias re-laid as a row),
    region 12 multiplies, adds the bias and clips below at zero. -/
theorem dense_25 (c : Dev nD) (H : Cert.Spec.FA Cert.ReferenceIdeal.S50000x128) (hH : W23 m ρ c (Proc.devRef .tc main_v62) = H) :
    W25 m ρ c (Proc.devRef .tc main_v68)
      = Cert.Spec.dense H (Cert.Spec.wMat0 (m ((c : Thread nD τ).loc main_arg4))) (Cert.Spec.rowK (Cert.Spec.biasVec0 (m ((c : Thread nD τ).loc main_arg5))) Gen.shapeCasts_S128_S1x128) := by
  have h0 : W24 m ρ c (Proc.devRef .tc main_v62) = H := by
    refine Eq.trans ?_ hH
    show StableHlo.after hostOps12 (W23 m ρ c) (Proc.devRef .tc main_v62) = _
    simp only [hostOps12]; after_results
  have h1 : W24 m ρ c (Proc.devRef .tc main_v64) = Cert.Spec.wMat0 (m ((c : Thread nD τ).loc main_arg4)) := by
    have h : W24 m ρ c (Proc.devRef .tc main_v64) = Cert.Spec.wMat0 (W23 m ρ c (Proc.devRef .tc main_arg4)) := by
      show StableHlo.after hostOps12 (W23 m ρ c) (Proc.devRef .tc main_v64) = _
      simp only [hostOps12]; after_results; rfl
    exact h.trans (by rw [arg4_23 m ρ c])
  have h2 : W24 m ρ c (Proc.devRef .tc main_v67)
      = Cert.Spec.rowK (Cert.Spec.biasVec0 (m ((c : Thread nD τ).loc main_arg5))) Gen.shapeCasts_S128_S1x128 := by
    have h : W24 m ρ c (Proc.devRef .tc main_v67)
        = Cert.Spec.rowK (Cert.Spec.biasVec0 (W23 m ρ c (Proc.devRef .tc main_arg5))) Gen.shapeCasts_S128_S1x128 := by
      show StableHlo.after hostOps12 (W23 m ρ c) (Proc.devRef .tc main_v67) = _
      simp only [hostOps12]; after_results; rfl
    exact h.trans (by rw [arg5_23 m ρ c])
  exact ((W25_arr m ρ c 3).trans (RegionValue.final12 (V24 m ρ) c)).trans (congr (congrArg₂ Cert.Spec.dense h0 h1) h2)

/-- Graph 1's dense layer: the host slices the graph's weight matrix and bias out of the arguments (the bias re-laid as a row),
    region 25 multiplies, adds the bias and clips below at zero. -/
theorem dense_48 (c : Dev nD) (H : Cert.Spec.FA Cert.ReferenceIdeal.S50000x128) (hH : W46 m ρ c (Proc.devRef .tc main_v123) = H) :
    W48 m ρ c (Proc.devRef .tc main_v129)
      = Cert.Spec.dense H (Cert.Spec.wMat1 (m ((c : Thread nD τ).loc main_arg4))) (Cert.Spec.rowK (Cert.Spec.biasVec1 (m ((c : Thread nD τ).loc main_arg5))) Gen.shapeCasts_S128_S1x128) := by
  have h0 : W47 m ρ c (Proc.devRef .tc main_v123) = H := by
    refine Eq.trans ?_ hH
    show StableHlo.after hostOps25 (W46 m ρ c) (Proc.devRef .tc main_v123) = _
    simp only [hostOps25]; after_results
  have h1 : W47 m ρ c (Proc.devRef .tc main_v125) = Cert.Spec.wMat1 (m ((c : Thread nD τ).loc main_arg4)) := by
    have h : W47 m ρ c (Proc.devRef .tc main_v125) = Cert.Spec.wMat1 (W46 m ρ c (Proc.devRef .tc main_arg4)) := by
      show StableHlo.after hostOps25 (W46 m ρ c) (Proc.devRef .tc main_v125) = _
      simp only [hostOps25]; after_results; rfl
    exact h.trans (by rw [arg4_46 m ρ c])
  have h2 : W47 m ρ c (Proc.devRef .tc main_v128)
      = Cert.Spec.rowK (Cert.Spec.biasVec1 (m ((c : Thread nD τ).loc main_arg5))) Gen.shapeCasts_S128_S1x128 := by
    have h : W47 m ρ c (Proc.devRef .tc main_v128)
        = Cert.Spec.rowK (Cert.Spec.biasVec1 (W46 m ρ c (Proc.devRef .tc main_arg5))) Gen.shapeCasts_S128_S1x128 := by
      show StableHlo.after hostOps25 (W46 m ρ c) (Proc.devRef .tc main_v128) = _
      simp only [hostOps25]; after_results; rfl
    exact h.trans (by rw [arg5_46 m ρ c])
  exact ((W48_arr m ρ c 3).trans (RegionValue.final25 (V47 m ρ) c)).trans (congr (congrArg₂ Cert.Spec.dense h0 h1) h2)

/-- The result buffer at the last segment boundary is the network of the argument arrays as launched. -/
theorem kernel_value (c : Dev nD) :
    W49 m ρ c (Proc.devRef .tc main_v130)
      = Cert.Spec.resultK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          Gen.shapeCasts_S50000_S50000x1 Gen.shapeCasts_S800000_S800000x1 Gen.shapeCasts_S128_S1x128 := by
  -- graph 0: four hops from the launched features, the dense layer; the output array then stays as it is up to the last boundary
  have a1 := hop_3 m ρ c _ (arg0_3 m ρ c)
  have a2 := hop_8 m ρ c _ a1
  have a3 := hop_13 m ρ c _ a2
  have a4 := hop_18 m ρ c _ a3
  have a5 := (out0_48 m ρ c).trans (dense_25 m ρ c _ a4)
  rw [nrm_val m ρ c, ew0_val m ρ c] at a5
  -- graph 1: the same from the launched features again, with its own edge weights, weight matrix and bias
  have b1 := hop_26 m ρ c _ (arg0_26 m ρ c)
  have b2 := hop_31 m ρ c _ b1
  have b3 := hop_36 m ρ c _ b2
  have b4 := hop_41 m ρ c _ b3
  have b5 := dense_48 m ρ c _ b4
  rw [nrm_val m ρ c, ew1_val m ρ c] at b5
  -- the join
  have j : W49 m ρ c (Proc.devRef .tc main_v130)
      = Cert.Spec.joined (W48 m ρ c (Proc.devRef .tc main_v68)) (W48 m ρ c (Proc.devRef .tc main_v129)) := by
    show StableHlo.after hostOps26 (W48 m ρ c) (Proc.devRef .tc main_v130) = _
    simp only [hostOps26]; after_results; rfl
  exact j.trans (congrArg₂ Cert.Spec.joined a5 b5)

end Cert.KernelIdeal.Chain

end
-- ==== Proof.Algebraic.lean ====
/-
  The two idealized programs end with equal results.  The tiled program's result buffer is the network of the argument arrays with
  three operands re-laid by reshapes (the degree normalisation and the edge weights as columns, the bias as a row); the plain
  program's is the same network with those operands laid out by broadcasts.  A vector re-laid as a column or a row is the same
  array either way, so the two results are one function of arguments that agree.
-/
import proofs.«172771_j21320217657536_1_alg».proof.Defs
import proofs.«172771_j21320217657536_1_alg».proof.Proof.Gen.KernelIdeal
import proofs.«172771_j21320217657536_1_alg».proof.Proof.Gen.ReferenceIdeal
import proofs.«172771_j21320217657536_1_alg».proof.Proof.Gen.ReferenceIdeal.Run
import proofs.«172771_j21320217657536_1_alg».proof.Proof.Gen.Pre_finite_inputs
import proofs.«172771_j21320217657536_1_alg».proof.Proof.Spec
import proofs.«172771_j21320217657536_1_alg».proof.Proof.Relayout
import proofs.«172771_j21320217657536_1_alg».proof.Proof.RefResult
import proofs.«172771_j21320217657536_1_alg».proof.Proof.KernelRun
import proofs.«172771_j21320217657536_1_alg».proof.Proof.ChainResult

noncomputable section

namespace Cert.Spec

open Cert.ReferenceIdeal Idealize.ShloMosaic

variable [Cert.ReferenceIdeal.Facts]

/-- The network with its three re-laid operands is the network with them laid out by broadcasts. -/
theorem resultK_eq (a0 : FA S50000x128) (a1 a2 : IA S800000) (a3 : FA S2x800000) (a4 : FA S2x128x128) (a5 : FA S2x128)
    (h1 : S50000.ShapeCasts S50000x1) (h2 : S800000.ShapeCasts S800000x1) (h3 : S128.ShapeCasts S1x128) :
    resultK a0 a1 a2 a3 a4 a5 h1 h2 h3 = resultR a0 a1 a2 a3 a4 a5 := by
  unfold resultK resultR
  rw [normK_eq, colK_eq, colK_eq, rowK_eq, rowK_eq]

end Cert.Spec

namespace Cert.Proof

open Idealize.ShloMosaic Idealize.SL.Sem

/-- Both programs run, and from memories that agree on the arguments they end with the same result array. -/
theorem algebraic : Cert.algebraic_KernelIdeal_ReferenceIdeal := by
  intro m ρ m' ρ' _ hagree
  refine ⟨fun c => Cert.Spec.resultR
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.RunValue.run_value (F := Ideal) m ρ)
    exact (Cert.KernelIdeal.Chain.kernel_value m ρ c).trans (Cert.Spec.resultK_eq _ _ _ _ _ _ _ _ _)
  · refine (θ_run Cert.ReferenceIdeal.defs _ _).mono (fun r h c => ⟨(h c).1.trans ?_, (h c).2⟩)
      (Cert.ReferenceIdeal.Value.run (F := Ideal) m' ρ')
    rw [Cert.ReferenceIdeal.RefValue.ref_result m' c, (hagree c).1, (hagree c).2.1, (hagree c).2.2.1, (hagree c).2.2.2.1,
      (hagree c).2.2.2.2.1, (hagree c).2.2.2.2.2]

end Cert.Proof

end
-- ==== Proof.lean ====
/-
  The certificate of the four-hop graph convolution network: the tiled program (twenty-six tiled kernels among host gathers and
  segment sums) against the plain array program.

  The three frames: the two tiled programs' frames are the generated ones; the plain program's is its generated run with the result
  dropped.  The idealization rewrote nothing, so there is nothing to preserve.  The value claim is in Proof/Algebraic.lean: the
  specification (Proof/Spec.lean) names every stage as a whole-array function; each tiled kernel's output array is its stage of its
  input arrays (Proof/Region*.lean); the segment boundaries chain the stages into the network (Proof/Chain*.lean); the plain program's
  result is the same network by unfolding (Proof/RefResult.lean).
-/
import proofs.«172771_j21320217657536_1_alg».proof.Defs
import proofs.«172771_j21320217657536_1_alg».proof.Proof.Gen.Kernel
import proofs.«172771_j21320217657536_1_alg».proof.Proof.Gen.Kernel.Skeleton
import proofs.«172771_j21320217657536_1_alg».proof.Proof.Gen.Kernel.Launch
import proofs.«172771_j21320217657536_1_alg».proof.Proof.Gen.Kernel.Points
import proofs.«172771_j21320217657536_1_alg».proof.Proof.Gen.Kernel.Frame
import proofs.«172771_j21320217657536_1_alg».proof.Proof.Gen.KernelIdeal
import proofs.«172771_j21320217657536_1_alg».proof.Proof.Gen.KernelIdeal.Skeleton
import proofs.«172771_j21320217657536_1_alg».proof.Proof.Gen.KernelIdeal.Launch
import proofs.«172771_j21320217657536_1_alg».proof.Proof.Gen.KernelIdeal.Points
import proofs.«172771_j21320217657536_1_alg».proof.Proof.Gen.KernelIdeal.Frame
import proofs.«172771_j21320217657536_1_alg».proof.Proof.Gen.ReferenceIdeal
import proofs.«172771_j21320217657536_1_alg».proof.Proof.Gen.ReferenceIdeal.Run
import proofs.«172771_j21320217657536_1_alg».proof.Proof.Gen.ReferenceIdeal.Read
import proofs.«172771_j21320217657536_1_alg».proof.Proof.Gen.Pre_finite_inputs
import proofs.«172771_j21320217657536_1_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.algebraic⟩

end Cert.Proof

end
